-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v43_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x4096 : Shape := ⟨3, ![1, 768, 4096]⟩
abbrev S1x256 : Shape := ⟨2, ![1, 256]⟩
abbrev S384x768 : Shape := ⟨2, ![384, 768]⟩
abbrev S384 : Shape := ⟨1, ![384]⟩
abbrev S768x384 : Shape := ⟨2, ![768, 384]⟩
abbrev S768 : Shape := ⟨1, ![768]⟩
abbrev S4096x256 : Shape := ⟨2, ![4096, 256]⟩
abbrev S4096 : Shape := ⟨1, ![4096]⟩
abbrev S_ : Shape := ⟨0, ![]⟩

class Facts : Prop where
  bcast_S_S1x768x4096 : S_.BroadcastsInDim S1x768x4096 (![] : Fin 0 → Fin S1x768x4096.rank)
  reducesTo_S1x768x4096_S_d0_1_2 : S1x768x4096.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S384x768 : S_.BroadcastsInDim S384x768 (![] : Fin 0 → Fin S384x768.rank)
  reducesTo_S384x768_S_d0_1 : S384x768.ReducesTo [0, 1] S_
  bcast_S_S384 : S_.BroadcastsInDim S384 (![] : Fin 0 → Fin S384.rank)
  reducesTo_S384_S_d0 : S384.ReducesTo [0] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part8 {F : FTy → Type} [FloatOps F] (main_arg18 : FVec F S384 .f32) (main_arg22 : FVec F S384 .f32) (main_v133 : IVec S_ 1) (main_v135 : IVec S384 1) (main_c_53 : IVec S_ 1) : IVec S_ 1 :=
  let main_v136 : IVec S_ 1 := (fun x v => Host.reduce IntOp.andi x v reducesTo_S384_S_d0 h_S_) main_v135 main_c_53
  let main_v137 : IVec S_ 1 := andi main_v133 main_v136
  let main_cst_54 : FVec F S_ .f32 := constant S_ .f32 0x00000000#32
  let main_v138 : FVec F S384 .f32 := broadcastInDim S384 ![] bcast_S_S384 main_cst_54
  let main_v139 : IVec S384 1 := cmpf .oge main_arg18 main_v138
  let main_c_55 : IVec S_ 1 := constantI S_ 1 1#1
  let main_v140 : IVec S_ 1 := (fun x v => Host.reduce IntOp.andi x v reducesTo_S384_S_d0 h_S_) main_v139 main_c_55
  let main_v141 : IVec S_ 1 := andi main_v137 main_v140
  let main_cst_56 : FVec F S_ .f32 := constant S_ .f32 0x00000000#32
  let main_v142 : FVec F S384 .f32 := broadcastInDim S384 ![] bcast_S_S384 main_cst_56
  let main_v143 : IVec S384 1 := cmpf .oge main_arg22 main_v142
  let main_c_57 : IVec S_ 1 := constantI S_ 1 1#1
  let main_v144 : IVec S_ 1 := (fun x v => Host.reduce IntOp.andi x v reducesTo_S384_S_d0 h_S_) main_v143 main_c_57
  let main_v145 : IVec S_ 1 := andi main_v141 main_v144
  main_v145

def fn_part7 {F : FTy → Type} [FloatOps F] (main_arg14 : FVec F S384 .f32) (main_arg18 : FVec F S384 .f32) (main_arg22 : FVec F S384 .f32) (main_arg25 : FVec F S4096x256 .f32) (main_arg26 : FVec F S4096 .f32) (main_v118 : IVec S_ 1) (main_v119 : FVec F S4096 .f32) : IVec S_ 1 :=
  let main_cst_46 : FVec F S_ .f32 := constant S_ .f32 0x7F800000#32
  let main_v120 : FVec F S4096 .f32 := broadcastInDim S4096 ![] bcast_S_S4096 main_cst_46
  let main_v121 : IVec S4096 1 := cmpf .olt main_v119 main_v120
  let main_c_47 : IVec S_ 1 := constantI S_ 1 1#1
  let main_v122 : IVec S_ 1 := (fun x v => Host.reduce IntOp.andi x v reducesTo_S4096_S_d0 h_S_) main_v121 main_c_47
  let main_v123 : IVec S_ 1 := andi main_v118 main_v122
  let main_v124 : FVec F S4096x256 .f32 := Host.absf main_arg25
  let main_cst_48 : FVec F S_ .f32 := constant S_ .f32 0x7F800000#32
  let main_v125 : FVec F S4096x256 .f32 := broadcastInDim S4096x256 ![] bcast_S_S4096x256 main_cst_48
  let main_v126 : IVec S4096x256 1 := cmpf .olt main_v124 main_v125
  let main_c_49 : IVec S_ 1 := constantI S_ 1 1#1
  let main_v127 : IVec S_ 1 := (fun x v => Host.reduce IntOp.andi x v reducesTo_S4096x256_S_d0_1 h_S_) main_v126 main_c_49
  let main_v128 : IVec S_ 1 := andi main_v123 main_v127
  let main_v129 : FVec F S4096 .f32 := Host.absf main_arg26
  let main_cst_50 : FVec F S_ .f32 := constant S_ .f32 0x7F800000#32
  let main_v130 : FVec F S4096 .f32 := broadcastInDim S4096 ![] bcast_S_S4096 main_cst_50
  let main_v131 : IVec S4096 1 := cmpf .olt main_v129 main_v130
  let main_c_51 : IVec S_ 1 := constantI S_ 1 1#1
  let main_v132 : IVec S_ 1 := (fun x v => Host.reduce IntOp.andi x v reducesTo_S4096_S_d0 h_S_) main_v131 main_c_51
  let main_v133 : IVec S_ 1 := andi main_v128 main_v132
  let main_cst_52 : FVec F S_ .f32 := constant S_ .f32 0x00000000#32
  let main_v134 : FVec F S384 .f32 := broadcastInDim S384 ![] bcast_S_S384 main_cst_52
  let main_v135 : IVec S384 1 := cmpf .oge main_arg14 main_v134
  let main_c_53 : IVec S_ 1 := constantI S_ 1 1#1
  fn_part8 (F := F) main_arg18 main_arg22 main_v133 main_v135 main_c_53

def fn_part6 {F : FTy → Type} [FloatOps F] (main_arg14 : FVec F S384 .f32) (main_arg18 : FVec F S384 .f32) (main_arg21 : FVec F S384 .f32) (main_arg22 : FVec F S384 .f32) (main_arg23 : FVec F S4096x256 .f32) (main_arg24 : FVec F S4096 .f32) (main_arg25 : FVec F S4096x256 .f32) (main_arg26 : FVec F S4096 .f32) (main_v98 : IVec S_ 1) (main_v101 : IVec S384 1) (main_c_39 : IVec S_ 1) : IVec S_ 1 :=
  let main_v102 : IVec S_ 1 := (fun x v => Host.reduce IntOp.andi x v reducesTo_S384_S_d0 h_S_) main_v101 main_c_39
  let main_v103 : IVec S_ 1 := andi main_v98 main_v102
  let main_v104 : FVec F S384 .f32 := Host.absf main_arg21
  let main_cst_40 : FVec F S_ .f32 := constant S_ .f32 0x7F800000#32
  let main_v105 : FVec F S384 .f32 := broadcastInDim S384 ![] bcast_S_S384 main_cst_40
  let main_v106 : IVec S384 1 := cmpf .olt main_v104 main_v105
  let main_c_41 : IVec S_ 1 := constantI S_ 1 1#1
  let main_v107 : IVec S_ 1 := (fun x v => Host.reduce IntOp.andi x v reducesTo_S384_S_d0 h_S_) main_v106 main_c_41
  let main_v108 : IVec S_ 1 := andi main_v103 main_v107
  let main_v109 : FVec F S384 .f32 := Host.absf main_arg22
  let main_cst_42 : FVec F S_ .f32 := constant S_ .f32 0x7F800000#32
  let main_v110 : FVec F S384 .f32 := broadcastInDim S384 ![] bcast_S_S384 main_cst_42
  let main_v111 : IVec S384 1 := cmpf .olt main_v109 main_v110
  let main_c_43 : IVec S_ 1 := constantI S_ 1 1#1
  let main_v112 : IVec S_ 1 := (fun x v => Host.reduce IntOp.andi x v reducesTo_S384_S_d0 h_S_) main_v111 main_c_43
  let main_v113 : IVec S_ 1 := andi main_v108 main_v112
  let main_v114 : FVec F S4096x256 .f32 := Host.absf main_arg23
  let main_cst_44 : FVec F S_ .f32 := constant S_ .f32 0x7F800000#32
  let main_v115 : FVec F S4096x256 .f32 := broadcastInDim S4096x256 ![] bcast_S_S4096x256 main_cst_44
  let main_v116 : IVec S4096x256 1 := cmpf .olt main_v114 main_v115
  let main_c_45 : IVec S_ 1 := constantI S_ 1 1#1
  let main_v117 : IVec S_ 1 := (fun x v => Host.reduce IntOp.andi x v reducesTo_S4096x256_S_d0_1 h_S_) main_v116 main_c_45
  let main_v118 : IVec S_ 1 := andi main_v113 main_v117
  let main_v119 : FVec F S4096 .f32 := Host.absf main_arg24
  fn_part7 (F := F) main_arg14 main_arg18 main_arg22 main_arg25 main_arg26 main_v118 main_v119

def fn_part5 {F : FTy → Type} [FloatOps F] (main_arg14 : FVec F S384 .f32) (main_arg18 : FVec F S384 .f32) (main_arg19 : FVec F S384 .f32) (main_arg20 : FVec F S384 .f32) (main_arg21 : FVec F S384 .f32) (main_arg22 : FVec F S384 .f32) (main_arg23 : FVec F S4096x256 .f32) (main_arg24 : FVec F S4096 .f32) (main_arg25 : FVec F S4096x256 .f32) (main_arg26 : FVec F S4096 .f32) (main_v83 : IVec S_ 1) (main_v84 : FVec F S384 .f32) (main_cst_32 : FVec F S_ .f32) : IVec S_ 1 :=
  let main_v85 : FVec F S384 .f32 := broadcastInDim S384 ![] bcast_S_S384 main_cst_32
  let main_v86 : IVec S384 1 := cmpf .olt main_v84 main_v85
  let main_c_33 : IVec S_ 1 := constantI S_ 1 1#1
  let main_v87 : IVec S_ 1 := (fun x v => Host.reduce IntOp.andi x v reducesTo_S384_S_d0 h_S_) main_v86 main_c_33
  let main_v88 : IVec S_ 1 := andi main_v83 main_v87
  let main_v89 : FVec F S384 .f32 := Host.absf main_arg18
  let main_cst_34 : FVec F S_ .f32 := constant S_ .f32 0x7F800000#32
  let main_v90 : FVec F S384 .f32 := broadcastInDim S384 ![] bcast_S_S384 main_cst_34
  let main_v91 : IVec S384 1 := cmpf .olt main_v89 main_v90
  let main_c_35 : IVec S_ 1 := constantI S_ 1 1#1
  let main_v92 : IVec S_ 1 := (fun x v => Host.reduce IntOp.andi x v reducesTo_S384_S_d0 h_S_) main_v91 main_c_35
  let main_v93 : IVec S_ 1 := andi main_v88 main_v92
  let main_v94 : FVec F S384 .f32 := Host.absf main_arg19
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_v99 : FVec F S384 .f32 := Host.absf main_arg20
  let main_cst_38 : FVec F S_ .f32 := constant S_ .f32 0x7F800000#32
  let main_v100 : FVec F S384 .f32 := broadcastInDim S384 ![] bcast_S_S384 main_cst_38
  let main_v101 : IVec S384 1 := cmpf .olt main_v99 main_v100
  let main_c_39 : IVec S_ 1 := constantI S_ 1 1#1
  fn_part6 (F := F) main_arg14 main_arg18 main_arg21 main_arg22 main_arg23 main_arg24 main_arg25 main_arg26 main_v98 main_v101 main_c_39

def fn_part4 {F : FTy → Type} [FloatOps F] (main_arg14 : FVec F S384 .f32) (main_arg15 : FVec F S384 .f32) (main_arg16 : FVec F S384 .f32) (main_arg17 : FVec F S384 .f32) (main_arg18 : FVec F S384 .f32) (main_arg19 : FVec F S384 .f32) (main_arg20 : FVec F S384 .f32) (main_arg21 : FVec F S384 .f32) (main_arg22 : FVec F S384 .f32) (main_arg23 : FVec F S4096x256 .f32) (main_arg24 : FVec F S4096 .f32) (main_arg25 : FVec F S4096x256 .f32) (main_arg26 : FVec F S4096 .f32) (main_v63 : IVec S_ 1) (main_v67 : IVec S_ 1) : IVec S_ 1 :=
  let main_v68 : IVec S_ 1 := andi main_v63 main_v67
  let main_v69 : FVec F S384 .f32 := Host.absf main_arg14
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S384 .f32 := Host.absf main_arg15
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : FVec F S384 .f32 := Host.absf main_arg16
  let main_cst_30 : FVec F S_ .f32 := constant S_ .f32 0x7F800000#32
  let main_v80 : FVec F S384 .f32 := broadcastInDim S384 ![] bcast_S_S384 main_cst_30
  let main_v81 : IVec S384 1 := cmpf .olt main_v79 main_v80
  let main_c_31 : IVec S_ 1 := constantI S_ 1 1#1
  let main_v82 : IVec S_ 1 := (fun x v => Host.reduce IntOp.andi x v reducesTo_S384_S_d0 h_S_) main_v81 main_c_31
  let main_v83 : IVec S_ 1 := andi main_v78 main_v82
  let main_v84 : FVec F S384 .f32 := Host.absf main_arg17
  let main_cst_32 : FVec F S_ .f32 := constant S_ .f32 0x7F800000#32
  fn_part5 (F := F) main_arg14 main_arg18 main_arg19 main_arg20 main_arg21 main_arg22 main_arg23 main_arg24 main_arg25 main_arg26 main_v83 main_v84 main_cst_32

def fn_part3 {F : FTy → Type} [FloatOps F] (main_arg11 : FVec F S384 .f32) (main_arg12 : FVec F S384 .f32) (main_arg13 : FVec F S384 .f32) (main_arg14 : FVec F S384 .f32) (main_arg15 : FVec F S384 .f32) (main_arg16 : FVec F S384 .f32) (main_arg17 : FVec F S384 .f32) (main_arg18 : FVec F S384 .f32) (main_arg19 : FVec F S384 .f32) (main_arg20 : FVec F S384 .f32) (main_arg21 : FVec F S384 .f32) (main_arg22 : FVec F S384 .f32) (main_arg23 : FVec F S4096x256 .f32) (main_arg24 : FVec F S4096 .f32) (main_arg25 : FVec F S4096x256 .f32) (main_arg26 : FVec F S4096 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S384 .f32 := Host.absf main_arg11
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384 .f32 := Host.absf main_arg13
  let main_cst_24 : FVec F S_ .f32 := constant S_ .f32 0x7F800000#32
  let main_v65 : FVec F S384 .f32 := broadcastInDim S384 ![] bcast_S_S384 main_cst_24
  let main_v66 : IVec S384 1 := cmpf .olt main_v64 main_v65
  let main_c_25 : IVec S_ 1 := constantI S_ 1 1#1
  let main_v67 : IVec S_ 1 := (fun x v => Host.reduce IntOp.andi x v reducesTo_S384_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S384x768 .f32) (main_arg8 : FVec F S384 .f32) (main_arg9 : FVec F S768x384 .f32) (main_arg10 : FVec F S768 .f32) (main_arg11 : FVec F S384 .f32) (main_arg12 : FVec F S384 .f32) (main_arg13 : FVec F S384 .f32) (main_arg14 : FVec F S384 .f32) (main_arg15 : FVec F S384 .f32) (main_arg16 : FVec F S384 .f32) (main_arg17 : FVec F S384 .f32) (main_arg18 : FVec F S384 .f32) (main_arg19 : FVec F S384 .f32) (main_arg20 : FVec F S384 .f32) (main_arg21 : FVec F S384 .f32) (main_arg22 : FVec F S384 .f32) (main_arg23 : FVec F S4096x256 .f32) (main_arg24 : FVec F S4096 .f32) (main_arg25 : FVec F S4096x256 .f32) (main_arg26 : FVec F S4096 .f32) (main_v33 : IVec S_ 1) : IVec S_ 1 :=
  let main_v34 : FVec F S384x768 .f32 := Host.absf main_arg7
  let main_cst_12 : FVec F S_ .f32 := constant S_ .f32 0x7F800000#32
  let main_v35 : FVec F S384x768 .f32 := broadcastInDim S384x768 ![] bcast_S_S384x768 main_cst_12
  let main_v36 : IVec S384x768 1 := cmpf .olt main_v34 main_v35
  let main_c_13 : IVec S_ 1 := constantI S_ 1 1#1
  let main_v37 : IVec S_ 1 := (fun x v => Host.reduce IntOp.andi x v reducesTo_S384x768_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S768x384 .f32 := Host.absf main_arg9
  let main_cst_16 : FVec F S_ .f32 := constant S_ .f32 0x7F800000#32
  let main_v45 : FVec F S768x384 .f32 := broadcastInDim S768x384 ![] bcast_S_S768x384 main_cst_16
  let main_v46 : IVec S768x384 1 := cmpf .olt main_v44 main_v45
  let main_c_17 : IVec S_ 1 := constantI S_ 1 1#1
  let main_v47 : IVec S_ 1 := (fun x v => Host.reduce IntOp.andi x v reducesTo_S768x384_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S384 .f32) (main_arg5 : FVec F S384x768 .f32) (main_arg6 : FVec F S384 .f32) (main_arg7 : FVec F S384x768 .f32) (main_arg8 : FVec F S384 .f32) (main_arg9 : FVec F S768x384 .f32) (main_arg10 : FVec F S768 .f32) (main_arg11 : FVec F S384 .f32) (main_arg12 : FVec F S384 .f32) (main_arg13 : FVec F S384 .f32) (main_arg14 : FVec F S384 .f32) (main_arg15 : FVec F S384 .f32) (main_arg16 : FVec F S384 .f32) (main_arg17 : FVec F S384 .f32) (main_arg18 : FVec F S384 .f32) (main_arg19 : FVec F S384 .f32) (main_arg20 : FVec F S384 .f32) (main_arg21 : FVec F S384 .f32) (main_arg22 : FVec F S384 .f32) (main_arg23 : FVec F S4096x256 .f32) (main_arg24 : FVec F S4096 .f32) (main_arg25 : FVec F S4096x256 .f32) (main_arg26 : FVec F S4096 .f32) (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x768 .f32 := Host.absf main_arg5
  let main_cst_8 : FVec F S_ .f32 := constant S_ .f32 0x7F800000#32
  let main_v25 : FVec F S384x768 .f32 := broadcastInDim S384x768 ![] bcast_S_S384x768 main_cst_8
  let main_v26 : IVec S384x768 1 := cmpf .olt main_v24 main_v25
  let main_c_9 : IVec S_ 1 := constantI S_ 1 1#1
  let main_v27 : IVec S_ 1 := (fun x v => Host.reduce IntOp.andi x v reducesTo_S384x768_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S1x768x4096 .f32) (main_arg1 : FVec F S1x256 .f32) (main_arg2 : FVec F S1x256 .f32) (main_arg3 : FVec F S384x768 .f32) (main_arg4 : FVec F S384 .f32) (main_arg5 : FVec F S384x768 .f32) (main_arg6 : FVec F S384 .f32) (main_arg7 : FVec F S384x768 .f32) (main_arg8 : FVec F S384 .f32) (main_arg9 : FVec F S768x384 .f32) (main_arg10 : FVec F S768 .f32) (main_arg11 : FVec F S384 .f32) (main_arg12 : FVec F S384 .f32) (main_arg13 : FVec F S384 .f32) (main_arg14 : FVec F S384 .f32) (main_arg15 : FVec F S384 .f32) (main_arg16 : FVec F S384 .f32) (main_arg17 : FVec F S384 .f32) (main_arg18 : FVec F S384 .f32) (main_arg19 : FVec F S384 .f32) (main_arg20 : FVec F S384 .f32) (main_arg21 : FVec F S384 .f32) (main_arg22 : FVec F S384 .f32) (main_arg23 : FVec F S4096x256 .f32) (main_arg24 : FVec F S4096 .f32) (main_arg25 : FVec F S4096x256 .f32) (main_arg26 : FVec F S4096 .f32) : IVec S_ 1 :=
  let main_v0 : FVec F S1x768x4096 .f32 := Host.absf main_arg0
  let main_cst : FVec F S_ .f32 := constant S_ .f32 0x7F800000#32
  let main_v1 : FVec F S1x768x4096 .f32 := broadcastInDim S1x768x4096 ![] bcast_S_S1x768x4096 main_cst
  let main_v2 : IVec S1x768x4096 1 := cmpf .olt main_v0 main_v1
  let main_c : IVec S_ 1 := constantI S_ 1 1#1
  let main_v3 : IVec S_ 1 := (fun x v => Host.reduce IntOp.andi x v reducesTo_S1x768x4096_S_d0_1_2 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S384x768 .f32 := Host.absf main_arg3
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S1x768x4096 : Shape := ⟨3, ![1, 768, 4096]⟩
abbrev S1x256 : Shape := ⟨2, ![1, 256]⟩
abbrev S384x768 : Shape := ⟨2, ![384, 768]⟩
abbrev S384 : Shape := ⟨1, ![384]⟩
abbrev S768x384 : Shape := ⟨2, ![768, 384]⟩
abbrev S768 : Shape := ⟨1, ![768]⟩
abbrev S4096x256 : Shape := ⟨2, ![4096, 256]⟩
abbrev S4096 : Shape := ⟨1, ![4096]⟩
abbrev S768x4096 : Shape := ⟨2, ![768, 4096]⟩
abbrev S1152x768 : Shape := ⟨2, ![1152, 768]⟩
abbrev S_ : Shape := ⟨0, ![]⟩
abbrev S1152 : Shape := ⟨1, ![1152]⟩
abbrev S1152x1 : Shape := ⟨2, ![1152, 1]⟩
abbrev S1152x4096 : Shape := ⟨2, ![1152, 4096]⟩
abbrev S768x1024 : Shape := ⟨2, ![768, 1024]⟩
abbrev S1152x1024 : Shape := ⟨2, ![1152, 1024]⟩
abbrev S384x4096 : Shape := ⟨2, ![384, 4096]⟩
abbrev S4096x384 : Shape := ⟨2, ![4096, 384]⟩
abbrev S256x4096 : Shape := ⟨2, ![256, 4096]⟩
abbrev S1x4096 : Shape := ⟨2, ![1, 4096]⟩
abbrev S4096x4096 : Shape := ⟨2, ![4096, 4096]⟩
abbrev S384x256 : Shape := ⟨2, ![384, 256]⟩
abbrev S256x384 : Shape := ⟨2, ![256, 384]⟩
abbrev S256 : Shape := ⟨1, ![256]⟩
abbrev S256x1 : Shape := ⟨2, ![256, 1]⟩
abbrev S768x1 : Shape := ⟨2, ![768, 1]⟩
abbrev S384x1024 : Shape := ⟨2, ![384, 1024]⟩
abbrev S64x12x4096 : Shape := ⟨3, ![64, 12, 4096]⟩

abbrev nBuf : Space → Nat
  | .hbm => 80
  | .vmem => 24
  | .smem => 0
  | _ => 0

abbrev bufTy : (tb : Table) → Fin (tcTables nBuf tb) → BufTy
  | .hbm, ⟨0, _⟩ => ⟨S1x768x4096, .f32⟩
  | .hbm, ⟨1, _⟩ => ⟨S1x256, .f32⟩
  | .hbm, ⟨2, _⟩ => ⟨S1x256, .f32⟩
  | .hbm, ⟨3, _⟩ => ⟨S384x768, .f32⟩
  | .hbm, ⟨4, _⟩ => ⟨S384, .f32⟩
  | .hbm, ⟨5, _⟩ => ⟨S384x768, .f32⟩
  | .hbm, ⟨6, _⟩ => ⟨S384, .f32⟩
  | .hbm, ⟨7, _⟩ => ⟨S384x768, .f32⟩
  | .hbm, ⟨8, _⟩ => ⟨S384, .f32⟩
  | .hbm, ⟨9, _⟩ => ⟨S768x384, .f32⟩
  | .hbm, ⟨10, _⟩ => ⟨S768, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S384, .f32⟩
  | .hbm, ⟨15, _⟩ => ⟨S384, .f32⟩
  | .hbm, ⟨16, _⟩ => ⟨S384, .f32⟩
  | .hbm, ⟨17, _⟩ => ⟨S384, .f32⟩
  | .hbm, ⟨18, _⟩ => ⟨S384, .f32⟩
  | .hbm, ⟨19, _⟩ => ⟨S384, .f32⟩
  | .hbm, ⟨20, _⟩ => ⟨S384, .f32⟩
  | .hbm, ⟨21, _⟩ => ⟨S384, .f32⟩
  | .hbm, ⟨22, _⟩ => ⟨S384, .f32⟩
  | .hbm, ⟨23, _⟩ => ⟨S4096x256, .f32⟩
  | .hbm, ⟨24, _⟩ => ⟨S4096, .f32⟩
  | .hbm, ⟨25, _⟩ => ⟨S4096x256, .f32⟩
  | .hbm, ⟨26, _⟩ => ⟨S4096, .f32⟩
  | .hbm, ⟨27, _⟩ => ⟨S768x4096, .f32⟩
  | .hbm, ⟨28, _⟩ => ⟨S1152x768, .f32⟩
  | .hbm, ⟨29, _⟩ => ⟨S1152x768, .bf16⟩
  | .hbm, ⟨30, _⟩ => ⟨S_, .f32⟩
  | .hbm, ⟨31, _⟩ => ⟨S384, .f32⟩
  | .hbm, ⟨32, _⟩ => ⟨S384, .f32⟩
  | .hbm, ⟨33, _⟩ => ⟨S384, .f32⟩
  | .hbm, ⟨34, _⟩ => ⟨S384, .f32⟩
  | .hbm, ⟨35, _⟩ => ⟨S384, .f32⟩
  | .hbm, ⟨36, _⟩ => ⟨S384, .f32⟩
  | .hbm, ⟨37, _⟩ => ⟨S384, .f32⟩
  | .hbm, ⟨38, _⟩ => ⟨S384, .f32⟩
  | .hbm, ⟨39, _⟩ => ⟨S_, .f32⟩
  | .hbm, ⟨40, _⟩ => ⟨S384, .f32⟩
  | .hbm, ⟨41, _⟩ => ⟨S384, .f32⟩
  | .hbm, ⟨42, _⟩ => ⟨S384, .f32⟩
  | .hbm, ⟨43, _⟩ => ⟨S384, .f32⟩
  | .hbm, ⟨44, _⟩ => ⟨S384, .f32⟩
  | .hbm, ⟨45, _⟩ => ⟨S384, .f32⟩
  | .hbm, ⟨46, _⟩ => ⟨S384, .f32⟩
  | .hbm, ⟨47, _⟩ => ⟨S384, .f32⟩
  | .hbm, ⟨48, _⟩ => ⟨S_, .f32⟩
  | .hbm, ⟨49, _⟩ => ⟨S384, .f32⟩
  | .hbm, ⟨50, _⟩ => ⟨S384, .f32⟩
  | .hbm, ⟨51, _⟩ => ⟨S384, .f32⟩
  | .hbm, ⟨52, _⟩ => ⟨S384, .f32⟩
  | .hbm, ⟨53, _⟩ => ⟨S384, .f32⟩
  | .hbm, ⟨54, _⟩ => ⟨S384, .f32⟩
  | .hbm, ⟨55, _⟩ => ⟨S384, .f32⟩
  | .hbm, ⟨56, _⟩ => ⟨S384, .f32⟩
  | .hbm, ⟨57, _⟩ => ⟨S1152, .f32⟩
  | .hbm, ⟨58, _⟩ => ⟨S1152x1, .f32⟩
  | .hbm, ⟨59, _⟩ => ⟨S1152, .f32⟩
  | .hbm, ⟨60, _⟩ => ⟨S1152x1, .f32⟩
  | .hbm, ⟨61, _⟩ => ⟨S1152x4096, .bf16⟩
  | .hbm, ⟨62, _⟩ => ⟨S384x4096, .bf16⟩
  | .hbm, ⟨63, _⟩ => ⟨S4096x384, .bf16⟩
  | .hbm, ⟨64, _⟩ => ⟨S256x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S256x4096, .f32⟩
  | .hbm, ⟨69, _⟩ => ⟨S1x4096, .f32⟩
  | .hbm, ⟨70, _⟩ => ⟨S1x4096, .f32⟩
  | .hbm, ⟨71, _⟩ => ⟨S1x4096, .f32⟩
  | .hbm, ⟨72, _⟩ => ⟨S1x4096, .f32⟩
  | .hbm, ⟨73, _⟩ => ⟨S4096x4096, .f32⟩
  | .hbm, ⟨74, _⟩ => ⟨S4096x384, .bf16⟩
  | .hbm, ⟨75, _⟩ => ⟨S384x4096, .bf16⟩
  | .hbm, ⟨76, _⟩ => ⟨S768x384, .bf16⟩
  | .hbm, ⟨77, _⟩ => ⟨S768x1, .f32⟩
  | .hbm, ⟨78, _⟩ => ⟨S768x4096, .f32⟩
  | .hbm, ⟨79, _⟩ => ⟨S64x12x4096, .f32⟩
  | .local _ .vmem, ⟨0, _⟩ => ⟨S1152x768, .bf16⟩
  | .local _ .vmem, ⟨1, _⟩ => ⟨S768x1024, .f32⟩
  | .local _ .vmem, ⟨2, _⟩ => ⟨S768x1024, .f32⟩
  | .local _ .vmem, ⟨3, _⟩ => ⟨S1152x1, .f32⟩
  | .local _ .vmem, ⟨4, _⟩ => ⟨S1152x1, .f32⟩
  | .local _ .vmem, ⟨5, _⟩ => ⟨S1152x1024, .bf16⟩
  | .local _ .vmem, ⟨6, _⟩ => ⟨S1152x1024, .bf16⟩
  | .local _ .vmem, ⟨7, _⟩ => ⟨S384x256, .bf16⟩
  | .local _ .vmem, ⟨8, _⟩ => ⟨S384x256, .bf16⟩
  | .local _ .vmem, ⟨9, _⟩ => ⟨S384x4096, .bf16⟩
  | .local _ .vmem, ⟨10, _⟩ => ⟨S4096x384, .bf16⟩
  | .local _ .vmem, ⟨11, _⟩ => ⟨S1x4096, .f32⟩
  | .local _ .vmem, ⟨12, _⟩ => ⟨S256x4096, .f32⟩
  | .local _ .vmem, ⟨13, _⟩ => ⟨S256x4096, .f32⟩
  | .local _ .vmem, ⟨14, _⟩ => ⟨S256x384, .bf16⟩
  | .local _ .vmem, ⟨15, _⟩ => ⟨S256x384, .bf16⟩
  | .local _ .vmem, ⟨16, _⟩ => ⟨S768x384, .bf16⟩
  | .local _ .vmem, ⟨17, _⟩ => ⟨S384x1024, .bf16⟩
  | .local _ .vmem, ⟨18, _⟩ => ⟨S384x1024, .bf16⟩
  | .local _ .vmem, ⟨19, _⟩ => ⟨S768x1, .f32⟩
  | .local _ .vmem, ⟨20, _⟩ => ⟨S768x1024, .f32⟩
  | .local _ .vmem, ⟨21, _⟩ => ⟨S768x1024, .f32⟩
  | .local _ .vmem, ⟨22, _⟩ => ⟨S768x1024, .f32⟩
  | .local _ .vmem, ⟨23, _⟩ => ⟨S768x1024, .f32⟩
  | _, _ => ⟨S1x768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43_0 : Ref sig .tc := ⟨.hbm, 73, rfl⟩
abbrev main_v43_1 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S384x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x384 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S768x384 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S384x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S768x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S768x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S1x768x4096_S768x4096 : S1x768x4096.ShapeCasts S768x4096
  concatenates_S384x768_S384x768_S384x768_S1152x768_d0 : Shape.Concatenates [S384x768, S384x768, S384x768] S1152x768 0
  bitsLt_bf16_f32 : FTy.bits .bf16 < FTy.bits .f32
  bcast_S_S384 : S_.BroadcastsInDim S384 (![] : Fin 0 → Fin S384.rank)
  concatenates_S384_S384_S384_S1152_d0 : Shape.Concatenates [S384, S384, S384] S1152 0
  shapeCasts_S1152_S1152x1 : S1152.ShapeCasts S1152x1
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1152x768_S1152x768_0_0 : ∀ a, (![0, 0] : Fin 2 → Nat) a + S1152x768.size a ≤ S1152x768.size a
  h_S1152x768 : 0 < S1152x768.numel
  shapeCasts_S1152x768_S1152x768 : S1152x768.ShapeCasts S1152x768
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  broadcasts_S1152x1_S1152x1024 : S1152x1.Broadcasts S1152x1024
  inb_S1152x1024_S1152x1024_0_0 : ∀ a, (![0, 0] : Fin 2 → Nat) a + S1152x1024.size a ≤ S1152x1024.size a
  h_S1152x1024 : 0 < S1152x1024.numel
  packedbf16_S1152x1024_S1152x1024_0_0 : (Rect.unit (s := S1152x1024) ![0, 0] S1152x1024.size inb_S1152x1024_S1152x1024_0_0).PackedRows (EltTy.packing .bf16)
  slices_S1152x4096_S384x4096_768_0 : S1152x4096.Slices ![768, 0] S384x4096
  shapeCasts_S384x4096_S4096x384 : S384x4096.ShapeCasts S4096x384
  transposes_S4096x256_S256x4096_1_0 : S4096x256.Transposes [1, 0] S256x4096
  bcast_S4096_S1x4096_1 : S4096.BroadcastsInDim S1x4096 (![1] : Fin 1 → Fin S1x4096.rank)
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S384x4096_S384x4096_0_0 : ∀ a, (![0, 0] : Fin 2 → Nat) a + S384x4096.size a ≤ S384x4096.size a
  h_S384x4096 : 0 < S384x4096.numel
  shapeCasts_S384x4096_S384x4096 : S384x4096.ShapeCasts S384x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S256x384_S256x384_0_0 : ∀ a, (![0, 0] : Fin 2 → Nat) a + S256x384.size a ≤ S256x384.size a
  h_S256x384 : 0 < S256x384.numel
  packedbf16_S256x384_S256x384_0_0 : (Rect.unit (s := S256x384) ![0, 0] S256x384.size inb_S256x384_S256x384_0_0).PackedRows (EltTy.packing .bf16)
  shapeCasts_S4096x384_S384x4096 : S4096x384.ShapeCasts S384x4096
  shapeCasts_S768_S768x1 : S768.ShapeCasts S768x1
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S384x1024_S384x1024_0_0 : ∀ a, (![0, 0] : Fin 2 → Nat) a + S384x1024.size a ≤ S384x1024.size a
  h_S384x1024 : 0 < S384x1024.numel
  shapeCasts_S384x1024_S384x1024 : S384x1024.ShapeCasts S384x1024
  inb_S768x1_S768x1_0_0 : ∀ a, (![0, 0] : Fin 2 → Nat) a + S768x1.size a ≤ S768x1.size a
  h_S768x1 : 0 < S768x1.numel
  shapeCasts_S768x1_S768x1 : S768x1.ShapeCasts S768x1
  broadcasts_S768x1_S768x1024 : S768x1.Broadcasts S768x1024
  shapeCasts_S768x4096_S64x12x4096 : S768x4096.ShapeCasts S64x12x4096
  dot_S1152x768_S768x1024_S1152x1024_1_0_0_1_n_n_wf : DotDims.WF S1152x768 S768x1024 S1152x1024 [1] [0] [0] [1] [] []
  dot_S1x256_S256x4096_S1x4096_1_0_0_1_n_n_wf : DotDims.WF S1x256 S256x4096 S1x4096 [1] [0] [0] [1] [] []
  dot_S384x256_S384x4096_S256x4096_0_0_1_1_n_n_wf : DotDims.WF S384x256 S384x4096 S256x4096 [0] [0] [1] [1] [] []
  dot_S256x4096_S4096x384_S256x384_1_0_0_1_n_n_wf : DotDims.WF S256x4096 S4096x384 S256x384 [1] [0] [0] [1] [] []
  dot_S768x384_S384x1024_S768x1024_1_0_0_1_n_n_wf : DotDims.WF S768x384 S384x1024 S768x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1152x768.size a ≤ S1152x768.size a
  hwx0_0 : ∀ i : grid0.Coords, EltTy.bits .bf16 = 32 ∨ (Rect.block (s := S1152x768) S1152x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x4096.size a
  hwx0_1 : ∀ i : grid0.Coords, EltTy.bits .f32 = 32 ∨ (Rect.block (s := S768x4096) S768x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152x1.size a ≤ S1152x1.size a
  hwx0_2 : ∀ i : grid0.Coords, EltTy.bits .f32 = 32 ∨ (Rect.block (s := S1152x1) S1152x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1152x1.size a ≤ S1152x1.size a
  hwx0_3 : ∀ i : grid0.Coords, EltTy.bits .f32 = 32 ∨ (Rect.block (s := S1152x1) S1152x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1152x1024.size a ≤ S1152x4096.size a
  hwx0_4 : ∀ i : grid0.Coords, EltTy.bits .bf16 = 32 ∨ (Rect.block (s := S1152x4096) S1152x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S384x256.size a ≤ S1152x4096.size a
  hwx1_0 : ∀ i : grid1.Coords, EltTy.bits .bf16 = 32 ∨ (Rect.block (s := S1152x4096) S384x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x4096.size a ≤ S1152x4096.size a
  hwx1_1 : ∀ i : grid1.Coords, EltTy.bits .bf16 = 32 ∨ (Rect.block (s := S1152x4096) S384x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x384.size a ≤ S4096x384.size a
  hwx1_2 : ∀ i : grid1.Coords, EltTy.bits .bf16 = 32 ∨ (Rect.block (s := S4096x384) S4096x384.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x384.size a ≤ S4096x384.size a
  hwx1_5 : ∀ i : grid1.Coords, EltTy.bits .bf16 = 32 ∨ (Rect.block (s := S4096x384) S256x384.size (cc1_transform_5 i) (hinb1_5 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S768x384.size a ≤ S768x384.size a
  hwx2_0 : ∀ i : grid2.Coords, EltTy.bits .bf16 = 32 ∨ (Rect.block (s := S768x384) S768x384.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S384x1024.size a ≤ S384x4096.size a
  hwx2_1 : ∀ i : grid2.Coords, EltTy.bits .bf16 = 32 ∨ (Rect.block (s := S384x4096) S384x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x1.size a ≤ S768x1.size a
  hwx2_2 : ∀ i : grid2.Coords, EltTy.bits .f32 = 32 ∨ (Rect.block (s := S768x1) S768x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S768x1024.size a ≤ S768x4096.size a
  hwx2_3 : ∀ i : grid2.Coords, EltTy.bits .f32 = 32 ∨ (Rect.block (s := S768x4096) S768x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S768x1024.size a ≤ S768x4096.size a
  hwx2_4 : ∀ i : grid2.Coords, EltTy.bits .f32 = 32 ∨ (Rect.block (s := S768x4096) S768x1024.size (cc2_transform_4 i) (hinb2_4 i)).WholeWords (EltTy.packing .f32)

variable [Facts₀]

def dot_S1152x768_S768x1024_S1152x1024_1_0_0_1_n_n : DotDims S1152x768 S768x1024 S1152x1024 where
  lhsContracting := [1]
  rhsContracting := [0]
  lhsNonContracting := [0]
  rhsNonContracting := [1]
  lhsBatch := []
  rhsBatch := []
  wf := dot_S1152x768_S768x1024_S1152x1024_1_0_0_1_n_n_wf
def dot_S1x256_S256x4096_S1x4096_1_0_0_1_n_n : DotDims S1x256 S256x4096 S1x4096 where
  lhsContracting := [1]
  rhsContracting := [0]
  lhsNonContracting := [0]
  rhsNonContracting := [1]
  lhsBatch := []
  rhsBatch := []
  wf := dot_S1x256_S256x4096_S1x4096_1_0_0_1_n_n_wf
def dot_S384x256_S384x4096_S256x4096_0_0_1_1_n_n : DotDims S384x256 S384x4096 S256x4096 where
  lhsContracting := [0]
  rhsContracting := [0]
  lhsNonContracting := [1]
  rhsNonContracting := [1]
  lhsBatch := []
  rhsBatch := []
  wf := dot_S384x256_S384x4096_S256x4096_0_0_1_1_n_n_wf
def dot_S256x4096_S4096x384_S256x384_1_0_0_1_n_n : DotDims S256x4096 S4096x384 S256x384 where
  lhsContracting := [1]
  rhsContracting := [0]
  lhsNonContracting := [0]
  rhsNonContracting := [1]
  lhsBatch := []
  rhsBatch := []
  wf := dot_S256x4096_S4096x384_S256x384_1_0_0_1_n_n_wf
def dot_S768x384_S384x1024_S768x1024_1_0_0_1_n_n : DotDims S768x384 S384x1024 S768x1024 where
  lhsContracting := [1]
  rhsContracting := [0]
  lhsNonContracting := [0]
  rhsNonContracting := [1]
  lhsBatch := []
  rhsBatch := []
  wf := dot_S768x384_S384x1024_S768x1024_1_0_0_1_n_n_wf

abbrev win0_0 : Pipeline.Window sig grid0 :=
  Pipeline.Window.ofSpec (Memref.whole main_v2) S1152x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1152x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1152x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1152x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S384x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S384x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S4096x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S256x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S256x384.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S768x384.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v44) S384x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S768x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S768x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47) S768x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1x768x4096 : Shape := ⟨3, ![1, 768, 4096]⟩
abbrev S1x256 : Shape := ⟨2, ![1, 256]⟩
abbrev S384x768 : Shape := ⟨2, ![384, 768]⟩
abbrev S384 : Shape := ⟨1, ![384]⟩
abbrev S768x384 : Shape := ⟨2, ![768, 384]⟩
abbrev S768 : Shape := ⟨1, ![768]⟩
abbrev S4096x256 : Shape := ⟨2, ![4096, 256]⟩
abbrev S4096 : Shape := ⟨1, ![4096]⟩
abbrev S768x4096 : Shape := ⟨2, ![768, 4096]⟩
abbrev S384x4096 : Shape := ⟨2, ![384, 4096]⟩
abbrev S384x1 : Shape := ⟨2, ![384, 1]⟩
abbrev S_ : Shape := ⟨0, ![]⟩
abbrev S4096x4096 : Shape := ⟨2, ![4096, 4096]⟩
abbrev S256x4096 : Shape := ⟨2, ![256, 4096]⟩
abbrev S1x4096 : Shape := ⟨2, ![1, 4096]⟩
abbrev S4096x1 : Shape := ⟨2, ![4096, 1]⟩
abbrev S4096x384 : Shape := ⟨2, ![4096, 384]⟩
abbrev S768x1 : Shape := ⟨2, ![768, 1]⟩
abbrev S64x12x4096 : Shape := ⟨3, ![64, 12, 4096]⟩

abbrev nBuf : Space → Nat
  | .hbm => 118
  | .vmem => 0
  | .smem => 0
  | _ => 0

abbrev bufTy : (tb : Table) → Fin (tcTables nBuf tb) → BufTy
  | .hbm, ⟨0, _⟩ => ⟨S1x768x4096, .f32⟩
  | .hbm, ⟨1, _⟩ => ⟨S1x256, .f32⟩
  | .hbm, ⟨2, _⟩ => ⟨S1x256, .f32⟩
  | .hbm, ⟨3, _⟩ => ⟨S384x768, .f32⟩
  | .hbm, ⟨4, _⟩ => ⟨S384, .f32⟩
  | .hbm, ⟨5, _⟩ => ⟨S384x768, .f32⟩
  | .hbm, ⟨6, _⟩ => ⟨S384, .f32⟩
  | .hbm, ⟨7, _⟩ => ⟨S384x768, .f32⟩
  | .hbm, ⟨8, _⟩ => ⟨S384, .f32⟩
  | .hbm, ⟨9, _⟩ => ⟨S768x384, .f32⟩
  | .hbm, ⟨10, _⟩ => ⟨S768, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S384, .f32⟩
  | .hbm, ⟨15, _⟩ => ⟨S384, .f32⟩
  | .hbm, ⟨16, _⟩ => ⟨S384, .f32⟩
  | .hbm, ⟨17, _⟩ => ⟨S384, .f32⟩
  | .hbm, ⟨18, _⟩ => ⟨S384, .f32⟩
  | .hbm, ⟨19, _⟩ => ⟨S384, .f32⟩
  | .hbm, ⟨20, _⟩ => ⟨S384, .f32⟩
  | .hbm, ⟨21, _⟩ => ⟨S384, .f32⟩
  | .hbm, ⟨22, _⟩ => ⟨S384, .f32⟩
  | .hbm, ⟨23, _⟩ => ⟨S4096x256, .f32⟩
  | .hbm, ⟨24, _⟩ => ⟨S4096, .f32⟩
  | .hbm, ⟨25, _⟩ => ⟨S4096x256, .f32⟩
  | .hbm, ⟨26, _⟩ => ⟨S4096, .f32⟩
  | .hbm, ⟨27, _⟩ => ⟨S768x4096, .f32⟩
  | .hbm, ⟨28, _⟩ => ⟨S384x4096, .f32⟩
  | .hbm, ⟨29, _⟩ => ⟨S384x1, .f32⟩
  | .hbm, ⟨30, _⟩ => ⟨S384x4096, .f32⟩
  | .hbm, ⟨31, _⟩ => ⟨S384x4096, .f32⟩
  | .hbm, ⟨32, _⟩ => ⟨S_, .f32⟩
  | .hbm, ⟨33, _⟩ => ⟨S384, .f32⟩
  | .hbm, ⟨34, _⟩ => ⟨S384, .f32⟩
  | .hbm, ⟨35, _⟩ => ⟨S384, .f32⟩
  | .hbm, ⟨36, _⟩ => ⟨S384, .f32⟩
  | .hbm, ⟨37, _⟩ => ⟨S384x1, .f32⟩
  | .hbm, ⟨38, _⟩ => ⟨S384x4096, .f32⟩
  | .hbm, ⟨39, _⟩ => ⟨S384x4096, .f32⟩
  | .hbm, ⟨40, _⟩ => ⟨S384x1, .f32⟩
  | .hbm, ⟨41, _⟩ => ⟨S384x4096, .f32⟩
  | .hbm, ⟨42, _⟩ => ⟨S384x4096, .f32⟩
  | .hbm, ⟨43, _⟩ => ⟨S384x1, .f32⟩
  | .hbm, ⟨44, _⟩ => ⟨S384x4096, .f32⟩
  | .hbm, ⟨45, _⟩ => ⟨S384x4096, .f32⟩
  | .hbm, ⟨46, _⟩ => ⟨S384x4096, .f32⟩
  | .hbm, ⟨47, _⟩ => ⟨S384x1, .f32⟩
  | .hbm, ⟨48, _⟩ => ⟨S384x4096, .f32⟩
  | .hbm, ⟨49, _⟩ => ⟨S384x4096, .f32⟩
  | .hbm, ⟨50, _⟩ => ⟨S_, .f32⟩
  | .hbm, ⟨51, _⟩ => ⟨S384, .f32⟩
  | .hbm, ⟨52, _⟩ => ⟨S384, .f32⟩
  | .hbm, ⟨53, _⟩ => ⟨S384, .f32⟩
  | .hbm, ⟨54, _⟩ => ⟨S384, .f32⟩
  | .hbm, ⟨55, _⟩ => ⟨S384x1, .f32⟩
  | .hbm, ⟨56, _⟩ => ⟨S384x4096, .f32⟩
  | .hbm, ⟨57, _⟩ => ⟨S384x4096, .f32⟩
  | .hbm, ⟨58, _⟩ => ⟨S384x1, .f32⟩
  | .hbm, ⟨59, _⟩ => ⟨S384x4096, .f32⟩
  | .hbm, ⟨60, _⟩ => ⟨S384x4096, .f32⟩
  | .hbm, ⟨61, _⟩ => ⟨S384x1, .f32⟩
  | .hbm, ⟨62, _⟩ => ⟨S384x4096, .f32⟩
  | .hbm, ⟨63, _⟩ => ⟨S384x4096, .f32⟩
  | .hbm, ⟨64, _⟩ => ⟨S4096x4096, .f32⟩
  | .hbm, ⟨65, _⟩ => ⟨S256x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S256x4096, .f32⟩
  | .hbm, ⟨70, _⟩ => ⟨S1x4096, .f32⟩
  | .hbm, ⟨71, _⟩ => ⟨S1x4096, .f32⟩
  | .hbm, ⟨72, _⟩ => ⟨S1x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x4096, .f32⟩
  | .hbm, ⟨90, _⟩ => ⟨S4096x4096, .f32⟩
  | .hbm, ⟨91, _⟩ => ⟨S384x4096, .f32⟩
  | .hbm, ⟨92, _⟩ => ⟨S384x1, .f32⟩
  | .hbm, ⟨93, _⟩ => ⟨S384x4096, .f32⟩
  | .hbm, ⟨94, _⟩ => ⟨S384x4096, .f32⟩
  | .hbm, ⟨95, _⟩ => ⟨S_, .f32⟩
  | .hbm, ⟨96, _⟩ => ⟨S384, .f32⟩
  | .hbm, ⟨97, _⟩ => ⟨S384, .f32⟩
  | .hbm, ⟨98, _⟩ => ⟨S384, .f32⟩
  | .hbm, ⟨99, _⟩ => ⟨S384, .f32⟩
  | .hbm, ⟨100, _⟩ => ⟨S384x1, .f32⟩
  | .hbm, ⟨101, _⟩ => ⟨S384x4096, .f32⟩
  | .hbm, ⟨102, _⟩ => ⟨S384x4096, .f32⟩
  | .hbm, ⟨103, _⟩ => ⟨S384x1, .f32⟩
  | .hbm, ⟨104, _⟩ => ⟨S384x4096, .f32⟩
  | .hbm, ⟨105, _⟩ => ⟨S384x4096, .f32⟩
  | .hbm, ⟨106, _⟩ => ⟨S384x1, .f32⟩
  | .hbm, ⟨107, _⟩ => ⟨S384x4096, .f32⟩
  | .hbm, ⟨108, _⟩ => ⟨S384x4096, .f32⟩
  | .hbm, ⟨109, _⟩ => ⟨S4096x384, .f32⟩
  | .hbm, ⟨110, _⟩ => ⟨S4096x384, .f32⟩
  | .hbm, ⟨111, _⟩ => ⟨S384x4096, .f32⟩
  | .hbm, ⟨112, _⟩ => ⟨S768x4096, .f32⟩
  | .hbm, ⟨113, _⟩ => ⟨S768x1, .f32⟩
  | .hbm, ⟨114, _⟩ => ⟨S768x4096, .f32⟩
  | .hbm, ⟨115, _⟩ => ⟨S768x4096, .f32⟩
  | .hbm, ⟨116, _⟩ => ⟨S768x4096, .f32⟩
  | .hbm, ⟨117, _⟩ => ⟨S64x12x4096, .f32⟩
  | _, _ => ⟨S1x768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_1 : Ref sig .tc := ⟨.hbm, 77, rfl⟩
abbrev main_v48 : Ref sig .tc := ⟨.hbm, 78, rfl⟩
abbrev main_cst_2 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_3 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_4 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  shapeCasts_S1x768x4096_S768x4096 : S1x768x4096.ShapeCasts S768x4096
  bcast_S384_S384x1_0 : S384.BroadcastsInDim S384x1 (![0] : Fin 1 → Fin S384x1.rank)
  bcast_S384x1_S384x4096_0_1 : S384x1.BroadcastsInDim S384x4096 (![0, 1] : Fin 2 → Fin S384x4096.rank)
  bcast_S_S384 : S_.BroadcastsInDim S384 (![] : Fin 0 → Fin S384.rank)
  transposes_S4096x256_S256x4096_1_0 : S4096x256.Transposes [1, 0] S256x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S384x4096_S4096x384 : S384x4096.ShapeCasts S4096x384
  shapeCasts_S4096x384_S384x4096 : S4096x384.ShapeCasts S384x4096
  bcast_S768_S768x1_0 : S768.BroadcastsInDim S768x1 (![0] : Fin 1 → Fin S768x1.rank)
  bcast_S768x1_S768x4096_0_1 : S768x1.BroadcastsInDim S768x4096 (![0, 1] : Fin 2 → Fin S768x4096.rank)
  shapeCasts_S768x4096_S64x12x4096 : S768x4096.ShapeCasts S64x12x4096
  dot_S384x768_S768x4096_S384x4096_1_0_0_1_n_n_wf : DotDims.WF S384x768 S768x4096 S384x4096 [1] [0] [0] [1] [] []
  dot_S384x4096_S384x4096_S4096x4096_0_0_1_1_n_n_wf : DotDims.WF S384x4096 S384x4096 S4096x4096 [0] [0] [1] [1] [] []
  dot_S1x256_S256x4096_S1x4096_1_0_0_1_n_n_wf : DotDims.WF S1x256 S256x4096 S1x4096 [1] [0] [0] [1] [] []
  dot_S4096x4096_S4096x384_S4096x384_1_0_0_1_n_n_wf : DotDims.WF S4096x4096 S4096x384 S4096x384 [1] [0] [0] [1] [] []
  dot_S768x384_S384x4096_S768x4096_1_0_0_1_n_n_wf : DotDims.WF S768x384 S384x4096 S768x4096 [1] [0] [0] [1] [] []

variable [Facts₀]

def dot_S384x768_S768x4096_S384x4096_1_0_0_1_n_n : DotDims S384x768 S768x4096 S384x4096 where
  lhsContracting := [1]
  rhsContracting := [0]
  lhsNonContracting := [0]
  rhsNonContracting := [1]
  lhsBatch := []
  rhsBatch := []
  wf := dot_S384x768_S768x4096_S384x4096_1_0_0_1_n_n_wf
def dot_S384x4096_S384x4096_S4096x4096_0_0_1_1_n_n : DotDims S384x4096 S384x4096 S4096x4096 where
  lhsContracting := [0]
  rhsContracting := [0]
  lhsNonContracting := [1]
  rhsNonContracting := [1]
  lhsBatch := []
  rhsBatch := []
  wf := dot_S384x4096_S384x4096_S4096x4096_0_0_1_1_n_n_wf
def dot_S1x256_S256x4096_S1x4096_1_0_0_1_n_n : DotDims S1x256 S256x4096 S1x4096 where
  lhsContracting := [1]
  rhsContracting := [0]
  lhsNonContracting := [0]
  rhsNonContracting := [1]
  lhsBatch := []
  rhsBatch := []
  wf := dot_S1x256_S256x4096_S1x4096_1_0_0_1_n_n_wf
def dot_S4096x4096_S4096x384_S4096x384_1_0_0_1_n_n : DotDims S4096x4096 S4096x384 S4096x384 where
  lhsContracting := [1]
  rhsContracting := [0]
  lhsNonContracting := [0]
  rhsNonContracting := [1]
  lhsBatch := []
  rhsBatch := []
  wf := dot_S4096x4096_S4096x384_S4096x384_1_0_0_1_n_n_wf
def dot_S768x384_S384x4096_S768x4096_1_0_0_1_n_n : DotDims S768x384 S384x4096 S768x4096 where
  lhsContracting := [1]
  rhsContracting := [0]
  lhsNonContracting := [0]
  rhsNonContracting := [1]
  lhsBatch := []
  rhsBatch := []
  wf := dot_S768x384_S384x4096_S768x4096_1_0_0_1_n_n_wf

class Facts : Prop extends Facts₀ where

variable [Facts]
-- ==== Proof.KBody0.lean ====
/-
  The first kernel region: the stacked query / key / value projection. At a grid point the body reads the whole
  stacked weight matrix W (1152 x 768), a block of 1024 columns of x (768 x 1024) and the two columns scale and
  shift (1152 x 1), and stores (W . x) * scale + shift into its block of 1024 columns of the result.
  Stated at ANY contents V of the core's buffers when the region is entered: a window's block at a point, what
  the body leaves in the output buffer as a function of the four input blocks, the body's triple, and the
  pipeline's proof data with its obligation at every point.
-/
import proofs.«143704_j73521250173422_2_alg».proof.Proof.Gen.Kernel.Launch
import proofs.«143704_j73521250173422_2_alg».proof.Proof.Gen.Kernel.Skeleton
import proofs.«143704_j73521250173422_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: the weights and
    the two columns are fetched once and their block index never moves; the block of x is fetched at every point. -/

theorem beforeW_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeX_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeScale_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeShift_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! The body's accesses: every load and the one store take the whole buffer. -/

abbrev rW : Rect S1152x768 := Rect.unit (s := S1152x768) ![0, 0] S1152x768.size inb_S1152x768_S1152x768_0_0
abbrev rX : Rect S768x1024 := Rect.unit (s := S768x1024) ![0, 0] S768x1024.size inb_S768x1024_S768x1024_0_0
abbrev rCol : Rect S1152x1 := Rect.unit (s := S1152x1) ![0, 0] S1152x1.size inb_S1152x1_S1152x1_0_0
abbrev rY : Rect S1152x1024 := Rect.unit (s := S1152x1024) ![0, 0] S1152x1024.size inb_S1152x1024_S1152x1024_0_0

/-- What the body leaves in the output buffer, from the four input blocks: its one store, of the whole buffer. -/
def outY (w : Vec F S1152x768 .bf16) (x : Vec F S768x1024 .f32) (sc sh : Vec F S1152x1 .f32) : Vec F S1152x1024 .bf16 :=
  View.canon [⟨rY, k0_pay1 (View.ld x rX) (View.ld w rW) (View.ld sc rCol) (View.ld sh rCol)⟩]

/-- That store covers the buffer. -/
theorem coverY (p0 : Vec F S1152x1024 .bf16) (y : S1152x1024.Idx) :
    ∃ pc ∈ ([⟨rY, p0⟩] : List (View.Piece (Elt F) S1152x1024 .bf16)), y ∈ pc.1.set :=
  View.cover_of_tiled [⟨rY, p0⟩] S1152x1024.size (by rfl) y

set_option maxHeartbeats 4000000 in
/-- The body on whole staging buffers, the inputs' at contents `w x sc sh` and the output's at anything, runs to the
    end with the inputs' buffers unchanged and the output's at `outY w x sc sh`. -/
theorem sound_kernel (c : Dev nD) (E : Set ℕ) (i : grid0.Coords)
    (arg1 : Memref sig .tc .vmem S1152x768 .bf16) (harg1 : arg1.IsWhole) (arg2 : Memref sig .tc .vmem S768x1024 .f32) (harg2 : arg2.IsWhole)
    (arg3 : Memref sig .tc .vmem S1152x1 .f32) (harg3 : arg3.IsWhole) (arg4 : Memref sig .tc .vmem S1152x1 .f32) (harg4 : arg4.IsWhole)
    (arg5 : Memref sig .tc .vmem S1152x1024 .bf16) (harg5 : arg5.IsWhole)
    (w : Vec F S1152x768 .bf16) (x : Vec F S768x1024 .f32) (sc sh : Vec F S1152x1 .f32) (K : PUnit → sProp 𝕄) :
    iprop(owns (c : Thread nD τ) arg1 fullShare w ∗ owns (c : Thread nD τ) arg2 fullShare x
        ∗ owns (c : Thread nD τ) arg3 fullShare sc ∗ owns (c : Thread nD τ) arg4 fullShare sh
        ∗ (∃ d, owns (c : Thread nD τ) arg5 fullShare d)
        ∗ (iprop(owns (c : Thread nD τ) arg1 fullShare w ∗ owns (c : Thread nD τ) arg2 fullShare x
            ∗ owns (c : Thread nD τ) arg3 fullShare sc ∗ owns (c : Thread nD τ) arg4 fullShare sh
            ∗ owns (c : Thread nD τ) arg5 fullShare (outY w x sc sh)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverY _)

/-- The pipeline's proof data on core `c`: the arrays as the region finds them; after the body at point `t` each
    input's buffer still at its block and the output's at `outY` of the four input blocks; nothing owed; every
    array held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outY (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem afterW (c : Dev nD) (t : Fin cfg0.N) : (dat V c).after 0 t = iblk V c 0 t := by dsimp only [dat]
theorem afterX (c : Dev nD) (t : Fin cfg0.N) : (dat V c).after 1 t = iblk V c 1 t := by dsimp only [dat]
theorem afterScale (c : Dev nD) (t : Fin cfg0.N) : (dat V c).after 2 t = iblk V c 2 t := by dsimp only [dat]
theorem afterShift (c : Dev nD) (t : Fin cfg0.N) : (dat V c).after 3 t = iblk V c 3 t := by dsimp only [dat]
theorem afterY (c : Dev nD) (t : Fin cfg0.N) :
    (dat V c).after 4 t = outY (iblk V c 0 t) (iblk V c 1 t) (iblk V c 2 t) (iblk V c 3 t) := by dsimp only [dat]

theorem beforeW (c : Dev nD) (t : Fin cfg0.N) (d) : (dat V c).before 0 t d = iblk V c 0 t :=
  beforeW_of V (dat V c) (A_eq V c 0) (afterW V c) t d
theorem beforeX (c : Dev nD) (t : Fin cfg0.N) (d) : (dat V c).before 1 t d = iblk V c 1 t :=
  beforeX_of V (dat V c) (A_eq V c 1) (afterX V c) t d
theorem beforeScale (c : Dev nD) (t : Fin cfg0.N) (d) : (dat V c).before 2 t d = iblk V c 2 t :=
  beforeScale_of V (dat V c) (A_eq V c 2) (afterScale V c) t d
theorem beforeShift (c : Dev nD) (t : Fin cfg0.N) (d) : (dat V c).before 3 t d = iblk V c 3 t :=
  beforeShift_of V (dat V c) (A_eq V c 3) (afterShift V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 1000000 in
/-- The body at any point: the inputs' buffers hold their blocks, so `sound_kernel` applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [beforeW, beforeX, beforeScale, beforeShift]
  rw [show (dat V c).Φ t.succ = (dat V c).Φ t.castSucc from rfl,
    show (dat V c).owesAt () t.succ = (dat V c).owesAt () t.castSucc from rfl,
    afterW, afterX, afterScale, afterShift, afterY]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Body0

end
-- ==== Proof.KBody1.lean ====
/-
  The second kernel region: attention for one tile of 256 queries. At a grid point the body reads a block of 256
  columns of the query rows (384 x 256), all key rows (384 x 4096), the re-laid value matrix (4096 x 384) and the
  row of modulation factors (1 x 4096). It forms the scores q^T k (256 x 4096), scales column j by the factor at
  j, takes the softmax along each row (subtract the row maximum, exponentiate, divide by the row sum) and stores
  it into its block of 256 rows of the attention matrix; then stores that tile times the value matrix into its
  block of 256 rows of the second result.
  The query and the key windows read ONE array (the stacked projection), so the core holds that array through two
  input windows at once, each at half of the whole share.
  Stated at ANY contents V of the core's buffers when the region is entered: a window's block at a point, what
  the body leaves in the two output buffers as functions of the four input blocks, the body's triple, and the
  pipeline's proof data with its obligation at every point.
-/
import proofs.«143704_j73521250173422_2_alg».proof.Proof.Gen.Kernel.Launch
import proofs.«143704_j73521250173422_2_alg».proof.Proof.Gen.Kernel.Skeleton
import proofs.«143704_j73521250173422_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: the query block
    is fetched at every point; the keys, the values and the factors are fetched once and their block index never
    moves. -/

theorem beforeQ_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeK_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeVal_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeFac_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! The body's accesses: every load and both stores take the whole buffer. -/

abbrev rQ : Rect S384x256 := Rect.unit (s := S384x256) ![0, 0] S384x256.size inb_S384x256_S384x256_0_0
abbrev rK : Rect S384x4096 := Rect.unit (s := S384x4096) ![0, 0] S384x4096.size inb_S384x4096_S384x4096_0_0
abbrev rVal : Rect S4096x384 := Rect.unit (s := S4096x384) ![0, 0] S4096x384.size inb_S4096x384_S4096x384_0_0
abbrev rFac : Rect S1x4096 := Rect.unit (s := S1x4096) ![0, 0] S1x4096.size inb_S1x4096_S1x4096_0_0
abbrev rAttn : Rect S256x4096 := Rect.unit (s := S256x4096) ![0, 0] S256x4096.size inb_S256x4096_S256x4096_0_0
abbrev rAv : Rect S256x384 := Rect.unit (s := S256x384) ![0, 0] S256x384.size inb_S256x384_S256x384_0_0

/-- What the body leaves in the attention tile's buffer: the softmax of the scaled scores, one whole-buffer store. -/
def outAttn (q : Vec F S384x256 .bf16) (k : Vec F S384x4096 .bf16) (fac : Vec F S1x4096 .f32) : Vec F S256x4096 .f32 :=
  View.canon [⟨rAttn, k1_pay1 (View.ld q rQ) (View.ld k rK) (View.ld fac rFac)⟩]

/-- What the body leaves in the second result's buffer: that tile times the value matrix, one whole-buffer store. -/
def outAv (q : Vec F S384x256 .bf16) (k : Vec F S384x4096 .bf16) (v : Vec F S4096x384 .bf16) (fac : Vec F S1x4096 .f32) : Vec F S256x384 .bf16 :=
  View.canon [⟨rAv, k1_pay2 (View.ld q rQ) (View.ld k rK) (View.ld fac rFac) (View.ld v rVal)⟩]

/-- Each store covers its buffer. -/
theorem coverAttn (p0 : Vec F S256x4096 .f32) (y : S256x4096.Idx) :
    ∃ pc ∈ ([⟨rAttn, p0⟩] : List (View.Piece (Elt F) S256x4096 .f32)), y ∈ pc.1.set :=
  View.cover_of_tiled [⟨rAttn, p0⟩] S256x4096.size (by rfl) y
theorem coverAv (p0 : Vec F S256x384 .bf16) (y : S256x384.Idx) :
    ∃ pc ∈ ([⟨rAv, p0⟩] : List (View.Piece (Elt F) S256x384 .bf16)), y ∈ pc.1.set :=
  View.cover_of_tiled [⟨rAv, p0⟩] S256x384.size (by rfl) y

set_option maxHeartbeats 4000000 in
/-- The body on whole staging buffers, the inputs' at contents `q k v fac` and the outputs' at anything, runs to the
    end with the inputs' buffers unchanged and the outputs' at `outAttn q k fac` and `outAv q k v fac`. -/
theorem sound_kernel (c : Dev nD) (E : Set ℕ) (i : grid1.Coords)
    (arg1 : Memref sig .tc .vmem S384x256 .bf16) (harg1 : arg1.IsWhole) (arg2 : Memref sig .tc .vmem S384x4096 .bf16) (harg2 : arg2.IsWhole)
    (arg3 : Memref sig .tc .vmem S4096x384 .bf16) (harg3 : arg3.IsWhole) (arg4 : Memref sig .tc .vmem S1x4096 .f32) (harg4 : arg4.IsWhole)
    (arg5 : Memref sig .tc .vmem S256x4096 .f32) (harg5 : arg5.IsWhole) (arg6 : Memref sig .tc .vmem S256x384 .bf16) (harg6 : arg6.IsWhole)
    (q : Vec F S384x256 .bf16) (k : Vec F S384x4096 .bf16) (v : Vec F S4096x384 .bf16) (fac : Vec F S1x4096 .f32) (K : PUnit → sProp 𝕄) :
    iprop(owns (c : Thread nD τ) arg1 fullShare q ∗ owns (c : Thread nD τ) arg2 fullShare k
        ∗ owns (c : Thread nD τ) arg3 fullShare v ∗ owns (c : Thread nD τ) arg4 fullShare fac
        ∗ (∃ d, owns (c : Thread nD τ) arg5 fullShare d) ∗ (∃ d, owns (c : Thread nD τ) arg6 fullShare d)
        ∗ (iprop(owns (c : Thread nD τ) arg1 fullShare q ∗ owns (c : Thread nD τ) arg2 fullShare k
            ∗ owns (c : Thread nD τ) arg3 fullShare v ∗ owns (c : Thread nD τ) arg4 fullShare fac
            ∗ owns (c : Thread nD τ) arg5 fullShare (outAttn q k fac) ∗ owns (c : Thread nD τ) arg6 fullShare (outAv q k v fac)) -∗ K ⟨⟩))
      ⊢ wp frame (wpE (defs₀ (F := F)) Variants.none c none) E
          (cc1__attn_kernel i arg1 harg1 arg2 harg2 arg3 harg3 arg4 harg4 arg5 harg5 arg6 harg6) K := by
  simp only [cc1__attn_kernel_eq_skeleton]; unfold cc1__attn_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverAttn _)
  iexists _; isplitr
  swap; · iexact H6
  ipureintro
  exact View.read_writes_eq_canon _ _ _ (coverAv _)

/-- The pipeline's proof data on core `c`: the arrays as the region finds them; after the body at point `t` each
    input's buffer still at its block and the two outputs' at `outAttn` and `outAv` of the input blocks; nothing
    owed. The query and the key windows share their array, each holding half of it; every other array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAttn (iblk V c 0 t) (iblk V c 1 t) (iblk V c 3 t)
    | ⟨5, _⟩ => outAv (iblk V c 0 t) (iblk V c 1 t) (iblk V c 2 t) (iblk V c 3 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem afterQ (c : Dev nD) (t : Fin cfg1.N) : (dat V c).after 0 t = iblk V c 0 t := by dsimp only [dat]
theorem afterK (c : Dev nD) (t : Fin cfg1.N) : (dat V c).after 1 t = iblk V c 1 t := by dsimp only [dat]
theorem afterVal (c : Dev nD) (t : Fin cfg1.N) : (dat V c).after 2 t = iblk V c 2 t := by dsimp only [dat]
theorem afterFac (c : Dev nD) (t : Fin cfg1.N) : (dat V c).after 3 t = iblk V c 3 t := by dsimp only [dat]
theorem afterAttn (c : Dev nD) (t : Fin cfg1.N) :
    (dat V c).after 4 t = outAttn (iblk V c 0 t) (iblk V c 1 t) (iblk V c 3 t) := by dsimp only [dat]
theorem afterAv (c : Dev nD) (t : Fin cfg1.N) :
    (dat V c).after 5 t = outAv (iblk V c 0 t) (iblk V c 1 t) (iblk V c 2 t) (iblk V c 3 t) := by dsimp only [dat]

theorem beforeQ (c : Dev nD) (t : Fin cfg1.N) (d) : (dat V c).before 0 t d = iblk V c 0 t :=
  beforeQ_of V (dat V c) (A_eq V c 0) (afterQ V c) t d
theorem beforeK (c : Dev nD) (t : Fin cfg1.N) (d) : (dat V c).before 1 t d = iblk V c 1 t :=
  beforeK_of V (dat V c) (A_eq V c 1) (afterK V c) t d
theorem beforeVal (c : Dev nD) (t : Fin cfg1.N) (d) : (dat V c).before 2 t d = iblk V c 2 t :=
  beforeVal_of V (dat V c) (A_eq V c 2) (afterVal V c) t d
theorem beforeFac (c : Dev nD) (t : Fin cfg1.N) (d) : (dat V c).before 3 t d = iblk V c 3 t :=
  beforeFac_of V (dat V c) (A_eq V c 3) (afterFac V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 1000000 in
/-- The body at any point: the inputs' buffers hold their blocks, so `sound_kernel` applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [beforeQ, beforeK, beforeVal, beforeFac]
  rw [show (dat V c).Φ t.succ = (dat V c).Φ t.castSucc from rfl,
    show (dat V c).owesAt () t.succ = (dat V c).owesAt () t.castSucc from rfl,
    afterQ, afterK, afterVal, afterFac, afterAttn, afterAv]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Body1

end
-- ==== Proof.KBody2.lean ====
/-
  The third kernel region: the final projection with bias and residual. At a grid point the body reads the whole
  weight matrix Wf (768 x 384), a block of 1024 columns of the attention output (384 x 1024), the bias column
  (768 x 1) and the same block of columns of x (768 x 1024), and stores (Wf . out + bias) + x into its block of
  1024 columns of the result.
  Stated at ANY contents V of the core's buffers when the region is entered: a window's block at a point, what
  the body leaves in the output buffer as a function of the four input blocks, the body's triple, and the
  pipeline's proof data with its obligation at every point.
-/
import proofs.«143704_j73521250173422_2_alg».proof.Proof.Gen.Kernel.Launch
import proofs.«143704_j73521250173422_2_alg».proof.Proof.Gen.Kernel.Skeleton
import proofs.«143704_j73521250173422_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: the weights and
    the bias column are fetched once and their block index never moves; the two column blocks are fetched at every
    point. -/

theorem beforeWf_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeOut_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeBias_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeX_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! The body's accesses: every load and the one store take the whole buffer. -/

abbrev rWf : Rect S768x384 := Rect.unit (s := S768x384) ![0, 0] S768x384.size inb_S768x384_S768x384_0_0
abbrev rOut : Rect S384x1024 := Rect.unit (s := S384x1024) ![0, 0] S384x1024.size inb_S384x1024_S384x1024_0_0
abbrev rBias : Rect S768x1 := Rect.unit (s := S768x1) ![0, 0] S768x1.size inb_S768x1_S768x1_0_0
abbrev rX : Rect S768x1024 := Rect.unit (s := S768x1024) ![0, 0] S768x1024.size inb_S768x1024_S768x1024_0_0

/-- What the body leaves in the output buffer, from the four input blocks: its one store, of the whole buffer. -/
def outRes (wf : Vec F S768x384 .bf16) (o : Vec F S384x1024 .bf16) (b : Vec F S768x1 .f32) (x : Vec F S768x1024 .f32) : Vec F S768x1024 .f32 :=
  View.canon [⟨rX, k2_pay1 (View.ld wf rWf) (View.ld o rOut) (View.ld b rBias) (View.ld x rX)⟩]

/-- That store covers the buffer. -/
theorem coverRes (p0 : Vec F S768x1024 .f32) (y : S768x1024.Idx) :
    ∃ pc ∈ ([⟨rX, p0⟩] : List (View.Piece (Elt F) S768x1024 .f32)), y ∈ pc.1.set :=
  View.cover_of_tiled [⟨rX, p0⟩] S768x1024.size (by rfl) y

set_option maxHeartbeats 4000000 in
/-- The body on whole staging buffers, the inputs' at contents `wf o b x` and the output's at anything, runs to the
    end with the inputs' buffers unchanged and the output's at `outRes wf o b x`. -/
theorem sound_kernel (c : Dev nD) (E : Set ℕ) (i : grid2.Coords)
    (arg1 : Memref sig .tc .vmem S768x384 .bf16) (harg1 : arg1.IsWhole) (arg2 : Memref sig .tc .vmem S384x1024 .bf16) (harg2 : arg2.IsWhole)
    (arg3 : Memref sig .tc .vmem S768x1 .f32) (harg3 : arg3.IsWhole) (arg4 : Memref sig .tc .vmem S768x1024 .f32) (harg4 : arg4.IsWhole)
    (arg5 : Memref sig .tc .vmem S768x1024 .f32) (harg5 : arg5.IsWhole)
    (wf : Vec F S768x384 .bf16) (o : Vec F S384x1024 .bf16) (b : Vec F S768x1 .f32) (x : Vec F S768x1024 .f32) (K : PUnit → sProp 𝕄) :
    iprop(owns (c : Thread nD τ) arg1 fullShare wf ∗ owns (c : Thread nD τ) arg2 fullShare o
        ∗ owns (c : Thread nD τ) arg3 fullShare b ∗ owns (c : Thread nD τ) arg4 fullShare x
        ∗ (∃ d, owns (c : Thread nD τ) arg5 fullShare d)
        ∗ (iprop(owns (c : Thread nD τ) arg1 fullShare wf ∗ owns (c : Thread nD τ) arg2 fullShare o
            ∗ owns (c : Thread nD τ) arg3 fullShare b ∗ owns (c : Thread nD τ) arg4 fullShare x
            ∗ owns (c : Thread nD τ) arg5 fullShare (outRes wf o b x)) -∗ K ⟨⟩))
      ⊢ wp frame (wpE (defs₀ (F := F)) Variants.none c none) E (cc2__final_kernel i arg1 harg1 arg2 harg2 arg3 harg3 arg4 harg4 arg5 harg5) K := by
  simp only [cc2__final_kernel_eq_skeleton]; unfold cc2__final_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverRes _)

/-- The pipeline's proof data on core `c`: the arrays as the region finds them; after the body at point `t` each
    input's buffer still at its block and the output's at `outRes` of the four input blocks; nothing owed; every
    array held whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outRes (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem afterWf (c : Dev nD) (t : Fin cfg2.N) : (dat V c).after 0 t = iblk V c 0 t := by dsimp only [dat]
theorem afterOut (c : Dev nD) (t : Fin cfg2.N) : (dat V c).after 1 t = iblk V c 1 t := by dsimp only [dat]
theorem afterBias (c : Dev nD) (t : Fin cfg2.N) : (dat V c).after 2 t = iblk V c 2 t := by dsimp only [dat]
theorem afterX (c : Dev nD) (t : Fin cfg2.N) : (dat V c).after 3 t = iblk V c 3 t := by dsimp only [dat]
theorem afterRes (c : Dev nD) (t : Fin cfg2.N) :
    (dat V c).after 4 t = outRes (iblk V c 0 t) (iblk V c 1 t) (iblk V c 2 t) (iblk V c 3 t) := by dsimp only [dat]

theorem beforeWf (c : Dev nD) (t : Fin cfg2.N) (d) : (dat V c).before 0 t d = iblk V c 0 t :=
  beforeWf_of V (dat V c) (A_eq V c 0) (afterWf V c) t d
theorem beforeOut (c : Dev nD) (t : Fin cfg2.N) (d) : (dat V c).before 1 t d = iblk V c 1 t :=
  beforeOut_of V (dat V c) (A_eq V c 1) (afterOut V c) t d
theorem beforeBias (c : Dev nD) (t : Fin cfg2.N) (d) : (dat V c).before 2 t d = iblk V c 2 t :=
  beforeBias_of V (dat V c) (A_eq V c 2) (afterBias V c) t d
theorem beforeX (c : Dev nD) (t : Fin cfg2.N) (d) : (dat V c).before 3 t d = iblk V c 3 t :=
  beforeX_of V (dat V c) (A_eq V c 3) (afterX V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

set_option maxHeartbeats 1000000 in
/-- The body at any point: the inputs' buffers hold their blocks, so `sound_kernel` applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [beforeWf, beforeOut, beforeBias, beforeX]
  rw [show (dat V c).Φ t.succ = (dat V c).Φ t.castSucc from rfl,
    show (dat V c).owesAt () t.succ = (dat V c).owesAt () t.castSucc from rfl,
    afterWf, afterOut, afterBias, afterX, afterRes]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Body2

end
-- ==== Proof.KShare1.lean ====
/-
  The second region reads the stacked projection through TWO input windows (the query block and all key rows), so
  the five buffers behind its six windows are handed to the pipeline with that one buffer split in two halves, and
  joined again when the region ends: both windows still hold the contents the region found there.
-/
import proofs.«143704_j73521250173422_2_alg».proof.Proof.KBody1

set_option maxRecDepth 16384

noncomputable section

namespace Cert.Kernel.Share1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body1

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five buffers behind the six windows. -/
theorem image_arr : Finset.univ.image (Pipeline.arrRef spec1) = ({main_v31, main_v33, main_v42, main_v43_0, main_v43_1} : Finset (Ref sig .tc)) := by
  decide

/-- They are unscoped. -/
theorem image_sub : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

/-! The share each window holds its array at: the two halves for the query and the key windows, the whole for the
    values, the factors and the two outputs. -/
theorem share_q (c : Dev nD) : (dat V c).share 0 = fullShare.left := by
  unfold Dat.share
  rw [if_neg (show ¬ ((cfg1.win 0).isOut = true) from by rw [show (cfg1.win 0).isOut = false from rfl]; exact Bool.false_ne_true)]
  dsimp only [dat]
  rfl
theorem share_k (c : Dev nD) : (dat V c).share 1 = fullShare.right := by
  unfold Dat.share
  rw [if_neg (show ¬ ((cfg1.win 1).isOut = true) from by rw [show (cfg1.win 1).isOut = false from rfl]; exact Bool.false_ne_true)]
  dsimp only [dat]
  rfl
theorem share_val (c : Dev nD) : (dat V c).share 2 = fullShare := by
  unfold Dat.share
  rw [if_neg (show ¬ ((cfg1.win 2).isOut = true) from by rw [show (cfg1.win 2).isOut = false from rfl]; exact Bool.false_ne_true)]
  dsimp only [dat]
  rfl
theorem share_fac (c : Dev nD) : (dat V c).share 3 = fullShare := by
  unfold Dat.share
  rw [if_neg (show ¬ ((cfg1.win 3).isOut = true) from by rw [show (cfg1.win 3).isOut = false from rfl]; exact Bool.false_ne_true)]
  dsimp only [dat]
  rfl
theorem share_attn (c : Dev nD) : (dat V c).share 4 = fullShare := by
  unfold Dat.share
  rw [if_pos (show (cfg1.win 4).isOut = true from rfl)]
theorem share_av (c : Dev nD) : (dat V c).share 5 = fullShare := by
  unfold Dat.share
  rw [if_pos (show (cfg1.win 5).isOut = true from rfl)]

set_option maxHeartbeats 2000000 in
theorem arrays_of_arrBufs (c : Dev nD) :
    (Pipeline.arrBufs spec1 c (V c) : sProp 𝕄) ⊢ (dat V c).arrays (dat V c).A := by
  unfold Pipeline.arrBufs Dat.arrays
  rw [image_arr, bigSep_insert (by decide), bigSep_insert (by decide), bigSep_insert (by decide), bigSep_insert (by decide), bigSep_singleton, bigSep_W1]
  have h0 : (cfg1.win 0).arr.IsWhole := arr_whole1 0
  have h1 : (cfg1.win 1).arr.IsWhole := arr_whole1 1
  have h2 : (cfg1.win 2).arr.IsWhole := arr_whole1 2
  have h3 : (cfg1.win 3).arr.IsWhole := arr_whole1 3
  have h4 : (cfg1.win 4).arr.IsWhole := arr_whole1 4
  have h5 : (cfg1.win 5).arr.IsWhole := arr_whole1 5
  simp only [h0.set_eq_univ, h1.set_eq_univ, h2.set_eq_univ, h3.set_eq_univ, h4.set_eq_univ, h5.set_eq_univ]
  rw [share_q, share_k, share_val, share_fac, share_attn, share_av]
  show (iprop(((c : Thread nD τ).loc main_v31 ↦{fullShare} V c main_v31) ∗ ((c : Thread nD τ).loc main_v33 ↦{fullShare} V c main_v33)
      ∗ ((c : Thread nD τ).loc main_v42 ↦{fullShare} V c main_v42) ∗ ((c : Thread nD τ).loc main_v43_0 ↦{fullShare} V c main_v43_0)
      ∗ ((c : Thread nD τ).loc main_v43_1 ↦{fullShare} V c main_v43_1)) : sProp 𝕄) ⊢ _
  iintro ⟨H31, H33, H42, H430, H431⟩
  ihave H31 := (pointsTo_share (PosShare.mem_left_op_right fullShare)).1 $$ H31
  icases H31 with ⟨Hl, Hr⟩
  isplitl [Hl]; · iexact Hl
  isplitl [Hr]; · iexact Hr
  isplitl [H33]; · iexact H33
  isplitl [H42]; · iexact H42
  isplitl [H430]; · iexact H430
  iexact H431

set_option maxHeartbeats 2000000 in
/-- At the end the six windows' holdings, at the contents the pipeline leaves (the four inputs' as the region found
    them, the two outputs' at what their write-backs left), are the five buffers whole again at any contents `V'`
    that say so: the two halves of the shared buffer hold the same contents and join. -/
theorem arrBufs_of_arrays (c : Dev nD) (V' : (b : Ref sig .tc) → Buf (Elt F) ((c : Thread nD τ).loc b))
    (h31 : V' main_v31 = V c main_v31) (h33 : V' main_v33 = V c main_v33) (h42 : V' main_v42 = V c main_v42)
    (h430 : V' main_v43_0 = (dat V c).arrAt 4 cfg1.N) (h431 : V' main_v43_1 = (dat V c).arrAt 5 cfg1.N) :
    ((dat V c).arrays ((dat V c).arrAt · cfg1.N) : sProp 𝕄) ⊢ Pipeline.arrBufs spec1 c V' := by
  unfold Pipeline.arrBufs Dat.arrays
  rw [image_arr, bigSep_insert (by decide), bigSep_insert (by decide), bigSep_insert (by decide), bigSep_insert (by decide), bigSep_singleton, bigSep_W1]
  have h0 : (cfg1.win 0).arr.IsWhole := arr_whole1 0
  have h1 : (cfg1.win 1).arr.IsWhole := arr_whole1 1
  have h2 : (cfg1.win 2).arr.IsWhole := arr_whole1 2
  have h3 : (cfg1.win 3).arr.IsWhole := arr_whole1 3
  have h4 : (cfg1.win 4).arr.IsWhole := arr_whole1 4
  have h5 : (cfg1.win 5).arr.IsWhole := arr_whole1 5
  simp only [h0.set_eq_univ, h1.set_eq_univ, h2.set_eq_univ, h3.set_eq_univ, h4.set_eq_univ, h5.set_eq_univ]
  rw [share_q, share_k, share_val, share_fac, share_attn, share_av,
    (dat V c).arrAt_in 0 rfl, (dat V c).arrAt_in 1 rfl, (dat V c).arrAt_in 2 rfl, (dat V c).arrAt_in 3 rfl,
    h31, h33, h42, h430, h431]
  show _ ⊢ (iprop(((c : Thread nD τ).loc main_v31 ↦{fullShare} V c main_v31) ∗ ((c : Thread nD τ).loc main_v33 ↦{fullShare} V c main_v33)
      ∗ ((c : Thread nD τ).loc main_v42 ↦{fullShare} V c main_v42) ∗ ((c : Thread nD τ).loc main_v43_0 ↦{fullShare} (dat V c).arrAt 4 cfg1.N)
      ∗ ((c : Thread nD τ).loc main_v43_1 ↦{fullShare} (dat V c).arrAt 5 cfg1.N)) : sProp 𝕄)
  iintro ⟨Hl, Hr, H33, H42, H430, H431⟩
  isplitl [Hl Hr]
  · iapply (pointsTo_share (PosShare.mem_left_op_right fullShare)).2
    isplitl [Hl]; · iexact Hl
    iexact Hr
  isplitl [H33]; · iexact H33
  isplitl [H42]; · iexact H42
  isplitl [H430]; · iexact H430
  iexact H431

/-- ENTRY: the core's unscoped buffers at the contents the region finds are the pipeline's arrays at those
    contents, the shared buffer in two halves, and the buffers no window reads or writes. -/
theorem arrays_of_unscopedBufs (c : Dev nD) :
    (unscopedBufs c (V c) : sProp 𝕄) ⊢ iprop((dat V c).arrays (dat V c).A ∗ Pipeline.unscopedRest spec1 c (V c)) := by
  classical
  unfold unscopedBufs Pipeline.unscopedRest
  rw [bigSep_sdiff_split image_sub]
  exact sep_mono (arrays_of_arrBufs V c) .rfl

/-- EXIT: the arrays at what the pipeline leaves and the untouched rest are the core's unscoped buffers at any
    contents `V'` that hold the two outputs' final contents and agree with the entry contents everywhere else. -/
theorem unscopedBufs_of_arrays (c : Dev nD) (V' : (b : Ref sig .tc) → Buf (Elt F) ((c : Thread nD τ).loc b))
    (h430 : V' main_v43_0 = (dat V c).arrAt 4 cfg1.N) (h431 : V' main_v43_1 = (dat V c).arrAt 5 cfg1.N)
    (hrest : ∀ b, b ≠ main_v43_0 → b ≠ main_v43_1 → V' b = V c b) :
    iprop((dat V c).arrays ((dat V c).arrAt · cfg1.N) ∗ Pipeline.unscopedRest spec1 c (V c)) ⊢ (unscopedBufs c V' : sProp 𝕄) := by
  classical
  unfold unscopedBufs Pipeline.unscopedRest
  rw [bigSep_sdiff_split (s := Finset.univ.filter fun b : Ref sig .tc => ¬ b.isScoped) image_sub]
  refine BI.sep_mono (arrBufs_of_arrays V c V' (hrest _ (by decide) (by decide)) (hrest _ (by decide) (by decide)) (hrest _ (by decide) (by decide)) h430 h431)
    (Entails.of_eq (bigSep_congr fun b hb => ?_))
  have hb' := (Finset.mem_sdiff.mp hb).2
  rw [image_arr] at hb'
  rw [hrest b (fun e => hb' (by rw [e]; decide)) (fun e => hb' (by rw [e]; decide))]

end Cert.Kernel.Share1

end
-- ==== Proof.KRun.lean ====
/-
  The whole run of the program: seven items in order, four stretches of host operations around three kernel
  regions. The contents of the core's buffers at each boundary between two items are named from the launch memory
  onward: a host stretch applies its operations; a region replaces its output arrays by what its write-backs leave
  and changes nothing else. Every weakly fair execution terminates, nothing faults, and at the end every unscoped
  buffer holds the last boundary's contents: in particular each argument still holds its launch contents (no item
  writes one) and the two results hold what the last items left.
-/
import proofs.«143704_j73521250173422_2_alg».proof.Proof.KBody0
import proofs.«143704_j73521250173422_2_alg».proof.Proof.KBody1
import proofs.«143704_j73521250173422_2_alg».proof.Proof.KBody2
import proofs.«143704_j73521250173422_2_alg».proof.Proof.KShare1
import proofs.«143704_j73521250173422_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 (c : Dev nD) : Valuation τ sig (Elt F) := fun b => m (c, b)
/-- After the first host stretch: the first region's entry. -/
abbrev B1 (c : Dev nD) : Valuation τ sig (Elt F) := StableHlo.after hostOps0 (B0 m c)
abbrev E1 : (c : Dev nD) → (b : Ref sig .tc) → Buf (Elt F) ((c : Thread nD τ).loc b) := fun c b => B1 m c b
/-- After the first region: the stacked projection at what its write-backs leave. -/
def B2 (c : Dev nD) : Valuation τ sig (Elt F) :=
  Function.update (B1 m c) main_v31 ((Body0.dat (E1 m) c).arrAt 4 cfg0.N)
abbrev E2 : (c : Dev nD) → (b : Ref sig .tc) → Buf (Elt F) ((c : Thread nD τ).loc b) := fun c b => B2 m c b
/-- After the second host stretch: the second region's entry. -/
abbrev B3 (c : Dev nD) : Valuation τ sig (Elt F) := StableHlo.after hostOps1 (B2 m c)
abbrev E3 : (c : Dev nD) → (b : Ref sig .tc) → Buf (Elt F) ((c : Thread nD τ).loc b) := fun c b => B3 m c b
/-- After the second region: the attention matrix and the second result at what their write-backs leave. -/
def B4 (c : Dev nD) : Valuation τ sig (Elt F) :=
  Function.update (Function.update (B3 m c) main_v43_0 ((Body1.dat (E3 m) c).arrAt 4 cfg1.N)) main_v43_1 ((Body1.dat (E3 m) c).arrAt 5 cfg1.N)
abbrev E4 : (c : Dev nD) → (b : Ref sig .tc) → Buf (Elt F) ((c : Thread nD τ).loc b) := fun c b => B4 m c b
/-- After the third host stretch: the third region's entry. -/
abbrev B5 (c : Dev nD) : Valuation τ sig (Elt F) := StableHlo.after hostOps2 (B4 m c)
abbrev E5 : (c : Dev nD) → (b : Ref sig .tc) → Buf (Elt F) ((c : Thread nD τ).loc b) := fun c b => B5 m c b
/-- After the third region: the residual sum at what its write-backs leave. -/
def B6 (c : Dev nD) : Valuation τ sig (Elt F) :=
  Function.update (B5 m c) main_v47 ((Body2.dat (E5 m) c).arrAt 4 cfg2.N)
abbrev E6 : (c : Dev nD) → (b : Ref sig .tc) → Buf (Elt F) ((c : Thread nD τ).loc b) := fun c b => B6 m c b
/-- After the last host stretch: the end. -/
abbrev B7 (c : Dev nD) : Valuation τ sig (Elt F) := StableHlo.after hostOps3 (B6 m c)

/-! ## What each item leaves unchanged -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ≠ main_v31) : B2 m c r = B1 m c r := by
  unfold B2; exact Function.update_of_ne (StableHlo.devRef_ne_of_ne h) _ _
theorem B3_of (c : Dev nD) (r : Ref sig .tc) (h : r ∉ hostOps1_W) : B3 m c r = B2 m c r :=
  StableHlo.after_of_writes_sub hostOps1 _ hostOps1_writes h
theorem B4_of (c : Dev nD) (r : Ref sig .tc) (h0 : r ≠ main_v43_0) (h1 : r ≠ main_v43_1) : B4 m c r = B3 m c r := by
  unfold B4; exact (Function.update_of_ne (StableHlo.devRef_ne_of_ne h1) _ _).trans (Function.update_of_ne (StableHlo.devRef_ne_of_ne h0) _ _)
theorem B5_of (c : Dev nD) (r : Ref sig .tc) (h : r ∉ hostOps2_W) : B5 m c r = B4 m c r :=
  StableHlo.after_of_writes_sub hostOps2 _ hostOps2_writes h
theorem B6_of (c : Dev nD) (r : Ref sig .tc) (h : r ≠ main_v47) : B6 m c r = B5 m c r := by
  unfold B6; exact Function.update_of_ne (StableHlo.devRef_ne_of_ne h) _ _
theorem B7_of (c : Dev nD) (r : Ref sig .tc) (h : r ∉ hostOps3_W) : B7 m c r = B6 m c r :=
  StableHlo.after_of_writes_sub hostOps3 _ hostOps3_writes h

/-- A buffer no host operation writes and no region stores into reaches the end as launched. -/
theorem B7_kept (c : Dev nD) (r : Ref sig .tc) (h0 : r ∉ hostOps0_W) (h1 : r ∉ hostOps1_W) (h2 : r ∉ hostOps2_W) (h3 : r ∉ hostOps3_W)
    (h31 : r ≠ main_v31) (h430 : r ≠ main_v43_0) (h431 : r ≠ main_v43_1) (h47 : r ≠ main_v47) :
    B7 m c r = m ((c : Thread nD τ).loc r) :=
  (B7_of m c r h3).trans <| (B6_of m c r h47).trans <| (B5_of m c r h2).trans <| (B4_of m c r h430 h431).trans <|
    (B3_of m c r h1).trans <| (B2_of m c r h31).trans <| (B1_of m c r h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Body0.dat (E1 m) c
  | ⟨1, _⟩ => fun c => Body1.dat (E3 m) c
  | ⟨2, _⟩ => fun c => Body2.dat (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first and the third region: every window on its own array -/

theorem hF0 (c : Dev nD) : ∀ w : Fin cfg0.W, (Body0.dat (E1 m) c).arrAt w cfg0.N = E2 m c (Pipeline.arrRef spec0 w)
  | ⟨0, _⟩ => ((Body0.dat (E1 m) c).arrAt_in 0 rfl _).trans ((Body0.A_eq (E1 m) c 0).trans (B2_of m c _ (by decide)).symm)
  | ⟨1, _⟩ => ((Body0.dat (E1 m) c).arrAt_in 1 rfl _).trans ((Body0.A_eq (E1 m) c 1).trans (B2_of m c _ (by decide)).symm)
  | ⟨2, _⟩ => ((Body0.dat (E1 m) c).arrAt_in 2 rfl _).trans ((Body0.A_eq (E1 m) c 2).trans (B2_of m c _ (by decide)).symm)
  | ⟨3, _⟩ => ((Body0.dat (E1 m) c).arrAt_in 3 rfl _).trans ((Body0.A_eq (E1 m) c 3).trans (B2_of m c _ (by decide)).symm)
  | ⟨4, _⟩ => by unfold E2 B2; exact (Function.update_self (Proc.devRef (τ := τ) .tc main_v31) _ (B1 m c)).symm
theorem hrest0 (c : Dev nD) : ∀ b, b ∉ Finset.univ.image (Pipeline.arrRef spec0) → E2 m c b = E1 m c b :=
  fun b hb => B2_of m c b fun e => hb (Finset.mem_image.mpr ⟨4, Finset.mem_univ _, e.symm⟩)

theorem hF2 (c : Dev nD) : ∀ w : Fin cfg2.W, (Body2.dat (E5 m) c).arrAt w cfg2.N = E6 m c (Pipeline.arrRef spec2 w)
  | ⟨0, _⟩ => ((Body2.dat (E5 m) c).arrAt_in 0 rfl _).trans ((Body2.A_eq (E5 m) c 0).trans (B6_of m c _ (by decide)).symm)
  | ⟨1, _⟩ => ((Body2.dat (E5 m) c).arrAt_in 1 rfl _).trans ((Body2.A_eq (E5 m) c 1).trans (B6_of m c _ (by decide)).symm)
  | ⟨2, _⟩ => ((Body2.dat (E5 m) c).arrAt_in 2 rfl _).trans ((Body2.A_eq (E5 m) c 2).trans (B6_of m c _ (by decide)).symm)
  | ⟨3, _⟩ => ((Body2.dat (E5 m) c).arrAt_in 3 rfl _).trans ((Body2.A_eq (E5 m) c 3).trans (B6_of m c _ (by decide)).symm)
  | ⟨4, _⟩ => by unfold E6 B6; exact (Function.update_self (Proc.devRef (τ := τ) .tc main_v47) _ (B5 m c)).symm
theorem hrest2 (c : Dev nD) : ∀ b, b ∉ Finset.univ.image (Pipeline.arrRef spec2) → E6 m c b = E5 m c b :=
  fun b hb => B6_of m c b fun e => hb (Finset.mem_image.mpr ⟨4, Finset.mem_univ _, e.symm⟩)

set_option backward.isDefEq.respectTransparency.types false in
/-- The first region over the thread state: entered from every unscoped buffer at `B1`, left at `B2`. Its arrays are
    split out of the unscoped buffers and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Body0.body_obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: two input windows on one array -/

theorem h430 (c : Dev nD) : E4 m c main_v43_0 = (Body1.dat (E3 m) c).arrAt 4 cfg1.N := by
  unfold E4 B4
  exact (Function.update_of_ne (StableHlo.devRef_ne_of_ne (by decide)) _ _).trans (Function.update_self ..)
theorem h431 (c : Dev nD) : E4 m c main_v43_1 = (Body1.dat (E3 m) c).arrAt 5 cfg1.N := by
  unfold E4 B4
  exact Function.update_self ..
theorem hrest1 (c : Dev nD) : ∀ b, b ≠ main_v43_0 → b ≠ main_v43_1 → E4 m c b = E3 m c b :=
  fun b h0 h1 => B4_of m c b h0 h1

set_option backward.isDefEq.respectTransparency.types false in
/-- The second region over the thread state: entered from every unscoped buffer at `B3`, left at `B4`. The stacked
    projection is handed to the query and the key windows in two halves and joined again at the end; the other
    arrays are held whole; the generator register goes into the pipeline's invariant and comes out; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Body1.body_obligation (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Share1.arrays_of_unscopedBufs (E3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N)
        ∗ Pipeline.unscopedRest (Ix := Unit) (Name := ℕ) (U := UR sig nD τ) (Lvl := ℕ) spec1 c (E3 m c)) : sProp 𝕄) ⊢ unscopedBufs c (E4 m c) :=
      Share1.unscopedBufs_of_arrays (E3 m) c (E4 m c) (h430 m c) (h431 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `B5`, left at `B6`. Its five
    windows sit on five distinct arrays, so they are split out of the unscoped buffers and put back at the exit
    contents by the library's two lemmas; the generator register goes into the pipeline's invariant and comes out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Body2.body_obligation (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

/-- The last thread state beside the core owing nothing: every unscoped buffer at the last boundary's contents, the
    generator register at some state. -/
abbrev Tₙ (c : Dev nD) : sProp 𝕄 := iprop(StableHlo.held (c : Thread nD τ) (Pipeline.ucRefs τ sig) (B7 m c) ∗ ∃ r, prngReg c r)

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)) ]

/-- The program IS the run of these items. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer holds the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (B7 m c) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-! ## The frame: every argument ends as launched -/

/-- An unscoped buffer that no host operation writes and no region stores into is read, in a final state of the run,
    at its launch contents. -/
theorem arg_end {s : MemSt nD τ sig (Elt F)} (c : Dev nD)
    (h : ∀ b ∈ Pipeline.ucRefs τ sig, s.mem (((c : Thread nD τ)).1, b) = B7 m c b) (a : Ref sig .tc)
    (hu : ¬ (Proc.devRef .tc a : DevRef τ sig).isScoped)
    (h0 : a ∉ hostOps0_W) (h1 : a ∉ hostOps1_W) (h2 : a ∉ hostOps2_W) (h3 : a ∉ hostOps3_W)
    (h31 : a ≠ main_v31) (h430 : a ≠ main_v43_0) (h431 : a ≠ main_v43_1) (h47 : a ≠ main_v47) :
    s.mem ((c.tc : Thread nD τ).loc a) = m ((c.tc : Thread nD τ).loc a) :=
  (h _ (mem_uc a hu)).trans (B7_kept m c a h0 h1 h2 h3 h31 h430 h431 h47)

/-- THE FRAME: every weakly fair execution from any memory with zero counters terminates, nothing faulting, with
    each of the twenty-seven argument arrays holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => by
    repeat' apply And.intro
    all_goals exact arg_end m c (h c) _ (by decide) (by decide) (by decide) (by decide) (by decide) (by decide) (by decide) (by decide) (by decide))
    (run m ρ)

end Cert.Kernel.Run

end
-- ==== Proof.KIBody0.lean ====
/-
  The first kernel region: the stacked query / key / value projection. At a grid point the body reads the whole
  stacked weight matrix W (1152 x 768), a block of 1024 columns of x (768 x 1024) and the two columns scale and
  shift (1152 x 1), and stores (W . x) * scale + shift into its block of 1024 columns of the result.
  Stated at ANY contents V of the core's buffers when the region is entered: a window's block at a point, what
  the body leaves in the output buffer as a function of the four input blocks, the body's triple, and the
  pipeline's proof data with its obligation at every point.
-/
import proofs.«143704_j73521250173422_2_alg».proof.Proof.Gen.KernelIdeal.Launch
import proofs.«143704_j73521250173422_2_alg».proof.Proof.Gen.KernelIdeal.Skeleton
import proofs.«143704_j73521250173422_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: the weights and
    the two columns are fetched once and their block index never moves; the block of x is fetched at every point. -/

theorem beforeW_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeX_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeScale_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeShift_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! The body's accesses: every load and the one store take the whole buffer. -/

abbrev rW : Rect S1152x768 := Rect.unit (s := S1152x768) ![0, 0] S1152x768.size inb_S1152x768_S1152x768_0_0
abbrev rX : Rect S768x1024 := Rect.unit (s := S768x1024) ![0, 0] S768x1024.size inb_S768x1024_S768x1024_0_0
abbrev rCol : Rect S1152x1 := Rect.unit (s := S1152x1) ![0, 0] S1152x1.size inb_S1152x1_S1152x1_0_0
abbrev rY : Rect S1152x1024 := Rect.unit (s := S1152x1024) ![0, 0] S1152x1024.size inb_S1152x1024_S1152x1024_0_0

/-- What the body leaves in the output buffer, from the four input blocks: its one store, of the whole buffer. -/
def outY (w : Vec F S1152x768 .bf16) (x : Vec F S768x1024 .f32) (sc sh : Vec F S1152x1 .f32) : Vec F S1152x1024 .bf16 :=
  View.canon [⟨rY, k0_pay1 (View.ld x rX) (View.ld w rW) (View.ld sc rCol) (View.ld sh rCol)⟩]

/-- That store covers the buffer. -/
theorem coverY (p0 : Vec F S1152x1024 .bf16) (y : S1152x1024.Idx) :
    ∃ pc ∈ ([⟨rY, p0⟩] : List (View.Piece (Elt F) S1152x1024 .bf16)), y ∈ pc.1.set :=
  View.cover_of_tiled [⟨rY, p0⟩] S1152x1024.size (by rfl) y

set_option maxHeartbeats 4000000 in
/-- The body on whole staging buffers, the inputs' at contents `w x sc sh` and the output's at anything, runs to the
    end with the inputs' buffers unchanged and the output's at `outY w x sc sh`. -/
theorem sound_kernel (c : Dev nD) (E : Set ℕ) (i : grid0.Coords)
    (arg1 : Memref sig .tc .vmem S1152x768 .bf16) (harg1 : arg1.IsWhole) (arg2 : Memref sig .tc .vmem S768x1024 .f32) (harg2 : arg2.IsWhole)
    (arg3 : Memref sig .tc .vmem S1152x1 .f32) (harg3 : arg3.IsWhole) (arg4 : Memref sig .tc .vmem S1152x1 .f32) (harg4 : arg4.IsWhole)
    (arg5 : Memref sig .tc .vmem S1152x1024 .bf16) (harg5 : arg5.IsWhole)
    (w : Vec F S1152x768 .bf16) (x : Vec F S768x1024 .f32) (sc sh : Vec F S1152x1 .f32) (K : PUnit → sProp 𝕄) :
    iprop(owns (c : Thread nD τ) arg1 fullShare w ∗ owns (c : Thread nD τ) arg2 fullShare x
        ∗ owns (c : Thread nD τ) arg3 fullShare sc ∗ owns (c : Thread nD τ) arg4 fullShare sh
        ∗ (∃ d, owns (c : Thread nD τ) arg5 fullShare d)
        ∗ (iprop(owns (c : Thread nD τ) arg1 fullShare w ∗ owns (c : Thread nD τ) arg2 fullShare x
            ∗ owns (c : Thread nD τ) arg3 fullShare sc ∗ owns (c : Thread nD τ) arg4 fullShare sh
            ∗ owns (c : Thread nD τ) arg5 fullShare (outY w x sc sh)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverY _)

/-- The pipeline's proof data on core `c`: the arrays as the region finds them; after the body at point `t` each
    input's buffer still at its block and the output's at `outY` of the four input blocks; nothing owed; every
    array held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outY (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem afterW (c : Dev nD) (t : Fin cfg0.N) : (dat V c).after 0 t = iblk V c 0 t := by dsimp only [dat]
theorem afterX (c : Dev nD) (t : Fin cfg0.N) : (dat V c).after 1 t = iblk V c 1 t := by dsimp only [dat]
theorem afterScale (c : Dev nD) (t : Fin cfg0.N) : (dat V c).after 2 t = iblk V c 2 t := by dsimp only [dat]
theorem afterShift (c : Dev nD) (t : Fin cfg0.N) : (dat V c).after 3 t = iblk V c 3 t := by dsimp only [dat]
theorem afterY (c : Dev nD) (t : Fin cfg0.N) :
    (dat V c).after 4 t = outY (iblk V c 0 t) (iblk V c 1 t) (iblk V c 2 t) (iblk V c 3 t) := by dsimp only [dat]

theorem beforeW (c : Dev nD) (t : Fin cfg0.N) (d) : (dat V c).before 0 t d = iblk V c 0 t :=
  beforeW_of V (dat V c) (A_eq V c 0) (afterW V c) t d
theorem beforeX (c : Dev nD) (t : Fin cfg0.N) (d) : (dat V c).before 1 t d = iblk V c 1 t :=
  beforeX_of V (dat V c) (A_eq V c 1) (afterX V c) t d
theorem beforeScale (c : Dev nD) (t : Fin cfg0.N) (d) : (dat V c).before 2 t d = iblk V c 2 t :=
  beforeScale_of V (dat V c) (A_eq V c 2) (afterScale V c) t d
theorem beforeShift (c : Dev nD) (t : Fin cfg0.N) (d) : (dat V c).before 3 t d = iblk V c 3 t :=
  beforeShift_of V (dat V c) (A_eq V c 3) (afterShift V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 1000000 in
/-- The body at any point: the inputs' buffers hold their blocks, so `sound_kernel` applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [beforeW, beforeX, beforeScale, beforeShift]
  rw [show (dat V c).Φ t.succ = (dat V c).Φ t.castSucc from rfl,
    show (dat V c).owesAt () t.succ = (dat V c).owesAt () t.castSucc from rfl,
    afterW, afterX, afterScale, afterShift, afterY]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Body0

end
-- ==== Proof.KIBody1.lean ====
/-
  The second kernel region: attention for one tile of 256 queries. At a grid point the body reads a block of 256
  columns of the query rows (384 x 256), all key rows (384 x 4096), the re-laid value matrix (4096 x 384) and the
  row of modulation factors (1 x 4096). It forms the scores q^T k (256 x 4096), scales column j by the factor at
  j, takes the softmax along each row (subtract the row maximum, exponentiate, divide by the row sum) and stores
  it into its block of 256 rows of the attention matrix; then stores that tile times the value matrix into its
  block of 256 rows of the second result.
  The query and the key windows read ONE array (the stacked projection), so the core holds that array through two
  input windows at once, each at half of the whole share.
  Stated at ANY contents V of the core's buffers when the region is entered: a window's block at a point, what
  the body leaves in the two output buffers as functions of the four input blocks, the body's triple, and the
  pipeline's proof data with its obligation at every point.
-/
import proofs.«143704_j73521250173422_2_alg».proof.Proof.Gen.KernelIdeal.Launch
import proofs.«143704_j73521250173422_2_alg».proof.Proof.Gen.KernelIdeal.Skeleton
import proofs.«143704_j73521250173422_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: the query block
    is fetched at every point; the keys, the values and the factors are fetched once and their block index never
    moves. -/

theorem beforeQ_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeK_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeVal_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeFac_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! The body's accesses: every load and both stores take the whole buffer. -/

abbrev rQ : Rect S384x256 := Rect.unit (s := S384x256) ![0, 0] S384x256.size inb_S384x256_S384x256_0_0
abbrev rK : Rect S384x4096 := Rect.unit (s := S384x4096) ![0, 0] S384x4096.size inb_S384x4096_S384x4096_0_0
abbrev rVal : Rect S4096x384 := Rect.unit (s := S4096x384) ![0, 0] S4096x384.size inb_S4096x384_S4096x384_0_0
abbrev rFac : Rect S1x4096 := Rect.unit (s := S1x4096) ![0, 0] S1x4096.size inb_S1x4096_S1x4096_0_0
abbrev rAttn : Rect S256x4096 := Rect.unit (s := S256x4096) ![0, 0] S256x4096.size inb_S256x4096_S256x4096_0_0
abbrev rAv : Rect S256x384 := Rect.unit (s := S256x384) ![0, 0] S256x384.size inb_S256x384_S256x384_0_0

/-- What the body leaves in the attention tile's buffer: the softmax of the scaled scores, one whole-buffer store. -/
def outAttn (q : Vec F S384x256 .bf16) (k : Vec F S384x4096 .bf16) (fac : Vec F S1x4096 .f32) : Vec F S256x4096 .f32 :=
  View.canon [⟨rAttn, k1_pay1 (View.ld q rQ) (View.ld k rK) (View.ld fac rFac)⟩]

/-- What the body leaves in the second result's buffer: that tile times the value matrix, one whole-buffer store. -/
def outAv (q : Vec F S384x256 .bf16) (k : Vec F S384x4096 .bf16) (v : Vec F S4096x384 .bf16) (fac : Vec F S1x4096 .f32) : Vec F S256x384 .bf16 :=
  View.canon [⟨rAv, k1_pay2 (View.ld q rQ) (View.ld k rK) (View.ld fac rFac) (View.ld v rVal)⟩]

/-- Each store covers its buffer. -/
theorem coverAttn (p0 : Vec F S256x4096 .f32) (y : S256x4096.Idx) :
    ∃ pc ∈ ([⟨rAttn, p0⟩] : List (View.Piece (Elt F) S256x4096 .f32)), y ∈ pc.1.set :=
  View.cover_of_tiled [⟨rAttn, p0⟩] S256x4096.size (by rfl) y
theorem coverAv (p0 : Vec F S256x384 .bf16) (y : S256x384.Idx) :
    ∃ pc ∈ ([⟨rAv, p0⟩] : List (View.Piece (Elt F) S256x384 .bf16)), y ∈ pc.1.set :=
  View.cover_of_tiled [⟨rAv, p0⟩] S256x384.size (by rfl) y

set_option maxHeartbeats 4000000 in
/-- The body on whole staging buffers, the inputs' at contents `q k v fac` and the outputs' at anything, runs to the
    end with the inputs' buffers unchanged and the outputs' at `outAttn q k fac` and `outAv q k v fac`. -/
theorem sound_kernel (c : Dev nD) (E : Set ℕ) (i : grid1.Coords)
    (arg1 : Memref sig .tc .vmem S384x256 .bf16) (harg1 : arg1.IsWhole) (arg2 : Memref sig .tc .vmem S384x4096 .bf16) (harg2 : arg2.IsWhole)
    (arg3 : Memref sig .tc .vmem S4096x384 .bf16) (harg3 : arg3.IsWhole) (arg4 : Memref sig .tc .vmem S1x4096 .f32) (harg4 : arg4.IsWhole)
    (arg5 : Memref sig .tc .vmem S256x4096 .f32) (harg5 : arg5.IsWhole) (arg6 : Memref sig .tc .vmem S256x384 .bf16) (harg6 : arg6.IsWhole)
    (q : Vec F S384x256 .bf16) (k : Vec F S384x4096 .bf16) (v : Vec F S4096x384 .bf16) (fac : Vec F S1x4096 .f32) (K : PUnit → sProp 𝕄) :
    iprop(owns (c : Thread nD τ) arg1 fullShare q ∗ owns (c : Thread nD τ) arg2 fullShare k
        ∗ owns (c : Thread nD τ) arg3 fullShare v ∗ owns (c : Thread nD τ) arg4 fullShare fac
        ∗ (∃ d, owns (c : Thread nD τ) arg5 fullShare d) ∗ (∃ d, owns (c : Thread nD τ) arg6 fullShare d)
        ∗ (iprop(owns (c : Thread nD τ) arg1 fullShare q ∗ owns (c : Thread nD τ) arg2 fullShare k
            ∗ owns (c : Thread nD τ) arg3 fullShare v ∗ owns (c : Thread nD τ) arg4 fullShare fac
            ∗ owns (c : Thread nD τ) arg5 fullShare (outAttn q k fac) ∗ owns (c : Thread nD τ) arg6 fullShare (outAv q k v fac)) -∗ K ⟨⟩))
      ⊢ wp frame (wpE (defs₀ (F := F)) Variants.none c none) E
          (cc1__attn_kernel i arg1 harg1 arg2 harg2 arg3 harg3 arg4 harg4 arg5 harg5 arg6 harg6) K := by
  simp only [cc1__attn_kernel_eq_skeleton]; unfold cc1__attn_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverAttn _)
  iexists _; isplitr
  swap; · iexact H6
  ipureintro
  exact View.read_writes_eq_canon _ _ _ (coverAv _)

/-- The pipeline's proof data on core `c`: the arrays as the region finds them; after the body at point `t` each
    input's buffer still at its block and the two outputs' at `outAttn` and `outAv` of the input blocks; nothing
    owed. The query and the key windows share their array, each holding half of it; every other array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAttn (iblk V c 0 t) (iblk V c 1 t) (iblk V c 3 t)
    | ⟨5, _⟩ => outAv (iblk V c 0 t) (iblk V c 1 t) (iblk V c 2 t) (iblk V c 3 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem afterQ (c : Dev nD) (t : Fin cfg1.N) : (dat V c).after 0 t = iblk V c 0 t := by dsimp only [dat]
theorem afterK (c : Dev nD) (t : Fin cfg1.N) : (dat V c).after 1 t = iblk V c 1 t := by dsimp only [dat]
theorem afterVal (c : Dev nD) (t : Fin cfg1.N) : (dat V c).after 2 t = iblk V c 2 t := by dsimp only [dat]
theorem afterFac (c : Dev nD) (t : Fin cfg1.N) : (dat V c).after 3 t = iblk V c 3 t := by dsimp only [dat]
theorem afterAttn (c : Dev nD) (t : Fin cfg1.N) :
    (dat V c).after 4 t = outAttn (iblk V c 0 t) (iblk V c 1 t) (iblk V c 3 t) := by dsimp only [dat]
theorem afterAv (c : Dev nD) (t : Fin cfg1.N) :
    (dat V c).after 5 t = outAv (iblk V c 0 t) (iblk V c 1 t) (iblk V c 2 t) (iblk V c 3 t) := by dsimp only [dat]

theorem beforeQ (c : Dev nD) (t : Fin cfg1.N) (d) : (dat V c).before 0 t d = iblk V c 0 t :=
  beforeQ_of V (dat V c) (A_eq V c 0) (afterQ V c) t d
theorem beforeK (c : Dev nD) (t : Fin cfg1.N) (d) : (dat V c).before 1 t d = iblk V c 1 t :=
  beforeK_of V (dat V c) (A_eq V c 1) (afterK V c) t d
theorem beforeVal (c : Dev nD) (t : Fin cfg1.N) (d) : (dat V c).before 2 t d = iblk V c 2 t :=
  beforeVal_of V (dat V c) (A_eq V c 2) (afterVal V c) t d
theorem beforeFac (c : Dev nD) (t : Fin cfg1.N) (d) : (dat V c).before 3 t d = iblk V c 3 t :=
  beforeFac_of V (dat V c) (A_eq V c 3) (afterFac V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 1000000 in
/-- The body at any point: the inputs' buffers hold their blocks, so `sound_kernel` applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [beforeQ, beforeK, beforeVal, beforeFac]
  rw [show (dat V c).Φ t.succ = (dat V c).Φ t.castSucc from rfl,
    show (dat V c).owesAt () t.succ = (dat V c).owesAt () t.castSucc from rfl,
    afterQ, afterK, afterVal, afterFac, afterAttn, afterAv]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Body1

end
-- ==== Proof.KIBody2.lean ====
/-
  The third kernel region: the final projection with bias and residual. At a grid point the body reads the whole
  weight matrix Wf (768 x 384), a block of 1024 columns of the attention output (384 x 1024), the bias column
  (768 x 1) and the same block of columns of x (768 x 1024), and stores (Wf . out + bias) + x into its block of
  1024 columns of the result.
  Stated at ANY contents V of the core's buffers when the region is entered: a window's block at a point, what
  the body leaves in the output buffer as a function of the four input blocks, the body's triple, and the
  pipeline's proof data with its obligation at every point.
-/
import proofs.«143704_j73521250173422_2_alg».proof.Proof.Gen.KernelIdeal.Launch
import proofs.«143704_j73521250173422_2_alg».proof.Proof.Gen.KernelIdeal.Skeleton
import proofs.«143704_j73521250173422_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: the weights and
    the bias column are fetched once and their block index never moves; the two column blocks are fetched at every
    point. -/

theorem beforeWf_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeOut_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeBias_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeX_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! The body's accesses: every load and the one store take the whole buffer. -/

abbrev rWf : Rect S768x384 := Rect.unit (s := S768x384) ![0, 0] S768x384.size inb_S768x384_S768x384_0_0
abbrev rOut : Rect S384x1024 := Rect.unit (s := S384x1024) ![0, 0] S384x1024.size inb_S384x1024_S384x1024_0_0
abbrev rBias : Rect S768x1 := Rect.unit (s := S768x1) ![0, 0] S768x1.size inb_S768x1_S768x1_0_0
abbrev rX : Rect S768x1024 := Rect.unit (s := S768x1024) ![0, 0] S768x1024.size inb_S768x1024_S768x1024_0_0

/-- What the body leaves in the output buffer, from the four input blocks: its one store, of the whole buffer. -/
def outRes (wf : Vec F S768x384 .bf16) (o : Vec F S384x1024 .bf16) (b : Vec F S768x1 .f32) (x : Vec F S768x1024 .f32) : Vec F S768x1024 .f32 :=
  View.canon [⟨rX, k2_pay1 (View.ld wf rWf) (View.ld o rOut) (View.ld b rBias) (View.ld x rX)⟩]

/-- That store covers the buffer. -/
theorem coverRes (p0 : Vec F S768x1024 .f32) (y : S768x1024.Idx) :
    ∃ pc ∈ ([⟨rX, p0⟩] : List (View.Piece (Elt F) S768x1024 .f32)), y ∈ pc.1.set :=
  View.cover_of_tiled [⟨rX, p0⟩] S768x1024.size (by rfl) y

set_option maxHeartbeats 4000000 in
/-- The body on whole staging buffers, the inputs' at contents `wf o b x` and the output's at anything, runs to the
    end with the inputs' buffers unchanged and the output's at `outRes wf o b x`. -/
theorem sound_kernel (c : Dev nD) (E : Set ℕ) (i : grid2.Coords)
    (arg1 : Memref sig .tc .vmem S768x384 .bf16) (harg1 : arg1.IsWhole) (arg2 : Memref sig .tc .vmem S384x1024 .bf16) (harg2 : arg2.IsWhole)
    (arg3 : Memref sig .tc .vmem S768x1 .f32) (harg3 : arg3.IsWhole) (arg4 : Memref sig .tc .vmem S768x1024 .f32) (harg4 : arg4.IsWhole)
    (arg5 : Memref sig .tc .vmem S768x1024 .f32) (harg5 : arg5.IsWhole)
    (wf : Vec F S768x384 .bf16) (o : Vec F S384x1024 .bf16) (b : Vec F S768x1 .f32) (x : Vec F S768x1024 .f32) (K : PUnit → sProp 𝕄) :
    iprop(owns (c : Thread nD τ) arg1 fullShare wf ∗ owns (c : Thread nD τ) arg2 fullShare o
        ∗ owns (c : Thread nD τ) arg3 fullShare b ∗ owns (c : Thread nD τ) arg4 fullShare x
        ∗ (∃ d, owns (c : Thread nD τ) arg5 fullShare d)
        ∗ (iprop(owns (c : Thread nD τ) arg1 fullShare wf ∗ owns (c : Thread nD τ) arg2 fullShare o
            ∗ owns (c : Thread nD τ) arg3 fullShare b ∗ owns (c : Thread nD τ) arg4 fullShare x
            ∗ owns (c : Thread nD τ) arg5 fullShare (outRes wf o b x)) -∗ K ⟨⟩))
      ⊢ wp frame (wpE (defs₀ (F := F)) Variants.none c none) E (cc2__final_kernel i arg1 harg1 arg2 harg2 arg3 harg3 arg4 harg4 arg5 harg5) K := by
  simp only [cc2__final_kernel_eq_skeleton]; unfold cc2__final_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverRes _)

/-- The pipeline's proof data on core `c`: the arrays as the region finds them; after the body at point `t` each
    input's buffer still at its block and the output's at `outRes` of the four input blocks; nothing owed; every
    array held whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outRes (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem afterWf (c : Dev nD) (t : Fin cfg2.N) : (dat V c).after 0 t = iblk V c 0 t := by dsimp only [dat]
theorem afterOut (c : Dev nD) (t : Fin cfg2.N) : (dat V c).after 1 t = iblk V c 1 t := by dsimp only [dat]
theorem afterBias (c : Dev nD) (t : Fin cfg2.N) : (dat V c).after 2 t = iblk V c 2 t := by dsimp only [dat]
theorem afterX (c : Dev nD) (t : Fin cfg2.N) : (dat V c).after 3 t = iblk V c 3 t := by dsimp only [dat]
theorem afterRes (c : Dev nD) (t : Fin cfg2.N) :
    (dat V c).after 4 t = outRes (iblk V c 0 t) (iblk V c 1 t) (iblk V c 2 t) (iblk V c 3 t) := by dsimp only [dat]

theorem beforeWf (c : Dev nD) (t : Fin cfg2.N) (d) : (dat V c).before 0 t d = iblk V c 0 t :=
  beforeWf_of V (dat V c) (A_eq V c 0) (afterWf V c) t d
theorem beforeOut (c : Dev nD) (t : Fin cfg2.N) (d) : (dat V c).before 1 t d = iblk V c 1 t :=
  beforeOut_of V (dat V c) (A_eq V c 1) (afterOut V c) t d
theorem beforeBias (c : Dev nD) (t : Fin cfg2.N) (d) : (dat V c).before 2 t d = iblk V c 2 t :=
  beforeBias_of V (dat V c) (A_eq V c 2) (afterBias V c) t d
theorem beforeX (c : Dev nD) (t : Fin cfg2.N) (d) : (dat V c).before 3 t d = iblk V c 3 t :=
  beforeX_of V (dat V c) (A_eq V c 3) (afterX V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

set_option maxHeartbeats 1000000 in
/-- The body at any point: the inputs' buffers hold their blocks, so `sound_kernel` applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [beforeWf, beforeOut, beforeBias, beforeX]
  rw [show (dat V c).Φ t.succ = (dat V c).Φ t.castSucc from rfl,
    show (dat V c).owesAt () t.succ = (dat V c).owesAt () t.castSucc from rfl,
    afterWf, afterOut, afterBias, afterX, afterRes]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Body2

end
-- ==== Proof.KIShare1.lean ====
/-
  The second region reads the stacked projection through TWO input windows (the query block and all key rows), so
  the five buffers behind its six windows are handed to the pipeline with that one buffer split in two halves, and
  joined again when the region ends: both windows still hold the contents the region found there.
-/
import proofs.«143704_j73521250173422_2_alg».proof.Proof.KIBody1

set_option maxRecDepth 16384

noncomputable section

namespace Cert.KernelIdeal.Share1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body1

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five buffers behind the six windows. -/
theorem image_arr : Finset.univ.image (Pipeline.arrRef spec1) = ({main_v31, main_v33, main_v42, main_v43_0, main_v43_1} : Finset (Ref sig .tc)) := by
  decide

/-- They are unscoped. -/
theorem image_sub : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

/-! The share each window holds its array at: the two halves for the query and the key windows, the whole for the
    values, the factors and the two outputs. -/
theorem share_q (c : Dev nD) : (dat V c).share 0 = fullShare.left := by
  unfold Dat.share
  rw [if_neg (show ¬ ((cfg1.win 0).isOut = true) from by rw [show (cfg1.win 0).isOut = false from rfl]; exact Bool.false_ne_true)]
  dsimp only [dat]
  rfl
theorem share_k (c : Dev nD) : (dat V c).share 1 = fullShare.right := by
  unfold Dat.share
  rw [if_neg (show ¬ ((cfg1.win 1).isOut = true) from by rw [show (cfg1.win 1).isOut = false from rfl]; exact Bool.false_ne_true)]
  dsimp only [dat]
  rfl
theorem share_val (c : Dev nD) : (dat V c).share 2 = fullShare := by
  unfold Dat.share
  rw [if_neg (show ¬ ((cfg1.win 2).isOut = true) from by rw [show (cfg1.win 2).isOut = false from rfl]; exact Bool.false_ne_true)]
  dsimp only [dat]
  rfl
theorem share_fac (c : Dev nD) : (dat V c).share 3 = fullShare := by
  unfold Dat.share
  rw [if_neg (show ¬ ((cfg1.win 3).isOut = true) from by rw [show (cfg1.win 3).isOut = false from rfl]; exact Bool.false_ne_true)]
  dsimp only [dat]
  rfl
theorem share_attn (c : Dev nD) : (dat V c).share 4 = fullShare := by
  unfold Dat.share
  rw [if_pos (show (cfg1.win 4).isOut = true from rfl)]
theorem share_av (c : Dev nD) : (dat V c).share 5 = fullShare := by
  unfold Dat.share
  rw [if_pos (show (cfg1.win 5).isOut = true from rfl)]

set_option maxHeartbeats 2000000 in
theorem arrays_of_arrBufs (c : Dev nD) :
    (Pipeline.arrBufs spec1 c (V c) : sProp 𝕄) ⊢ (dat V c).arrays (dat V c).A := by
  unfold Pipeline.arrBufs Dat.arrays
  rw [image_arr, bigSep_insert (by decide), bigSep_insert (by decide), bigSep_insert (by decide), bigSep_insert (by decide), bigSep_singleton, bigSep_W1]
  have h0 : (cfg1.win 0).arr.IsWhole := arr_whole1 0
  have h1 : (cfg1.win 1).arr.IsWhole := arr_whole1 1
  have h2 : (cfg1.win 2).arr.IsWhole := arr_whole1 2
  have h3 : (cfg1.win 3).arr.IsWhole := arr_whole1 3
  have h4 : (cfg1.win 4).arr.IsWhole := arr_whole1 4
  have h5 : (cfg1.win 5).arr.IsWhole := arr_whole1 5
  simp only [h0.set_eq_univ, h1.set_eq_univ, h2.set_eq_univ, h3.set_eq_univ, h4.set_eq_univ, h5.set_eq_univ]
  rw [share_q, share_k, share_val, share_fac, share_attn, share_av]
  show (iprop(((c : Thread nD τ).loc main_v31 ↦{fullShare} V c main_v31) ∗ ((c : Thread nD τ).loc main_v33 ↦{fullShare} V c main_v33)
      ∗ ((c : Thread nD τ).loc main_v42 ↦{fullShare} V c main_v42) ∗ ((c : Thread nD τ).loc main_v43_0 ↦{fullShare} V c main_v43_0)
      ∗ ((c : Thread nD τ).loc main_v43_1 ↦{fullShare} V c main_v43_1)) : sProp 𝕄) ⊢ _
  iintro ⟨H31, H33, H42, H430, H431⟩
  ihave H31 := (pointsTo_share (PosShare.mem_left_op_right fullShare)).1 $$ H31
  icases H31 with ⟨Hl, Hr⟩
  isplitl [Hl]; · iexact Hl
  isplitl [Hr]; · iexact Hr
  isplitl [H33]; · iexact H33
  isplitl [H42]; · iexact H42
  isplitl [H430]; · iexact H430
  iexact H431

set_option maxHeartbeats 2000000 in
/-- At the end the six windows' holdings, at the contents the pipeline leaves (the four inputs' as the region found
    them, the two outputs' at what their write-backs left), are the five buffers whole again at any contents `V'`
    that say so: the two halves of the shared buffer hold the same contents and join. -/
theorem arrBufs_of_arrays (c : Dev nD) (V' : (b : Ref sig .tc) → Buf (Elt F) ((c : Thread nD τ).loc b))
    (h31 : V' main_v31 = V c main_v31) (h33 : V' main_v33 = V c main_v33) (h42 : V' main_v42 = V c main_v42)
    (h430 : V' main_v43_0 = (dat V c).arrAt 4 cfg1.N) (h431 : V' main_v43_1 = (dat V c).arrAt 5 cfg1.N) :
    ((dat V c).arrays ((dat V c).arrAt · cfg1.N) : sProp 𝕄) ⊢ Pipeline.arrBufs spec1 c V' := by
  unfold Pipeline.arrBufs Dat.arrays
  rw [image_arr, bigSep_insert (by decide), bigSep_insert (by decide), bigSep_insert (by decide), bigSep_insert (by decide), bigSep_singleton, bigSep_W1]
  have h0 : (cfg1.win 0).arr.IsWhole := arr_whole1 0
  have h1 : (cfg1.win 1).arr.IsWhole := arr_whole1 1
  have h2 : (cfg1.win 2).arr.IsWhole := arr_whole1 2
  have h3 : (cfg1.win 3).arr.IsWhole := arr_whole1 3
  have h4 : (cfg1.win 4).arr.IsWhole := arr_whole1 4
  have h5 : (cfg1.win 5).arr.IsWhole := arr_whole1 5
  simp only [h0.set_eq_univ, h1.set_eq_univ, h2.set_eq_univ, h3.set_eq_univ, h4.set_eq_univ, h5.set_eq_univ]
  rw [share_q, share_k, share_val, share_fac, share_attn, share_av,
    (dat V c).arrAt_in 0 rfl, (dat V c).arrAt_in 1 rfl, (dat V c).arrAt_in 2 rfl, (dat V c).arrAt_in 3 rfl,
    h31, h33, h42, h430, h431]
  show _ ⊢ (iprop(((c : Thread nD τ).loc main_v31 ↦{fullShare} V c main_v31) ∗ ((c : Thread nD τ).loc main_v33 ↦{fullShare} V c main_v33)
      ∗ ((c : Thread nD τ).loc main_v42 ↦{fullShare} V c main_v42) ∗ ((c : Thread nD τ).loc main_v43_0 ↦{fullShare} (dat V c).arrAt 4 cfg1.N)
      ∗ ((c : Thread nD τ).loc main_v43_1 ↦{fullShare} (dat V c).arrAt 5 cfg1.N)) : sProp 𝕄)
  iintro ⟨Hl, Hr, H33, H42, H430, H431⟩
  isplitl [Hl Hr]
  · iapply (pointsTo_share (PosShare.mem_left_op_right fullShare)).2
    isplitl [Hl]; · iexact Hl
    iexact Hr
  isplitl [H33]; · iexact H33
  isplitl [H42]; · iexact H42
  isplitl [H430]; · iexact H430
  iexact H431

/-- ENTRY: the core's unscoped buffers at the contents the region finds are the pipeline's arrays at those
    contents, the shared buffer in two halves, and the buffers no window reads or writes. -/
theorem arrays_of_unscopedBufs (c : Dev nD) :
    (unscopedBufs c (V c) : sProp 𝕄) ⊢ iprop((dat V c).arrays (dat V c).A ∗ Pipeline.unscopedRest spec1 c (V c)) := by
  classical
  unfold unscopedBufs Pipeline.unscopedRest
  rw [bigSep_sdiff_split image_sub]
  exact sep_mono (arrays_of_arrBufs V c) .rfl

/-- EXIT: the arrays at what the pipeline leaves and the untouched rest are the core's unscoped buffers at any
    contents `V'` that hold the two outputs' final contents and agree with the entry contents everywhere else. -/
theorem unscopedBufs_of_arrays (c : Dev nD) (V' : (b : Ref sig .tc) → Buf (Elt F) ((c : Thread nD τ).loc b))
    (h430 : V' main_v43_0 = (dat V c).arrAt 4 cfg1.N) (h431 : V' main_v43_1 = (dat V c).arrAt 5 cfg1.N)
    (hrest : ∀ b, b ≠ main_v43_0 → b ≠ main_v43_1 → V' b = V c b) :
    iprop((dat V c).arrays ((dat V c).arrAt · cfg1.N) ∗ Pipeline.unscopedRest spec1 c (V c)) ⊢ (unscopedBufs c V' : sProp 𝕄) := by
  classical
  unfold unscopedBufs Pipeline.unscopedRest
  rw [bigSep_sdiff_split (s := Finset.univ.filter fun b : Ref sig .tc => ¬ b.isScoped) image_sub]
  refine BI.sep_mono (arrBufs_of_arrays V c V' (hrest _ (by decide) (by decide)) (hrest _ (by decide) (by decide)) (hrest _ (by decide) (by decide)) h430 h431)
    (Entails.of_eq (bigSep_congr fun b hb => ?_))
  have hb' := (Finset.mem_sdiff.mp hb).2
  rw [image_arr] at hb'
  rw [hrest b (fun e => hb' (by rw [e]; decide)) (fun e => hb' (by rw [e]; decide))]

end Cert.KernelIdeal.Share1

end
-- ==== Proof.KIRun.lean ====
/-
  The whole run of the program: seven items in order, four stretches of host operations around three kernel
  regions. The contents of the core's buffers at each boundary between two items are named from the launch memory
  onward: a host stretch applies its operations; a region replaces its output arrays by what its write-backs leave
  and changes nothing else. Every weakly fair execution terminates, nothing faults, and at the end every unscoped
  buffer holds the last boundary's contents: in particular each argument still holds its launch contents (no item
  writes one) and the two results hold what the last items left.
-/
import proofs.«143704_j73521250173422_2_alg».proof.Proof.KIBody0
import proofs.«143704_j73521250173422_2_alg».proof.Proof.KIBody1
import proofs.«143704_j73521250173422_2_alg».proof.Proof.KIBody2
import proofs.«143704_j73521250173422_2_alg».proof.Proof.KIShare1
import proofs.«143704_j73521250173422_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 (c : Dev nD) : Valuation τ sig (Elt F) := fun b => m (c, b)
/-- After the first host stretch: the first region's entry. -/
abbrev B1 (c : Dev nD) : Valuation τ sig (Elt F) := StableHlo.after hostOps0 (B0 m c)
abbrev E1 : (c : Dev nD) → (b : Ref sig .tc) → Buf (Elt F) ((c : Thread nD τ).loc b) := fun c b => B1 m c b
/-- After the first region: the stacked projection at what its write-backs leave. -/
def B2 (c : Dev nD) : Valuation τ sig (Elt F) :=
  Function.update (B1 m c) main_v31 ((Body0.dat (E1 m) c).arrAt 4 cfg0.N)
abbrev E2 : (c : Dev nD) → (b : Ref sig .tc) → Buf (Elt F) ((c : Thread nD τ).loc b) := fun c b => B2 m c b
/-- After the second host stretch: the second region's entry. -/
abbrev B3 (c : Dev nD) : Valuation τ sig (Elt F) := StableHlo.after hostOps1 (B2 m c)
abbrev E3 : (c : Dev nD) → (b : Ref sig .tc) → Buf (Elt F) ((c : Thread nD τ).loc b) := fun c b => B3 m c b
/-- After the second region: the attention matrix and the second result at what their write-backs leave. -/
def B4 (c : Dev nD) : Valuation τ sig (Elt F) :=
  Function.update (Function.update (B3 m c) main_v43_0 ((Body1.dat (E3 m) c).arrAt 4 cfg1.N)) main_v43_1 ((Body1.dat (E3 m) c).arrAt 5 cfg1.N)
abbrev E4 : (c : Dev nD) → (b : Ref sig .tc) → Buf (Elt F) ((c : Thread nD τ).loc b) := fun c b => B4 m c b
/-- After the third host stretch: the third region's entry. -/
abbrev B5 (c : Dev nD) : Valuation τ sig (Elt F) := StableHlo.after hostOps2 (B4 m c)
abbrev E5 : (c : Dev nD) → (b : Ref sig .tc) → Buf (Elt F) ((c : Thread nD τ).loc b) := fun c b => B5 m c b
/-- After the third region: the residual sum at what its write-backs leave. -/
def B6 (c : Dev nD) : Valuation τ sig (Elt F) :=
  Function.update (B5 m c) main_v47 ((Body2.dat (E5 m) c).arrAt 4 cfg2.N)
abbrev E6 : (c : Dev nD) → (b : Ref sig .tc) → Buf (Elt F) ((c : Thread nD τ).loc b) := fun c b => B6 m c b
/-- After the last host stretch: the end. -/
abbrev B7 (c : Dev nD) : Valuation τ sig (Elt F) := StableHlo.after hostOps3 (B6 m c)

/-! ## What each item leaves unchanged -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ≠ main_v31) : B2 m c r = B1 m c r := by
  unfold B2; exact Function.update_of_ne (StableHlo.devRef_ne_of_ne h) _ _
theorem B3_of (c : Dev nD) (r : Ref sig .tc) (h : r ∉ hostOps1_W) : B3 m c r = B2 m c r :=
  StableHlo.after_of_writes_sub hostOps1 _ hostOps1_writes h
theorem B4_of (c : Dev nD) (r : Ref sig .tc) (h0 : r ≠ main_v43_0) (h1 : r ≠ main_v43_1) : B4 m c r = B3 m c r := by
  unfold B4; exact (Function.update_of_ne (StableHlo.devRef_ne_of_ne h1) _ _).trans (Function.update_of_ne (StableHlo.devRef_ne_of_ne h0) _ _)
theorem B5_of (c : Dev nD) (r : Ref sig .tc) (h : r ∉ hostOps2_W) : B5 m c r = B4 m c r :=
  StableHlo.after_of_writes_sub hostOps2 _ hostOps2_writes h
theorem B6_of (c : Dev nD) (r : Ref sig .tc) (h : r ≠ main_v47) : B6 m c r = B5 m c r := by
  unfold B6; exact Function.update_of_ne (StableHlo.devRef_ne_of_ne h) _ _
theorem B7_of (c : Dev nD) (r : Ref sig .tc) (h : r ∉ hostOps3_W) : B7 m c r = B6 m c r :=
  StableHlo.after_of_writes_sub hostOps3 _ hostOps3_writes h

/-- A buffer no host operation writes and no region stores into reaches the end as launched. -/
theorem B7_kept (c : Dev nD) (r : Ref sig .tc) (h0 : r ∉ hostOps0_W) (h1 : r ∉ hostOps1_W) (h2 : r ∉ hostOps2_W) (h3 : r ∉ hostOps3_W)
    (h31 : r ≠ main_v31) (h430 : r ≠ main_v43_0) (h431 : r ≠ main_v43_1) (h47 : r ≠ main_v47) :
    B7 m c r = m ((c : Thread nD τ).loc r) :=
  (B7_of m c r h3).trans <| (B6_of m c r h47).trans <| (B5_of m c r h2).trans <| (B4_of m c r h430 h431).trans <|
    (B3_of m c r h1).trans <| (B2_of m c r h31).trans <| (B1_of m c r h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Body0.dat (E1 m) c
  | ⟨1, _⟩ => fun c => Body1.dat (E3 m) c
  | ⟨2, _⟩ => fun c => Body2.dat (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first and the third region: every window on its own array -/

theorem hF0 (c : Dev nD) : ∀ w : Fin cfg0.W, (Body0.dat (E1 m) c).arrAt w cfg0.N = E2 m c (Pipeline.arrRef spec0 w)
  | ⟨0, _⟩ => ((Body0.dat (E1 m) c).arrAt_in 0 rfl _).trans ((Body0.A_eq (E1 m) c 0).trans (B2_of m c _ (by decide)).symm)
  | ⟨1, _⟩ => ((Body0.dat (E1 m) c).arrAt_in 1 rfl _).trans ((Body0.A_eq (E1 m) c 1).trans (B2_of m c _ (by decide)).symm)
  | ⟨2, _⟩ => ((Body0.dat (E1 m) c).arrAt_in 2 rfl _).trans ((Body0.A_eq (E1 m) c 2).trans (B2_of m c _ (by decide)).symm)
  | ⟨3, _⟩ => ((Body0.dat (E1 m) c).arrAt_in 3 rfl _).trans ((Body0.A_eq (E1 m) c 3).trans (B2_of m c _ (by decide)).symm)
  | ⟨4, _⟩ => by unfold E2 B2; exact (Function.update_self (Proc.devRef (τ := τ) .tc main_v31) _ (B1 m c)).symm
theorem hrest0 (c : Dev nD) : ∀ b, b ∉ Finset.univ.image (Pipeline.arrRef spec0) → E2 m c b = E1 m c b :=
  fun b hb => B2_of m c b fun e => hb (Finset.mem_image.mpr ⟨4, Finset.mem_univ _, e.symm⟩)

theorem hF2 (c : Dev nD) : ∀ w : Fin cfg2.W, (Body2.dat (E5 m) c).arrAt w cfg2.N = E6 m c (Pipeline.arrRef spec2 w)
  | ⟨0, _⟩ => ((Body2.dat (E5 m) c).arrAt_in 0 rfl _).trans ((Body2.A_eq (E5 m) c 0).trans (B6_of m c _ (by decide)).symm)
  | ⟨1, _⟩ => ((Body2.dat (E5 m) c).arrAt_in 1 rfl _).trans ((Body2.A_eq (E5 m) c 1).trans (B6_of m c _ (by decide)).symm)
  | ⟨2, _⟩ => ((Body2.dat (E5 m) c).arrAt_in 2 rfl _).trans ((Body2.A_eq (E5 m) c 2).trans (B6_of m c _ (by decide)).symm)
  | ⟨3, _⟩ => ((Body2.dat (E5 m) c).arrAt_in 3 rfl _).trans ((Body2.A_eq (E5 m) c 3).trans (B6_of m c _ (by decide)).symm)
  | ⟨4, _⟩ => by unfold E6 B6; exact (Function.update_self (Proc.devRef (τ := τ) .tc main_v47) _ (B5 m c)).symm
theorem hrest2 (c : Dev nD) : ∀ b, b ∉ Finset.univ.image (Pipeline.arrRef spec2) → E6 m c b = E5 m c b :=
  fun b hb => B6_of m c b fun e => hb (Finset.mem_image.mpr ⟨4, Finset.mem_univ _, e.symm⟩)

set_option backward.isDefEq.respectTransparency.types false in
/-- The first region over the thread state: entered from every unscoped buffer at `B1`, left at `B2`. Its arrays are
    split out of the unscoped buffers and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Body0.body_obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: two input windows on one array -/

theorem h430 (c : Dev nD) : E4 m c main_v43_0 = (Body1.dat (E3 m) c).arrAt 4 cfg1.N := by
  unfold E4 B4
  exact (Function.update_of_ne (StableHlo.devRef_ne_of_ne (by decide)) _ _).trans (Function.update_self ..)
theorem h431 (c : Dev nD) : E4 m c main_v43_1 = (Body1.dat (E3 m) c).arrAt 5 cfg1.N := by
  unfold E4 B4
  exact Function.update_self ..
theorem hrest1 (c : Dev nD) : ∀ b, b ≠ main_v43_0 → b ≠ main_v43_1 → E4 m c b = E3 m c b :=
  fun b h0 h1 => B4_of m c b h0 h1

set_option backward.isDefEq.respectTransparency.types false in
/-- The second region over the thread state: entered from every unscoped buffer at `B3`, left at `B4`. The stacked
    projection is handed to the query and the key windows in two halves and joined again at the end; the other
    arrays are held whole; the generator register goes into the pipeline's invariant and comes out; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Body1.body_obligation (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Share1.arrays_of_unscopedBufs (E3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N)
        ∗ Pipeline.unscopedRest (Ix := Unit) (Name := ℕ) (U := UR sig nD τ) (Lvl := ℕ) spec1 c (E3 m c)) : sProp 𝕄) ⊢ unscopedBufs c (E4 m c) :=
      Share1.unscopedBufs_of_arrays (E3 m) c (E4 m c) (h430 m c) (h431 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `B5`, left at `B6`. Its five
    windows sit on five distinct arrays, so they are split out of the unscoped buffers and put back at the exit
    contents by the library's two lemmas; the generator register goes into the pipeline's invariant and comes out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Body2.body_obligation (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

/-- The last thread state beside the core owing nothing: every unscoped buffer at the last boundary's contents, the
    generator register at some state. -/
abbrev Tₙ (c : Dev nD) : sProp 𝕄 := iprop(StableHlo.held (c : Thread nD τ) (Pipeline.ucRefs τ sig) (B7 m c) ∗ ∃ r, prngReg c r)

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)) ]

/-- The program IS the run of these items. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer holds the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (B7 m c) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-! ## The frame: every argument ends as launched -/

/-- An unscoped buffer that no host operation writes and no region stores into is read, in a final state of the run,
    at its launch contents. -/
theorem arg_end {s : MemSt nD τ sig (Elt F)} (c : Dev nD)
    (h : ∀ b ∈ Pipeline.ucRefs τ sig, s.mem (((c : Thread nD τ)).1, b) = B7 m c b) (a : Ref sig .tc)
    (hu : ¬ (Proc.devRef .tc a : DevRef τ sig).isScoped)
    (h0 : a ∉ hostOps0_W) (h1 : a ∉ hostOps1_W) (h2 : a ∉ hostOps2_W) (h3 : a ∉ hostOps3_W)
    (h31 : a ≠ main_v31) (h430 : a ≠ main_v43_0) (h431 : a ≠ main_v43_1) (h47 : a ≠ main_v47) :
    s.mem ((c.tc : Thread nD τ).loc a) = m ((c.tc : Thread nD τ).loc a) :=
  (h _ (mem_uc a hu)).trans (B7_kept m c a h0 h1 h2 h3 h31 h430 h431 h47)

/-- THE FRAME: every weakly fair execution from any memory with zero counters terminates, nothing faulting, with
    each of the twenty-seven argument arrays holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => by
    repeat' apply And.intro
    all_goals exact arg_end m c (h c) _ (by decide) (by decide) (by decide) (by decide) (by decide) (by decide) (by decide) (by decide) (by decide))
    (run m ρ)

end Cert.KernelIdeal.Run

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KIVal0.lean ====
/-
  The value of the first kernel region at the exact instance. The body's arithmetic at an entry (p, q) of its block
  is (sum over k of w[p,k] x[k,q]) * sc[p] + sh[p]; the output block at grid point t is columns t*1024 .. of the
  result, the block of x it reads is the same columns of x, and the weights and the two columns are read whole; the
  four output blocks cover the result. So the array the region leaves is ONE function of the arrays it found: the
  stacked projection with the folded normalisation.
-/
import proofs.«143704_j73521250173422_2_alg».proof.Proof.KIBody0
import proofs.«143704_j73521250173422_2_alg».proof.Proof.LibPlainDot
import proofs.«143704_j73521250173422_2_alg».proof.Proof.LibKeepdimsColumn
import Idealize.ShloMosaic.Lib.Pipeline.Value
import Idealize.ShloMosaic.Lib.ValueIdx
import Idealize.ShloMosaic.PureOps.Ideal.Laws

set_option maxRecDepth 16384

noncomputable section

namespace Cert.KernelIdeal.Val0

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Body0 Cert.Lib.PlainDot

/-- The stacked projection with the folded normalisation: entry (p, q) is (Σ_k W[p,k]·X[k,q])·sc[p] + sh[p]. -/
def proj {N : ℕ} (W : (⟨2, ![1152, 768]⟩ : Shape).Idx → EReal) (X : (⟨2, ![768, N]⟩ : Shape).Idx → EReal)
    (sc sh : (⟨2, ![1152, 1]⟩ : Shape).Idx → EReal) : (⟨2, ![1152, N]⟩ : Shape).Idx → EReal :=
  fun j => rowsByCols W X j * sc (ix2 (j 0) (0 : Fin 1)) + sh (ix2 (j 0) (0 : Fin 1))

theorem pay_eq (x : Vec Ideal S768x1024 .f32) (w : Vec Ideal S1152x768 .bf16) (sc sh : Vec Ideal S1152x1 .f32) :
    k0_pay1 x w sc sh = proj (N := 1024) w x sc sh := by
  funext j
  obtain ⟨p, q, rfl⟩ : ∃ (p : Fin 1152) (q : Fin 1024), j = ix2 p q := ⟨j 0, j 1, eq_ix2 j⟩
  unfold k0_pay1 proj
  simp only [shapeCast_self]
  rw [truncf_apply, addf_apply, mulf_apply, Cert.Gcn.Lib.broadcastTo_a1_ab_apply, Cert.Gcn.Lib.broadcastTo_a1_ab_apply]
  refine congrArg₂ (· + ·) (congrArg₂ (· * ·) ?_ rfl) rfl
  exact congrFun (matmul_zero_eq dot_S1152x768_S768x1024_S1152x1024_1_0_0_1_n_n rfl none w (truncf .bf16 x bitsLt_bf16_f32)) (ix2 p q)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the weights and the two columns are always block (0, 0); the
    block of x and the output block at point t are block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

theorem flushed_eq (c : Dev nD) (t : Fin cfg0.N) :
    (dat V c).flushed 4 t = ((cfg0.win 4).blk t).view.read (Elt Ideal)
      (proj (N := 4096) (V c main_v2) (V c main_v0) (V c main_v28) (V c main_v30)) := by
  show (cfg0.win 4).cut (grid0.coords t) ((dat V c).after 4 t) = _
  rw [afterY]
  unfold outY
  rw [View.canon_unit_zero hz]
  simp only [View.ld_unit_zero (S := S1152x768) hz, View.ld_unit_zero (S := S768x1024) hz, View.ld_unit_zero (S := S1152x1) hz]
  rw [pay_eq]
  funext j
  obtain ⟨p, q, rfl⟩ : ∃ (p : Fin 1152) (q : Fin 1024), j = ix2 p q := ⟨j 0, j 1, eq_ix2 j⟩
  obtain ⟨e00, e01, e10, e11, e20, e21, e30, e31, e40, e41⟩ := idx_facts t
  -- the array index of entry (p, q) of the output block at point t: row p, column t·1024 + q
  have hi0 : ((((cfg0.win 4).blk t).view.emb (ix2 p q)) 0).val = p.val := by
    show win0_4.index t (0 : Fin 2) * 1152 + 1 * p.val = p.val; omega
  have hi1 : ((((cfg0.win 4).blk t).view.emb (ix2 p q)) 1).val = t.val * 1024 + q.val := by
    show win0_4.index t (1 : Fin 2) * 1024 + 1 * q.val = t.val * 1024 + q.val; omega
  show proj (iblk V c 0 t) (iblk V c 1 t) (iblk V c 2 t) (iblk V c 3 t) (ix2 p q)
    = proj (N := 4096) (V c main_v2) (V c main_v0) (V c main_v28) (V c main_v30) (((cfg0.win 4).blk t).view.emb (ix2 p q))
  generalize ((cfg0.win 4).blk t).view.emb (ix2 p q) = i at hi0 hi1 ⊢
  unfold proj
  refine congrArg₂ (· + ·) (congrArg₂ (· * ·) (rowsByCols_congr _ _ _ _ _ _ (fun k => ?_) (fun k => ?_)) ?_) ?_
  · -- the weights' block is the whole matrix
    show V c main_v2 (((cfg0.win 0).blk t).view.emb (ix2 p k)) = V c main_v2 (ix2 (i 0) k)
    refine congrArg (V c main_v2) (funext fun a => Fin.ext ?_)
    match a with
    | ⟨0, _⟩ => show win0_0.index t (0 : Fin 2) * 1152 + 1 * p.val = (i 0).val; omega
    | ⟨1, _⟩ => show win0_0.index t (1 : Fin 2) * 768 + 1 * k.val = k.val; omega
  · -- the block of x at point t is its columns t·1024 …
    show V c main_v0 (((cfg0.win 1).blk t).view.emb (ix2 k q)) = V c main_v0 (ix2 k (i 1))
    refine congrArg (V c main_v0) (funext fun a => Fin.ext ?_)
    match a with
    | ⟨0, _⟩ => show win0_1.index t (0 : Fin 2) * 768 + 1 * k.val = k.val; omega
    | ⟨1, _⟩ => show win0_1.index t (1 : Fin 2) * 1024 + 1 * q.val = (i 1).val; omega
  · show V c main_v28 (((cfg0.win 2).blk t).view.emb (ix2 p (0 : Fin 1))) = V c main_v28 (ix2 (i 0) (0 : Fin 1))
    refine congrArg (V c main_v28) (funext fun a => Fin.ext ?_)
    match a with
    | ⟨0, _⟩ => show win0_2.index t (0 : Fin 2) * 1152 + 1 * p.val = (i 0).val; omega
    | ⟨1, _⟩ => show win0_2.index t (1 : Fin 2) * 1 + 1 * 0 = 0; omega
  · show V c main_v30 (((cfg0.win 3).blk t).view.emb (ix2 p (0 : Fin 1))) = V c main_v30 (ix2 (i 0) (0 : Fin 1))
    refine congrArg (V c main_v30) (funext fun a => Fin.ext ?_)
    match a with
    | ⟨0, _⟩ => show win0_3.index t (0 : Fin 2) * 1152 + 1 * p.val = (i 0).val; omega
    | ⟨1, _⟩ => show win0_3.index t (1 : Fin 2) * 1 + 1 * 0 = 0; omega

/-- An index of the array is in point t's output block iff each coordinate is in the block's range on its axis. -/
theorem mem_blk (t : Fin cfg0.N) (i : S1152x4096.Idx) :
    i ∈ ((cfg0.win 4).blk t).view.set ↔ ∀ a : Fin 2, win0_4.index t a * S1152x1024.size a ≤ (i a).val
      ∧ (i a).val < win0_4.index t a * S1152x1024.size a + S1152x1024.size a := by
  show i ∈ ((View.whole main_v31).slice (win0_4.rect t)).set ↔ _
  rw [View.set_slice_whole, Rect.mem_set_unit]
  exact Iff.rfl

/-- Every index of the result is in some point's output block: column i₁ lies in the block of point i₁ / 1024. -/
theorem cover (i : S1152x4096.Idx) : ∃ t : Fin cfg0.N, (cfg0.win 4).flush t = true ∧ i ∈ ((cfg0.win 4).blk t).view.set := by
  have hi0 : (i 0).val < 1152 := (i 0).isLt
  have hi1 : (i 1).val < 4096 := (i 1).isLt
  obtain ⟨t, ht⟩ : ∃ t : Fin cfg0.N, t.val = (i 1).val / 1024 :=
    ⟨⟨(i 1).val / 1024, by rw [show cfg0.N = 4 from N_0]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 1152 ≤ (i 0).val ∧ (i 0).val < win0_4.index t (0 : Fin 2) * 1152 + 1152
    omega
  | ⟨1, _⟩ =>
    show win0_4.index t (1 : Fin 2) * 1024 ≤ (i 1).val ∧ (i 1).val < win0_4.index t (1 : Fin 2) * 1024 + 1024
    omega

/-- THE STACKED PROJECTION after the first region: one function of the arrays the region found. -/
theorem final (c : Dev nD) :
    (dat V c).arrAt 4 cfg0.N = proj (N := 4096) (V c main_v2) (V c main_v0) (V c main_v28) (V c main_v30) :=
  (dat V c).arrAt_eq_of_cover 4 _ (fun t _ => flushed_eq V c t) cover

end Cert.KernelIdeal.Val0

end
-- ==== Proof.LibColsDot.lean ====
/-
  A matrix product contracted over the FIRST axis of both operands, read at an index, on the extended reals.

  For the dimension numbers `<[0], [0], [1], [1]>` with no batch axis (a `K×M` left operand and a `K×N` right operand,
  the first axis of each contracted: the product of the left operand's transpose with the right operand) the entry
  `(a, b)` of the product is `∑ k, l[k,a] · r[k,b]`. A `tpu.matmul` into a zero accumulator and the host's
  `dot_general` with these numbers both compute it at the exact instance; both are stated as equalities of whole
  arrays with one function, `colsByCols l r`, so that a product computed block of columns of the left operand by
  block and the same product computed at once are compared through one name.
-/
import Idealize.ShloMosaic.Lib.ValueIdx
import Idealize.ShloMosaic.PureOps.Ideal.Laws

noncomputable section

namespace Cert.Lib.ColsDot

open Idealize.ShloMosaic Idealize.ShloMosaic.ValueIdx

/-- `<[0], [0], [1], [1]>`: `K×M` by `K×N`, both contracted on their first axis. -/
def cols (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product of the transpose of a `K×M` array by a `K×N` array: entry `(a, b)` is `∑ k, l[k,a] · r[k,b]`. -/
def colsByCols {K M N : ℕ} (l : (⟨2, ![K, M]⟩ : Shape).Idx → EReal) (r : (⟨2, ![K, N]⟩ : Shape).Idx → EReal) :
    (⟨2, ![M, N]⟩ : Shape).Idx → EReal :=
  fun j => ∑ k : Fin K, l (ix2 k (j 0)) * r (ix2 k (j 1))

theorem colsByCols_apply {K M N : ℕ} (l : (⟨2, ![K, M]⟩ : Shape).Idx → EReal) (r : (⟨2, ![K, N]⟩ : Shape).Idx → EReal)
    (j : (⟨2, ![M, N]⟩ : Shape).Idx) : colsByCols l r j = ∑ k : Fin K, l (ix2 k (j 0)) * r (ix2 k (j 1)) := rfl

/-- The left operand's index at result index `j` and contraction position `q`: row the contraction position's one
    coordinate … -/
theorem lhsIdx_row {K M N : ℕ} (j : (⟨2, ![M, N]⟩ : Shape).Idx) (q : (cols K M N).contr.Idx) :
    ((cols K M N).lhsIdx j q 0).val = (q ⟨0, Nat.one_pos⟩).val :=
  (cols K M N).lhsIdx_val_of_single rfl j q
/-- … and column `j 0`. -/
theorem lhsIdx_col {K M N : ℕ} (j : (⟨2, ![M, N]⟩ : Shape).Idx) (q : (cols K M N).contr.Idx) :
    ((cols K M N).lhsIdx j q 1).val = (j 0).val := by
  unfold DotDims.lhsIdx
  rw [dif_neg (show ¬(1 : Fin (⟨2, ![K, M]⟩ : Shape).rank) ∈ (cols K M N).lhsBatch from List.not_mem_nil),
    dif_pos (show (1 : Fin (⟨2, ![K, M]⟩ : Shape).rank) ∈ (cols K M N).lhsNonContracting from List.mem_singleton.mpr rfl)]
  rfl
/-- The right operand's index: row the contraction position's one coordinate … -/
theorem rhsIdx_row {K M N : ℕ} (j : (⟨2, ![M, N]⟩ : Shape).Idx) (q : (cols K M N).contr.Idx) :
    ((cols K M N).rhsIdx j q 0).val = (q ⟨0, Nat.one_pos⟩).val :=
  (cols K M N).rhsIdx_val_of_single rfl j q
/-- … and column `j 1`. -/
theorem rhsIdx_col {K M N : ℕ} (j : (⟨2, ![M, N]⟩ : Shape).Idx) (q : (cols K M N).contr.Idx) :
    ((cols K M N).rhsIdx j q 1).val = (j 1).val := by
  unfold DotDims.rhsIdx
  rw [dif_neg (show ¬(1 : Fin (⟨2, ![K, N]⟩ : Shape).rank) ∈ (cols K M N).rhsBatch from List.not_mem_nil),
    dif_pos (show (1 : Fin (⟨2, ![K, N]⟩ : Shape).rank) ∈ (cols K M N).rhsNonContracting from List.mem_singleton.mpr rfl)]
  rfl

/-- The sum over the record's one-axis contraction shape, with the operands read at the record's operand indices, is
    the sum over `k < K` of `l[k,a] · r[k,b]`: the contraction index is its one coordinate, the left index at `(j, k)`
    is `(k, j 0)` and the right index is `(k, j 1)`. -/
theorem contr_sum {K M N : ℕ} (d : DotDims ⟨2, ![K, M]⟩ ⟨2, ![K, N]⟩ ⟨2, ![M, N]⟩) (hd : d = cols K M N)
    (l : (⟨2, ![K, M]⟩ : Shape).Idx → EReal) (r : (⟨2, ![K, N]⟩ : Shape).Idx → EReal) (j : (⟨2, ![M, N]⟩ : Shape).Idx) :
    ∑ q : d.contr.Idx, l (d.lhsIdx j q) * r (d.rhsIdx j q) = colsByCols l r j := by
  subst hd
  unfold colsByCols
  rw [← Equiv.sum_comp (contrEquiv1 (cols K M N) K rfl rfl).symm]
  refine Finset.sum_congr rfl fun k _ => ?_
  have hk := contrEquiv1_symm_val (cols K M N) K rfl rfl k
  have el : (cols K M N).lhsIdx j ((contrEquiv1 (cols K M N) K rfl rfl).symm k) = ix2 k (j 0) :=
    funext fun a => Fin.ext (by
      match a with
      | ⟨0, _⟩ => exact (lhsIdx_row j _).trans hk
      | ⟨1, _⟩ => exact lhsIdx_col j _)
  have er : (cols K M N).rhsIdx j ((contrEquiv1 (cols K M N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with these dimension numbers into the zero accumulator is the product, whatever the operands'
    float formats and the precision attribute. -/
theorem matmul_zero_eq {K M N : ℕ} {φ₁ φ₂ : FTy} (d : DotDims ⟨2, ![K, M]⟩ ⟨2, ![K, N]⟩ ⟨2, ![M, N]⟩)
    (hd : d = cols K M N) (prec : Option ContractPrecision)
    (l : FVec Ideal ⟨2, ![K, M]⟩ φ₁) (r : FVec Ideal ⟨2, ![K, N]⟩ φ₂) :
    FloatOps.matmul d prec l r (constant (F := Ideal) ⟨2, ![M, N]⟩ .f32 0x00000000#32) = colsByCols l r :=
  funext fun j => (Ideal.matmul_constant_zero_apply d prec l r j).trans (contr_sum d hd l r j)

/-- The host's `dot_general` with these dimension numbers is the product, whatever the precision and the schedule. -/
theorem dotGeneral_eq {K M N : ℕ} {φ₁ φ₂ : FTy} (d : DotDims ⟨2, ![K, M]⟩ ⟨2, ![K, N]⟩ ⟨2, ![M, N]⟩)
    (hd : d = cols K M N) (prec : Option ContractPrecision) (sched : HostSchedule)
    (l : FVec Ideal ⟨2, ![K, M]⟩ φ₁) (r : FVec Ideal ⟨2, ![K, N]⟩ φ₂) :
    FloatOps.dotGeneral d prec sched l r = colsByCols l r :=
  funext fun j => (Ideal.dotGeneral_apply d prec sched l r j).trans (contr_sum d hd l r j)

/-- Two such products agree at two indices when their operands agree along the two columns read there. In
    particular a block of columns of the left operand gives the corresponding block of rows of the product. -/
theorem colsByCols_congr {K M M' N N' : ℕ} (l : (⟨2, ![K, M]⟩ : Shape).Idx → EReal) (r : (⟨2, ![K, N]⟩ : Shape).Idx → EReal)
    (l' : (⟨2, ![K, M']⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 k (j' 0)) = l (ix2 k (j 0))) (hr : ∀ k : Fin K, r' (ix2 k (j' 1)) = r (ix2 k (j 1))) :
    colsByCols l' r' j' = colsByCols l r j := by
  unfold colsByCols
  exact Finset.sum_congr rfl fun k _ => by rw [hl k, hr k]

end Cert.Lib.ColsDot

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.KIVal1.lean ====
/-
  The value of the second kernel region at the exact instance. At a tile of 256 queries the body's first store is
  the row softmax of the scaled scores (sum over channels of q[c,i] k[c,j]) * fac[j], the row maximum taken from
  -inf; its second store is that tile times the value matrix. The query block at grid point t is columns t*256 ..
  of rows 0 .. 383 of the stacked projection, the key block is rows 384 .. 767 of it, and the two output blocks
  are rows t*256 .. of the two results; the sixteen blocks cover each result. A row of the softmax depends on that
  row of the scores only, and a score on one query column, one key column and one factor, so each result the
  region leaves is ONE function of the arrays it found.
-/
import proofs.«143704_j73521250173422_2_alg».proof.Proof.KIBody1
import proofs.«143704_j73521250173422_2_alg».proof.Proof.LibPlainDot
import proofs.«143704_j73521250173422_2_alg».proof.Proof.LibColsDot
import proofs.«143704_j73521250173422_2_alg».proof.Proof.LibRowMax
import proofs.«143704_j73521250173422_2_alg».proof.Proof.LibKeepdimsColumn
import Idealize.ShloMosaic.Lib.Pipeline.Value
import Idealize.ShloMosaic.Lib.ValueIdx
import Idealize.ShloMosaic.PureOps.Ideal.Laws

set_option maxRecDepth 16384

noncomputable section

namespace Cert.KernelIdeal.Val1

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Body1 Cert.Lib.PlainDot Cert.Lib.ColsDot

/-- The pattern of -inf denotes the bottom of the extended reals. -/
theorem neg_inf : Ideal.ofBits .f32 0xFF800000#32 = (⊥ : EReal) := by simp [Ideal.ofBits, Ideal.ieee]

/-- The scaled scores of R queries against all keys: (sum over channels of q[c,i] k[c,j]) * fac[j]. -/
def scoreK {R : ℕ} (q : (⟨2, ![384, R]⟩ : Shape).Idx → EReal) (k : (⟨2, ![384, 4096]⟩ : Shape).Idx → EReal)
    (fac : (⟨2, ![1, 4096]⟩ : Shape).Idx → EReal) : (⟨2, ![R, 4096]⟩ : Shape).Idx → EReal :=
  fun j => colsByCols q k j * fac (ix2 (0 : Fin 1) (j 1))

/-- The softmax of each row: exp(s - rowmax) over the row's sum of those, the row maximum from -∞. -/
def smax {R : ℕ} (s : (⟨2, ![R, 4096]⟩ : Shape).Idx → EReal) : (⟨2, ![R, 4096]⟩ : Shape).Idx → EReal := fun j =>
  Ideal.div (Ideal.exp (s j - (Finset.univ : Finset (Fin 4096)).fold max ⊥ (fun b => s (ix2 (j 0) b))))
    (∑ b : Fin 4096, Ideal.exp (s (ix2 (j 0) b) - (Finset.univ : Finset (Fin 4096)).fold max ⊥ (fun b' => s (ix2 (j 0) b'))))

/-- A [1, b] row spread over [a, b] reads, at (p, c), the row's entry c. -/
theorem bcast_row (v : S1x4096.Idx → EReal) (h : S1x4096.Broadcasts S256x4096) (p : Fin 256) (b : Fin 4096) :
    broadcastTo S256x4096 v h (ix2 p b) = v (ix2 (0 : Fin 1) b) := by
  refine broadcastTo_apply v h (ix2 p b) (ix2 (0 : Fin 1) b) fun ax => ?_
  match ax with
  | ⟨0, _⟩ => rfl
  | ⟨1, _⟩ => rfl

theorem pay1_eq (q : Vec Ideal S384x256 .bf16) (k : Vec Ideal S384x4096 .bf16) (fac : Vec Ideal S1x4096 .f32) :
    k1_pay1 q k fac = smax (scoreK (R := 256) q k fac) := by
  have hs : mulf (matmul (φ₁ := .bf16) (φ₂ := .bf16) dot_S384x256_S384x4096_S256x4096_0_0_1_1_n_n none q k (constant (F := Ideal) S256x4096 .f32 0x00000000#32))
      (broadcastTo S256x4096 fac broadcasts_S1x4096_S256x4096) = scoreK (R := 256) q k fac := by
    funext i
    obtain ⟨p, b, rfl⟩ : ∃ (p : Fin 256) (b : Fin 4096), i = ix2 p b := ⟨i 0, i 1, eq_ix2 i⟩
    rw [mulf_apply, bcast_row]
    exact congrArg₂ (· * ·) (congrFun (Cert.Lib.ColsDot.matmul_zero_eq dot_S384x256_S384x4096_S256x4096_0_0_1_1_n_n rfl none q k) (ix2 p b)) rfl
  funext j
  obtain ⟨p, b, rfl⟩ : ∃ (p : Fin 256) (b : Fin 4096), j = ix2 p b := ⟨j 0, j 1, eq_ix2 j⟩
  unfold k1_pay1
  simp only [shapeCast_self]
  rw [hs]
  -- the broadcast row maximum at an index: the fold of max from -∞ over the row
  have hM : ∀ (p' : Fin 256) (b' : Fin 4096),
      broadcastTo S256x4096 (shapeCast S256x1 (multiReduction (F := Ideal) .maximumf [1] S256 (scoreK (R := 256) q k fac) 0xFF800000#32
        reduces_S256x4096_S256 (.inl rfl) rfl) shapeCasts_S256_S256x1) broadcasts_S256x1_S256x4096 (ix2 p' b')
      = (Finset.univ : Finset (Fin 4096)).fold max ⊥ (fun c => scoreK (R := 256) q k fac (ix2 p' c)) := by
    intro p' b'
    rw [Cert.Gcn.Lib.broadcastTo_a1_ab_apply, Cert.Gcn.Lib.shapeCast_a_a1_apply, Cert.Lib.RowMax.rowmax_apply, neg_inf]
  rw [divf_apply, Cert.Gcn.Lib.broadcastTo_a1_ab_apply, Cert.Gcn.Lib.shapeCast_a_a1_apply, Cert.Gcn.Lib.rowsum_apply]
  unfold smax
  refine congrArg₂ Ideal.div ?_ (Finset.sum_congr rfl fun c _ => ?_)
  · exact congrArg (fun z => Ideal.exp (scoreK (R := 256) q k fac (ix2 p b) - z)) (hM p b)
  · exact congrArg (fun z => Ideal.exp (scoreK (R := 256) q k fac (ix2 p c) - z)) (hM p c)

theorem pay2_eq (q : Vec Ideal S384x256 .bf16) (k : Vec Ideal S384x4096 .bf16) (fac : Vec Ideal S1x4096 .f32) (v : Vec Ideal S4096x384 .bf16) :
    k1_pay2 q k fac v = rowsByCols (smax (scoreK (R := 256) q k fac)) v := by
  unfold k1_pay2
  simp only [shapeCast_self]
  rw [pay1_eq]
  funext j
  rw [truncf_apply]
  exact congrFun (Cert.Lib.PlainDot.matmul_zero_eq dot_S256x4096_S4096x384_S256x384_1_0_0_1_n_n rfl none
    (truncf .bf16 (smax (scoreK (R := 256) q k fac)) bitsLt_bf16_f32) v) j

/-! ## From blocks to the two arrays -/

/-- The query rows (rows 0 … 383), the key rows (384 … 767) and the value rows (768 … 1151) of the stacked projection. -/
def rowsQ (Y : S1152x4096.Idx → EReal) : (⟨2, ![384, 4096]⟩ : Shape).Idx → EReal :=
  fun i => Y (ix2 (⟨(i 0).val, Nat.lt_of_lt_of_le (i 0).isLt (by decide)⟩ : Fin 1152) (i 1))
def rowsK (Y : S1152x4096.Idx → EReal) : (⟨2, ![384, 4096]⟩ : Shape).Idx → EReal :=
  fun i => Y (ix2 (⟨384 + (i 0).val, by have h : (i 0).val < 384 := (i 0).isLt; omega⟩ : Fin 1152) (i 1))
def rowsV (Y : S1152x4096.Idx → EReal) : (⟨2, ![384, 4096]⟩ : Shape).Idx → EReal :=
  fun i => Y (ix2 (⟨768 + (i 0).val, by have h : (i 0).val < 384 := (i 0).isLt; omega⟩ : Fin 1152) (i 1))

/-- The attention matrix the region leaves, as one function of the stacked projection and the factor row. -/
def attnK (Y : S1152x4096.Idx → EReal) (fac : S1x4096.Idx → EReal) : S4096x4096.Idx → EReal :=
  smax (scoreK (R := 4096) (rowsQ Y) (rowsK Y) fac)

/-- The row softmax at an entry depends on that row of the scores only. -/
theorem smax_congr {R R' : ℕ} (s : (⟨2, ![R, 4096]⟩ : Shape).Idx → EReal) (s' : (⟨2, ![R', 4096]⟩ : Shape).Idx → EReal)
    (p : Fin R) (p' : Fin R') (b : Fin 4096) (hrow : ∀ c : Fin 4096, s (ix2 p c) = s' (ix2 p' c)) :
    smax s (ix2 p b) = smax s' (ix2 p' b) := by
  unfold smax
  have hf : (fun c : Fin 4096 => s (ix2 p c)) = fun c : Fin 4096 => s' (ix2 p' c) := funext hrow
  show Ideal.div (Ideal.exp (s (ix2 p b) - (Finset.univ : Finset (Fin 4096)).fold max ⊥ (fun c => s (ix2 p c))))
      (∑ c : Fin 4096, Ideal.exp (s (ix2 p c) - (Finset.univ : Finset (Fin 4096)).fold max ⊥ (fun c' => s (ix2 p c'))))
    = Ideal.div (Ideal.exp (s' (ix2 p' b) - (Finset.univ : Finset (Fin 4096)).fold max ⊥ (fun c => s' (ix2 p' c))))
      (∑ c : Fin 4096, Ideal.exp (s' (ix2 p' c) - (Finset.univ : Finset (Fin 4096)).fold max ⊥ (fun c' => s' (ix2 p' c'))))
  rw [hf, hrow b]
  exact congrArg _ (Finset.sum_congr rfl fun c _ => by rw [hrow c])

/-- A score depends on one column of the queries, one column of the keys and one factor. -/
theorem scoreK_congr {R R' : ℕ} (q : (⟨2, ![384, R]⟩ : Shape).Idx → EReal) (q' : (⟨2, ![384, R']⟩ : Shape).Idx → EReal)
    (k k' : (⟨2, ![384, 4096]⟩ : Shape).Idx → EReal) (fac fac' : (⟨2, ![1, 4096]⟩ : Shape).Idx → EReal)
    (p : Fin R) (p' : Fin R') (b : Fin 4096) (hq : ∀ c : Fin 384, q (ix2 c p) = q' (ix2 c p'))
    (hk : ∀ c : Fin 384, k (ix2 c b) = k' (ix2 c b)) (hf : fac (ix2 (0 : Fin 1) b) = fac' (ix2 (0 : Fin 1) b)) :
    scoreK q k fac (ix2 p b) = scoreK q' k' fac' (ix2 p' b) := by
  unfold scoreK
  exact congrArg₂ (· * ·) (colsByCols_congr q' k' q k (ix2 p b) (ix2 p' b) hq hk) hf

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the query block at point t is block (0, t) of the stacked
    projection, the key block is always block (1, 0) of it, the values and the factors are read whole, and the two
    output blocks at point t are block (t, 0). -/
theorem idx_facts : ∀ t : Fin cfg1.N,
    win1_0.index t (0 : Fin 2) = 0 ∧ win1_0.index t (1 : Fin 2) = t.val
    ∧ win1_1.index t (0 : Fin 2) = 1 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The block reads of the second region at point t, at coordinates: the query block is columns t·256 … of the query
    rows; the key block is the key rows; the values and the factors are whole. -/
theorem readQ (c : Dev nD) (t : Fin cfg1.N) (ch : Fin 384) (p : Fin 256) (P : Fin 4096) (hP : P.val = t.val * 256 + p.val) :
    iblk V c 0 t (ix2 ch p) = rowsQ (V c main_v31) (ix2 ch P) := by
  obtain ⟨e00, e01, -⟩ := idx_facts t
  show V c main_v31 (((cfg1.win 0).blk t).view.emb (ix2 ch p)) = V c main_v31 (ix2 (⟨ch.val, _⟩ : Fin 1152) P)
  refine congrArg (V c main_v31) (funext fun a => Fin.ext ?_)
  match a with
  | ⟨0, _⟩ => show win1_0.index t (0 : Fin 2) * 384 + 1 * ch.val = ch.val; omega
  | ⟨1, _⟩ => show win1_0.index t (1 : Fin 2) * 256 + 1 * p.val = P.val; omega
theorem readK (c : Dev nD) (t : Fin cfg1.N) (ch : Fin 384) (b : Fin 4096) :
    iblk V c 1 t (ix2 ch b) = rowsK (V c main_v31) (ix2 ch b) := by
  obtain ⟨-, -, e10, e11, -⟩ := idx_facts t
  show V c main_v31 (((cfg1.win 1).blk t).view.emb (ix2 ch b)) = V c main_v31 (ix2 (⟨384 + ch.val, _⟩ : Fin 1152) b)
  refine congrArg (V c main_v31) (funext fun a => Fin.ext ?_)
  match a with
  | ⟨0, _⟩ => show win1_1.index t (0 : Fin 2) * 384 + 1 * ch.val = 384 + ch.val; omega
  | ⟨1, _⟩ => show win1_1.index t (1 : Fin 2) * 4096 + 1 * b.val = b.val; omega
theorem readVal (c : Dev nD) (t : Fin cfg1.N) (j : Fin 4096) (d : Fin 384) :
    iblk V c 2 t (ix2 j d) = V c main_v33 (ix2 j d) := by
  obtain ⟨-, -, -, -, e20, e21, -⟩ := idx_facts t
  show V c main_v33 (((cfg1.win 2).blk t).view.emb (ix2 j d)) = V c main_v33 (ix2 j d)
  refine congrArg (V c main_v33) (funext fun a => Fin.ext ?_)
  match a with
  | ⟨0, _⟩ => show win1_2.index t (0 : Fin 2) * 4096 + 1 * j.val = j.val; omega
  | ⟨1, _⟩ => show win1_2.index t (1 : Fin 2) * 384 + 1 * d.val = d.val; omega
theorem readFac (c : Dev nD) (t : Fin cfg1.N) (b : Fin 4096) :
    iblk V c 3 t (ix2 (0 : Fin 1) b) = V c main_v42 (ix2 (0 : Fin 1) b) := by
  obtain ⟨-, -, -, -, -, -, e30, e31, -⟩ := idx_facts t
  show V c main_v42 (((cfg1.win 3).blk t).view.emb (ix2 (0 : Fin 1) b)) = V c main_v42 (ix2 (0 : Fin 1) b)
  refine congrArg (V c main_v42) (funext fun a => Fin.ext ?_)
  match a with
  | ⟨0, _⟩ => show win1_3.index t (0 : Fin 2) * 1 + 1 * 0 = 0; omega
  | ⟨1, _⟩ => show win1_3.index t (1 : Fin 2) * 4096 + 1 * b.val = b.val; omega

/-- Row p of the tile's scores at point t is row t·256 + p of the full score matrix. -/
theorem score_row (c : Dev nD) (t : Fin cfg1.N) (p : Fin 256) (P : Fin 4096) (hP : P.val = t.val * 256 + p.val) (b : Fin 4096) :
    scoreK (R := 256) (iblk V c 0 t) (iblk V c 1 t) (iblk V c 3 t) (ix2 p b)
      = scoreK (R := 4096) (rowsQ (V c main_v31)) (rowsK (V c main_v31)) (V c main_v42) (ix2 P b) :=
  scoreK_congr _ _ _ _ _ _ p P b (fun ch => readQ V c t ch p P hP) (fun ch => readK V c t ch b) (readFac V c t b)

/-- WHAT POINT t WRITES BACK into the attention matrix is block t (rows t·256 …) of the softmax of all the scores. -/
theorem flushed_attn (c : Dev nD) (t : Fin cfg1.N) :
    (dat V c).flushed 4 t = ((cfg1.win 4).blk t).view.read (Elt Ideal) (attnK (V c main_v31) (V c main_v42)) := by
  show (cfg1.win 4).cut (grid1.coords t) ((dat V c).after 4 t) = _
  rw [afterAttn]
  unfold outAttn
  rw [View.canon_unit_zero hz]
  simp only [View.ld_unit_zero (S := S384x256) hz, View.ld_unit_zero (S := S384x4096) hz, View.ld_unit_zero (S := S1x4096) hz]
  rw [pay1_eq]
  funext j
  obtain ⟨p, b, rfl⟩ : ∃ (p : Fin 256) (b : Fin 4096), j = ix2 p b := ⟨j 0, j 1, eq_ix2 j⟩
  obtain ⟨-, -, -, -, -, -, -, -, e40, e41, -⟩ := idx_facts t
  have hi0 : ((((cfg1.win 4).blk t).view.emb (ix2 p b)) 0).val = t.val * 256 + p.val := by
    show win1_4.index t (0 : Fin 2) * 256 + 1 * p.val = t.val * 256 + p.val; omega
  have hi1 : ((((cfg1.win 4).blk t).view.emb (ix2 p b)) 1).val = b.val := by
    show win1_4.index t (1 : Fin 2) * 4096 + 1 * b.val = b.val; omega
  show smax (scoreK (R := 256) (iblk V c 0 t) (iblk V c 1 t) (iblk V c 3 t)) (ix2 p b)
    = attnK (V c main_v31) (V c main_v42) (((cfg1.win 4).blk t).view.emb (ix2 p b))
  generalize ((cfg1.win 4).blk t).view.emb (ix2 p b) = i at hi0 hi1 ⊢
  obtain ⟨P, B, rfl⟩ : ∃ (P : Fin 4096) (B : Fin 4096), i = ix2 P B := ⟨i 0, i 1, eq_ix2 i⟩
  have hP : P.val = t.val * 256 + p.val := hi0
  have hB : B = b := Fin.ext hi1
  subst hB
  unfold attnK
  exact smax_congr _ _ p P B (fun c' => score_row V c t p P hP c')

/-- WHAT POINT t WRITES BACK into the second result is block t (rows t·256 …) of the attention matrix times the
    re-laid values. -/
theorem flushed_av (c : Dev nD) (t : Fin cfg1.N) :
    (dat V c).flushed 5 t = ((cfg1.win 5).blk t).view.read (Elt Ideal)
      (rowsByCols (attnK (V c main_v31) (V c main_v42)) (V c main_v33)) := by
  show (cfg1.win 5).cut (grid1.coords t) ((dat V c).after 5 t) = _
  rw [afterAv]
  unfold outAv
  rw [View.canon_unit_zero hz]
  simp only [View.ld_unit_zero (S := S384x256) hz, View.ld_unit_zero (S := S384x4096) hz, View.ld_unit_zero (S := S1x4096) hz,
    View.ld_unit_zero (S := S4096x384) hz]
  rw [pay2_eq]
  funext j
  obtain ⟨p, d, rfl⟩ : ∃ (p : Fin 256) (d : Fin 384), j = ix2 p d := ⟨j 0, j 1, eq_ix2 j⟩
  obtain ⟨-, -, -, -, -, -, -, -, -, -, e50, e51⟩ := idx_facts t
  have hi0 : ((((cfg1.win 5).blk t).view.emb (ix2 p d)) 0).val = t.val * 256 + p.val := by
    show win1_5.index t (0 : Fin 2) * 256 + 1 * p.val = t.val * 256 + p.val; omega
  have hi1 : ((((cfg1.win 5).blk t).view.emb (ix2 p d)) 1).val = d.val := by
    show win1_5.index t (1 : Fin 2) * 384 + 1 * d.val = d.val; omega
  show rowsByCols (smax (scoreK (R := 256) (iblk V c 0 t) (iblk V c 1 t) (iblk V c 3 t))) (iblk V c 2 t) (ix2 p d)
    = rowsByCols (attnK (V c main_v31) (V c main_v42)) (V c main_v33) (((cfg1.win 5).blk t).view.emb (ix2 p d))
  generalize ((cfg1.win 5).blk t).view.emb (ix2 p d) = i at hi0 hi1 ⊢
  obtain ⟨P, D, rfl⟩ : ∃ (P : Fin 4096) (D : Fin 384), i = ix2 P D := ⟨i 0, i 1, eq_ix2 i⟩
  have hP : P.val = t.val * 256 + p.val := hi0
  have hD : D = d := Fin.ext hi1
  subst hD
  unfold attnK
  exact rowsByCols_congr _ _ _ _ (ix2 p D) (ix2 P D)
    (fun k => smax_congr _ _ p P k (fun c' => score_row V c t p P hP c')) (fun k => readVal V c t k D)

theorem mem_blk_attn (t : Fin cfg1.N) (i : S4096x4096.Idx) :
    i ∈ ((cfg1.win 4).blk t).view.set ↔ ∀ a : Fin 2, win1_4.index t a * S256x4096.size a ≤ (i a).val
      ∧ (i a).val < win1_4.index t a * S256x4096.size a + S256x4096.size a := by
  show i ∈ ((View.whole main_v43_0).slice (win1_4.rect t)).set ↔ _
  rw [View.set_slice_whole, Rect.mem_set_unit]
  exact Iff.rfl
theorem mem_blk_av (t : Fin cfg1.N) (i : S4096x384.Idx) :
    i ∈ ((cfg1.win 5).blk t).view.set ↔ ∀ a : Fin 2, win1_5.index t a * S256x384.size a ≤ (i a).val
      ∧ (i a).val < win1_5.index t a * S256x384.size a + S256x384.size a := by
  show i ∈ ((View.whole main_v43_1).slice (win1_5.rect t)).set ↔ _
  rw [View.set_slice_whole, Rect.mem_set_unit]
  exact Iff.rfl

/-- Every index of either result is in some point's output block: row i₀ lies in the block of point i₀ / 256. -/
theorem cover_attn (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  obtain ⟨t, ht⟩ : ∃ t : Fin cfg1.N, t.val = (i 0).val / 256 :=
    ⟨⟨(i 0).val / 256, by rw [show cfg1.N = 16 from N_1]; omega⟩, rfl⟩
  obtain ⟨-, -, -, -, -, -, -, -, e40, e41, -⟩ := idx_facts t
  refine ⟨t, flush1_4 t, ?_⟩
  rw [mem_blk_attn]
  intro a
  match a with
  | ⟨0, _⟩ =>
    show win1_4.index t (0 : Fin 2) * 256 ≤ (i 0).val ∧ (i 0).val < win1_4.index t (0 : Fin 2) * 256 + 256
    omega
  | ⟨1, _⟩ =>
    show win1_4.index t (1 : Fin 2) * 4096 ≤ (i 1).val ∧ (i 1).val < win1_4.index t (1 : Fin 2) * 4096 + 4096
    omega
theorem cover_av (i : S4096x384.Idx) : ∃ t : Fin cfg1.N, (cfg1.win 5).flush t = true ∧ i ∈ ((cfg1.win 5).blk t).view.set := by
  have hi0 : (i 0).val < 4096 := (i 0).isLt
  have hi1 : (i 1).val < 384 := (i 1).isLt
  obtain ⟨t, ht⟩ : ∃ t : Fin cfg1.N, t.val = (i 0).val / 256 :=
    ⟨⟨(i 0).val / 256, by rw [show cfg1.N = 16 from N_1]; omega⟩, rfl⟩
  obtain ⟨-, -, -, -, -, -, -, -, -, -, e50, e51⟩ := idx_facts t
  refine ⟨t, flush1_5 t, ?_⟩
  rw [mem_blk_av]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 384 ≤ (i 1).val ∧ (i 1).val < win1_5.index t (1 : Fin 2) * 384 + 384
    omega

/-- THE ATTENTION MATRIX after the second region: one function of the stacked projection and the factor row. -/
theorem final_attn (c : Dev nD) : (dat V c).arrAt 4 cfg1.N = attnK (V c main_v31) (V c main_v42) :=
  (dat V c).arrAt_eq_of_cover 4 _ (fun t _ => flushed_attn V c t) cover_attn
/-- THE SECOND RESULT after the second region: the attention matrix times the re-laid values. -/
theorem final_av (c : Dev nD) :
    (dat V c).arrAt 5 cfg1.N = rowsByCols (attnK (V c main_v31) (V c main_v42)) (V c main_v33) :=
  (dat V c).arrAt_eq_of_cover 5 _ (fun t _ => flushed_av V c t) cover_av

end Cert.KernelIdeal.Val1

end
-- ==== Proof.KIVal2.lean ====
/-
  The value of the third kernel region at the exact instance. The body's arithmetic at an entry (p, q) of its block
  is ((sum over k of wf[p,k] o[k,q]) + b[p]) + x[p,q]; the output block at grid point t is columns t*1024 .. of the
  result, the blocks of o and of x it reads are the same columns of o and of x, and the weights and the bias column
  are read whole; the four output blocks cover the result. So the array the region leaves is ONE function of the
  arrays it found: the last projection with its bias, plus the input.
-/
import proofs.«143704_j73521250173422_2_alg».proof.Proof.KIBody2
import proofs.«143704_j73521250173422_2_alg».proof.Proof.LibPlainDot
import proofs.«143704_j73521250173422_2_alg».proof.Proof.LibKeepdimsColumn
import Idealize.ShloMosaic.Lib.Pipeline.Value
import Idealize.ShloMosaic.Lib.ValueIdx
import Idealize.ShloMosaic.PureOps.Ideal.Laws

set_option maxRecDepth 16384

noncomputable section

namespace Cert.KernelIdeal.Val2

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Body2 Cert.Lib.PlainDot

/-- The last projection with bias and residual: entry (p, q) is ((Σ_k Wf[p,k]·O[k,q]) + b[p]) + X[p,q]. -/
def resid {N : ℕ} (Wf : (⟨2, ![768, 384]⟩ : Shape).Idx → EReal) (O : (⟨2, ![384, N]⟩ : Shape).Idx → EReal)
    (b : (⟨2, ![768, 1]⟩ : Shape).Idx → EReal) (X : (⟨2, ![768, N]⟩ : Shape).Idx → EReal) : (⟨2, ![768, N]⟩ : Shape).Idx → EReal :=
  fun j => (rowsByCols Wf O j + b (ix2 (j 0) (0 : Fin 1))) + X j

/-- The body's payload on a block is that function of the four blocks: the casts of a shape to itself are the
    identity, the matrix product into the zero accumulator is the product, and the bias column spread along the rows
    reads its row. -/
theorem pay_eq (wf : Vec Ideal S768x384 .bf16) (o : Vec Ideal S384x1024 .bf16) (b : Vec Ideal S768x1 .f32) (x : Vec Ideal S768x1024 .f32) :
    k2_pay1 wf o b x = resid (N := 1024) wf o b x := by
  funext j
  obtain ⟨p, q, rfl⟩ : ∃ (p : Fin 768) (q : Fin 1024), j = ix2 p q := ⟨j 0, j 1, eq_ix2 j⟩
  unfold k2_pay1 resid
  simp only [shapeCast_self]
  rw [addf_apply, addf_apply, Cert.Gcn.Lib.broadcastTo_a1_ab_apply]
  refine congrArg₂ (· + ·) (congrArg₂ (· + ·) ?_ rfl) rfl
  exact congrFun (matmul_zero_eq dot_S768x384_S384x1024_S768x1024_1_0_0_1_n_n rfl none wf o) (ix2 p q)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the weights and the bias column are always block (0, 0); the
    blocks of o and of x and the output block at point t are block (0, t). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = t.val
    ∧ win2_4.index t (0 : Fin 2) = 0 ∧ win2_4.index t (1 : Fin 2) = t.val :=
  (by decide +kernel : ∀ t : Fin grid2.N, _)

/-- What the region flushes at point t is the block, at t's columns, of the one function of the whole arrays. -/
theorem flushed_eq (c : Dev nD) (t : Fin cfg2.N) :
    (dat V c).flushed 4 t = ((cfg2.win 4).blk t).view.read (Elt Ideal)
      (resid (N := 4096) (V c main_v45) (V c main_v44) (V c main_v46) (V c main_v0)) := by
  show (cfg2.win 4).cut (grid2.coords t) ((dat V c).after 4 t) = _
  rw [afterRes]
  unfold outRes
  rw [View.canon_unit_zero hz]
  simp only [View.ld_unit_zero (S := S768x384) hz, View.ld_unit_zero (S := S384x1024) hz, View.ld_unit_zero (S := S768x1) hz,
    View.ld_unit_zero (S := S768x1024) hz]
  rw [pay_eq]
  funext j
  obtain ⟨p, q, rfl⟩ : ∃ (p : Fin 768) (q : Fin 1024), j = ix2 p q := ⟨j 0, j 1, eq_ix2 j⟩
  obtain ⟨e00, e01, e10, e11, e20, e21, e30, e31, e40, e41⟩ := idx_facts t
  -- the array index of entry (p, q) of the output block at point t: row p, column t·1024 + q
  have hi0 : ((((cfg2.win 4).blk t).view.emb (ix2 p q)) 0).val = p.val := by
    show win2_4.index t (0 : Fin 2) * 768 + 1 * p.val = p.val; omega
  have hi1 : ((((cfg2.win 4).blk t).view.emb (ix2 p q)) 1).val = t.val * 1024 + q.val := by
    show win2_4.index t (1 : Fin 2) * 1024 + 1 * q.val = t.val * 1024 + q.val; omega
  show resid (iblk V c 0 t) (iblk V c 1 t) (iblk V c 2 t) (iblk V c 3 t) (ix2 p q)
    = resid (N := 4096) (V c main_v45) (V c main_v44) (V c main_v46) (V c main_v0) (((cfg2.win 4).blk t).view.emb (ix2 p q))
  generalize ((cfg2.win 4).blk t).view.emb (ix2 p q) = i at hi0 hi1 ⊢
  unfold resid
  refine congrArg₂ (· + ·) (congrArg₂ (· + ·) (rowsByCols_congr _ _ _ _ _ _ (fun k => ?_) (fun k => ?_)) ?_) ?_
  · -- the weights' block is the whole matrix
    show V c main_v45 (((cfg2.win 0).blk t).view.emb (ix2 p k)) = V c main_v45 (ix2 (i 0) k)
    refine congrArg (V c main_v45) (funext fun a => Fin.ext ?_)
    match a with
    | ⟨0, _⟩ => show win2_0.index t (0 : Fin 2) * 768 + 1 * p.val = (i 0).val; omega
    | ⟨1, _⟩ => show win2_0.index t (1 : Fin 2) * 384 + 1 * k.val = k.val; omega
  · -- the block of o at point t is its columns t·1024 …
    show V c main_v44 (((cfg2.win 1).blk t).view.emb (ix2 k q)) = V c main_v44 (ix2 k (i 1))
    refine congrArg (V c main_v44) (funext fun a => Fin.ext ?_)
    match a with
    | ⟨0, _⟩ => show win2_1.index t (0 : Fin 2) * 384 + 1 * k.val = k.val; omega
    | ⟨1, _⟩ => show win2_1.index t (1 : Fin 2) * 1024 + 1 * q.val = (i 1).val; omega
  · -- the bias column's block is the whole column
    show V c main_v46 (((cfg2.win 2).blk t).view.emb (ix2 p (0 : Fin 1))) = V c main_v46 (ix2 (i 0) (0 : Fin 1))
    refine congrArg (V c main_v46) (funext fun a => Fin.ext ?_)
    match a with
    | ⟨0, _⟩ => show win2_2.index t (0 : Fin 2) * 768 + 1 * p.val = (i 0).val; omega
    | ⟨1, _⟩ => show win2_2.index t (1 : Fin 2) * 1 + 1 * 0 = 0; omega
  · -- the block of x at point t is the same columns of x
    show V c main_v0 (((cfg2.win 3).blk t).view.emb (ix2 p q)) = V c main_v0 i
    refine congrArg (V c main_v0) (funext fun a => Fin.ext ?_)
    match a with
    | ⟨0, _⟩ => show win2_3.index t (0 : Fin 2) * 768 + 1 * p.val = (i 0).val; omega
    | ⟨1, _⟩ => show win2_3.index t (1 : Fin 2) * 1024 + 1 * q.val = (i 1).val; omega

/-- An index of the array is in point t's output block iff each coordinate is in the block's range on its axis. -/
theorem mem_blk (t : Fin cfg2.N) (i : S768x4096.Idx) :
    i ∈ ((cfg2.win 4).blk t).view.set ↔ ∀ a : Fin 2, win2_4.index t a * S768x1024.size a ≤ (i a).val
      ∧ (i a).val < win2_4.index t a * S768x1024.size a + S768x1024.size a := by
  show i ∈ ((View.whole main_v47).slice (win2_4.rect t)).set ↔ _
  rw [View.set_slice_whole, Rect.mem_set_unit]
  exact Iff.rfl

/-- Every index of the result is in some point's output block: column i₁ lies in the block of point i₁ / 1024. -/
theorem cover (i : S768x4096.Idx) : ∃ t : Fin cfg2.N, (cfg2.win 4).flush t = true ∧ i ∈ ((cfg2.win 4).blk t).view.set := by
  have hi0 : (i 0).val < 768 := (i 0).isLt
  have hi1 : (i 1).val < 4096 := (i 1).isLt
  obtain ⟨t, ht⟩ : ∃ t : Fin cfg2.N, t.val = (i 1).val / 1024 :=
    ⟨⟨(i 1).val / 1024, by rw [show cfg2.N = 4 from N_2]; omega⟩, rfl⟩
  obtain ⟨-, -, -, -, -, -, -, -, e40, e41⟩ := idx_facts t
  refine ⟨t, flush2_4 t, ?_⟩
  rw [mem_blk]
  intro a
  match a with
  | ⟨0, _⟩ =>
    show win2_4.index t (0 : Fin 2) * 768 ≤ (i 0).val ∧ (i 0).val < win2_4.index t (0 : Fin 2) * 768 + 768
    omega
  | ⟨1, _⟩ =>
    show win2_4.index t (1 : Fin 2) * 1024 ≤ (i 1).val ∧ (i 1).val < win2_4.index t (1 : Fin 2) * 1024 + 1024
    omega

/-- THE LAST PROJECTION WITH BIAS AND RESIDUAL after the third region: one function of the arrays the region found. -/
theorem final (c : Dev nD) :
    (dat V c).arrAt 4 cfg2.N = resid (N := 4096) (V c main_v45) (V c main_v44) (V c main_v46) (V c main_v0) :=
  (dat V c).arrAt_eq_of_cover 4 _ (fun t _ => flushed_eq V c t) cover

end Cert.KernelIdeal.Val2

end
-- ==== Proof.KIChain.lean ====
/-
  The kernel program's two results traced back through the run. The attention matrix is untouched after the second
  region; the first result is the re-lay of what the third region leaves. Each region's output array is the
  whole-array function of the arrays that region found, and what a region found is what the stretch of host
  operations before it made of the arrays before that.
-/
import proofs.«143704_j73521250173422_2_alg».proof.Proof.KIRun
import proofs.«143704_j73521250173422_2_alg».proof.Proof.KIVal0
import proofs.«143704_j73521250173422_2_alg».proof.Proof.KIVal1
import proofs.«143704_j73521250173422_2_alg».proof.Proof.KIVal2

set_option maxRecDepth 16384

noncomputable section

namespace Cert.KernelIdeal.Chain

open Idealize.ShloMosaic Idealize.ShloMosaic.TcCoe Idealize.SL.Sem
open Idealize.ShloMosaic.ValueIdx
open Cert.KernelIdeal Cert.KernelIdeal.Gen Cert.KernelIdeal.Run Cert.Lib.PlainDot

variable (m : (ℓ : Loc nD τ sig) → Buf (Elt Ideal) ℓ) (c : Dev nD)

/-- The stacked projection the second region finds is what the first region left: no host operation between them
    writes it. -/
theorem stacked : E3 m c main_v31
    = Val0.proj (N := 4096) (E1 m c main_v2) (E1 m c main_v0) (E1 m c main_v28) (E1 m c main_v30) :=
  (B3_of m c main_v31 (by decide)).trans (((hF0 m c 4).symm).trans (Val0.final (E1 m) c))

/-- The attention matrix at the end is what the second region left. -/
theorem attn_end : B7 m c main_v43_0 = Val1.attnK (E3 m c main_v31) (E3 m c main_v42) :=
  (B7_of m c main_v43_0 (by decide)).trans <| (B6_of m c main_v43_0 (by decide)).trans <|
    (B5_of m c main_v43_0 (by decide)).trans <| (h430 m c).trans (Val1.final_attn (E3 m) c)

/-- The second array the second region leaves. -/
theorem av_after : E4 m c main_v43_1 = rowsByCols (Val1.attnK (E3 m c main_v31) (E3 m c main_v42)) (E3 m c main_v33) :=
  (h431 m c).trans (Val1.final_av (E3 m) c)

/-- The array the third region leaves. -/
theorem resid_after : B6 m c main_v47
    = Val2.resid (N := 4096) (E5 m c main_v45) (E5 m c main_v44) (E5 m c main_v46) (E5 m c main_v0) :=
  ((hF2 m c 4).symm).trans (Val2.final (E5 m) c)

end Cert.KernelIdeal.Chain

end
-- ==== Proof.Spec.lean ====
/-
  What the two programs compute, written once over the extended reals, index by index, in the reference's own
  arrangement. x is the input as a 768 x 4096 matrix. For each of query, key and value a normalised projection
  ((W x + b) - mean) * (gamma / sqrt(var + eps)) + beta. Two modulation rows h W_h^T + b_h. The score of query i
  against key j is (sum over channels of q[c,i] k[c,j]) * f0[j] * f1[j]; the attention matrix is the softmax of each
  row of scores; the value projection re-laid row-major as a 4096 x 384 matrix is multiplied on the left by the
  attention matrix; that product re-laid row-major as 384 x 4096 goes through the last projection, and the input
  is added back.
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- An array of extended reals of a literal shape. -/
abbrev Arr (s : Shape) : Type := s.Idx → EReal
/-- A matrix, a vector. -/
abbrev Mat (a b : ℕ) : Type := Arr ⟨2, ![a, b]⟩
abbrev Vct (a : ℕ) : Type := Arr ⟨1, ![a]⟩

/-- The normalisation's epsilon: the f32 nearest 1e-5, as the exact real it denotes. -/
def eps : EReal := Ideal.ofBits .f32 0x3727C5AC#32

/-- The input with its leading unit axis dropped. -/
def xmat (x : Arr ⟨3, ![1, 768, 4096]⟩) : Mat 768 4096 := fun i => x (ix3 (0 : Fin 1) (i 0) (i 1))

/-- The per-channel scale gamma / sqrt(var + eps). -/
def scale (g v : Vct 384) (c : Fin 384) : EReal := Ideal.div (g (ix1 c)) (Ideal.sqrt (v (ix1 c) + eps))

/-- A normalised projection, the reference's arrangement: ((W x + b) - mean) * scale + beta. -/
def normProj (W : Mat 384 768) (X : Mat 768 4096) (b g bet mn v : Vct 384) : Mat 384 4096 := fun i =>
  ((∑ k : Fin 768, W (ix2 (i 0) k) * X (ix2 k (i 1)) + b (ix1 (i 0))) - mn (ix1 (i 0))) * scale g v (i 0) + bet (ix1 (i 0))

/-- A modulation factor: (h W_h^T + b_h)[j]. -/
def factor (h : Mat 1 256) (Wh : Mat 4096 256) (bh : Vct 4096) (j : Fin 4096) : EReal :=
  (∑ k : Fin 256, h (ix2 (0 : Fin 1) k) * Wh (ix2 j k)) + bh (ix1 j)

/-- The modulated score of query i against key j. -/
def score (q k : Mat 384 4096) (f0 f1 : Fin 4096 → EReal) : Mat 4096 4096 := fun i =>
  ((∑ c : Fin 384, q (ix2 c (i 0)) * k (ix2 c (i 1))) * f0 (i 1)) * f1 (i 1)

/-- The maximum of row i, from -∞. -/
def rowMax (s : Mat 4096 4096) (i : Fin 4096) : EReal := Finset.univ.fold max ⊥ fun j : Fin 4096 => s (ix2 i j)

/-- The softmax of each row: exp(s - rowmax) over the row's sum of those. -/
def softmax (s : Mat 4096 4096) : Mat 4096 4096 := fun i =>
  Ideal.div (Ideal.exp (s i - rowMax s (i 0))) (∑ j : Fin 4096, Ideal.exp (s (ix2 (i 0) j) - rowMax s (i 0)))

/-- The attention matrix of the argument arrays. -/
def attn (x : Arr ⟨3, ![1, 768, 4096]⟩) (h0 h1 : Mat 1 256) (Wq : Mat 384 768) (bq : Vct 384) (Wk : Mat 384 768) (bk : Vct 384)
    (gq betq mq vq gk betk mk vk : Vct 384) (Wh0 : Mat 4096 256) (bh0 : Vct 4096) (Wh1 : Mat 4096 256) (bh1 : Vct 4096) : Mat 4096 4096 :=
  softmax (score (normProj Wq (xmat x) bq gq betq mq vq) (normProj Wk (xmat x) bk gk betk mk vk) (factor h0 Wh0 bh0) (factor h1 Wh1 bh1))

/-- Attention times the re-laid values, re-laid back, projected, biased, and the input added:
    x[r,j] + ((sum over d of Wf[r,d] o[d,j]) + bf[r]), o the 384 x 4096 re-lay of A · (the 4096 x 384 re-lay of v). -/
def residual (X : Mat 768 4096) (A : Mat 4096 4096) (v : Mat 384 4096) (Wf : Mat 768 384) (bf : Vct 768)
    (h1 : (⟨2, ![384, 4096]⟩ : Shape).ShapeCasts ⟨2, ![4096, 384]⟩) (h2 : (⟨2, ![4096, 384]⟩ : Shape).ShapeCasts ⟨2, ![384, 4096]⟩) : Mat 768 4096 :=
  let vr : Mat 4096 384 := shapeCast ⟨2, ![4096, 384]⟩ v h1
  let av : Mat 4096 384 := fun i => ∑ j : Fin 4096, A (ix2 (i 0) j) * vr (ix2 j (i 1))
  let o : Mat 384 4096 := shapeCast ⟨2, ![384, 4096]⟩ av h2
  fun i => X i + ((∑ d : Fin 384, Wf (ix2 (i 0) d) * o (ix2 d (i 1))) + bf (ix1 (i 0)))

end Cert.Spec

end
-- ==== Proof.LibNaryThree.lean ====
/-
  An operation on a family of THREE buffers, read with each operand at its own buffer.

  A host operation that takes its operands through a family indexed by position (a join of several arrays along
  an axis) has as its value the operation's function applied to the family `k ↦ contents of operand k`. For a
  family of three given as a literal, that family is the three operands' contents one after the other. Stated
  with the function applied LAST (`feed x f = f x`, kept folded), a rewriting pass can go on reading each
  operand's own contents below the join before the join's function is opened — which it cannot do once the
  function is applied, when the function (a concatenation) carries a proof about the shapes of what it joins.
-/
import Idealize.ShloMosaic.Lib.StableHlo.Run

noncomputable section

namespace Cert.LibNaryThree

open Idealize.ShloMosaic Idealize.ShloMosaic.TcCoe Idealize.ShloMosaic.StableHlo

/-- A value handed to a function: `feed x f` is `f x`, kept folded so that `x` can be rewritten first.
    Unfold it (or close by `rfl`) once the operands have been read. -/
def feed {α β : Type} (x : α) (f : α → β) : β := f x

variable {τ : Topo} {sig : RefSig} {Val : EltTy → Type} {x a b y : Ref sig .tc}

/-- **An operation on a literal family of three buffers**: its result buffer after the operation holds the
    operation's function of the three operands' contents, each read at its own buffer (the three-operand
    companion of the four-operand form; the result buffer is un-indexed so that a simplifier finds the
    lemma from the operation alone). Use it in a `simp only` set with the other result lemmas in place of the
    generic family form, then close with `rfl`. -/
theorem nary3_feed
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = feed (Fin.cons (F (Proc.devRef .tc x)) (Fin.cons (F (Proc.devRef .tc a)) (Fin.cons (F (Proc.devRef .tc b)) (fun i => i.elim0)))) f := by
  unfold feed
  rw [nary_result]; congr 1; funext k; fin_cases k <;> rfl

end Cert.LibNaryThree

end
-- ==== Proof.KIHost.lean ====
/-
  The host stretches of the kernel program read at an index, at the exact instance. Between the regions the program
  re-lays, stacks, slices and combines arrays; each statement below says what one such array holds, as a function of the
  launched arguments or of what the region before it left: the input as a matrix; the three projection weights stacked
  by rows; the per-channel scales gamma / sqrt(var + eps) and shifts b * scale + (beta - mean * scale), stacked and kept
  as columns; the product of the two modulation rows; the value rows of the stacked projection re-laid; the re-lays and
  the bias column around the last region; and the final re-lay.
-/
import proofs.«143704_j73521250173422_2_alg».proof.Proof.KIRun
import proofs.«143704_j73521250173422_2_alg».proof.Proof.Spec
import proofs.«143704_j73521250173422_2_alg».proof.Proof.LibNaryThree
import proofs.«143704_j73521250173422_2_alg».proof.Proof.LibPlainDot
import proofs.«143704_j73521250173422_2_alg».proof.Proof.LibKeepdimsColumn
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Host

open Idealize.ShloMosaic Idealize.ShloMosaic.TcCoe Idealize.SL.Sem Idealize.ShloMosaic.StableHlo
open Idealize.ShloMosaic.ValueIdx
open Cert.KernelIdeal Cert.KernelIdeal.Gen Cert.KernelIdeal.Run

/-! ## Three arrays joined along the first axis, read at an index -/

section Join
variable {α : Type}

/-- Three vectors of length 384 joined: entry c of the join is entry c of the first, -/
theorem join1_0 (x0 x1 x2 : S384.Idx → α) (h : Shape.Concatenates [S384, S384, S384] S1152 0) (c : Fin 384) :
    concatenate S1152 0 [⟨S384, x0⟩, ⟨S384, x1⟩, ⟨S384, x2⟩] h (ix1 (⟨c.val, by have := c.isLt; omega⟩ : Fin 1152)) = x0 (ix1 c) :=
  concatenate_apply_piece (t := S1152) 0 [⟨S384, x0⟩, ⟨S384, x1⟩, ⟨S384, x2⟩] h _ 0 (by show 0 < 3; decide) S384 x0 rfl rfl 0 rfl (ix1 c)
    (fun b hb => by match b with | ⟨0, _⟩ => exact absurd rfl hb) (Nat.zero_add _)
/-- entry 384 + c is entry c of the second, -/
theorem join1_1 (x0 x1 x2 : S384.Idx → α) (h : Shape.Concatenates [S384, S384, S384] S1152 0) (c : Fin 384) :
    concatenate S1152 0 [⟨S384, x0⟩, ⟨S384, x1⟩, ⟨S384, x2⟩] h (ix1 (⟨384 + c.val, by have := c.isLt; omega⟩ : Fin 1152)) = x1 (ix1 c) :=
  concatenate_apply_piece (t := S1152) 0 [⟨S384, x0⟩, ⟨S384, x1⟩, ⟨S384, x2⟩] h _ 1 (by show 1 < 3; decide) S384 x1 rfl rfl 384 rfl (ix1 c)
    (fun b hb => by match b with | ⟨0, _⟩ => exact absurd rfl hb) rfl
/-- and entry 768 + c is entry c of the third. -/
theorem join1_2 (x0 x1 x2 : S384.Idx → α) (h : Shape.Concatenates [S384, S384, S384] S1152 0) (c : Fin 384) :
    concatenate S1152 0 [⟨S384, x0⟩, ⟨S384, x1⟩, ⟨S384, x2⟩] h (ix1 (⟨768 + c.val, by have := c.isLt; omega⟩ : Fin 1152)) = x2 (ix1 c) :=
  concatenate_apply_piece (t := S1152) 0 [⟨S384, x0⟩, ⟨S384, x1⟩, ⟨S384, x2⟩] h _ 2 (by show 2 < 3; decide) S384 x2 rfl rfl 768 rfl (ix1 c)
    (fun b hb => by match b with | ⟨0, _⟩ => exact absurd rfl hb) rfl

/-- Three 384 x 768 matrices stacked by rows: row c of the stack is row c of the first, -/
theorem join2_0 (x0 x1 x2 : S384x768.Idx → α) (h : Shape.Concatenates [S384x768, S384x768, S384x768] S1152x768 0) (c : Fin 384) (k : Fin 768) :
    concatenate S1152x768 0 [⟨S384x768, x0⟩, ⟨S384x768, x1⟩, ⟨S384x768, x2⟩] h (ix2 (⟨c.val, by have := c.isLt; omega⟩ : Fin 1152) k) = x0 (ix2 c k) :=
  concatenate_apply_piece (t := S1152x768) 0 [⟨S384x768, x0⟩, ⟨S384x768, x1⟩, ⟨S384x768, x2⟩] h _ 0 (by show 0 < 3; decide) S384x768 x0 rfl rfl 0 rfl (ix2 c k)
    (fun b hb => by match b with | ⟨0, _⟩ => exact absurd rfl hb | ⟨1, _⟩ => rfl) (Nat.zero_add _)
/-- row 384 + c is row c of the second, -/
theorem join2_1 (x0 x1 x2 : S384x768.Idx → α) (h : Shape.Concatenates [S384x768, S384x768, S384x768] S1152x768 0) (c : Fin 384) (k : Fin 768) :
    concatenate S1152x768 0 [⟨S384x768, x0⟩, ⟨S384x768, x1⟩, ⟨S384x768, x2⟩] h (ix2 (⟨384 + c.val, by have := c.isLt; omega⟩ : Fin 1152) k) = x1 (ix2 c k) :=
  concatenate_apply_piece (t := S1152x768) 0 [⟨S384x768, x0⟩, ⟨S384x768, x1⟩, ⟨S384x768, x2⟩] h _ 1 (by show 1 < 3; decide) S384x768 x1 rfl rfl 384 rfl (ix2 c k)
    (fun b hb => by match b with | ⟨0, _⟩ => exact absurd rfl hb | ⟨1, _⟩ => rfl) rfl
/-- and row 768 + c is row c of the third. -/
theorem join2_2 (x0 x1 x2 : S384x768.Idx → α) (h : Shape.Concatenates [S384x768, S384x768, S384x768] S1152x768 0) (c : Fin 384) (k : Fin 768) :
    concatenate S1152x768 0 [⟨S384x768, x0⟩, ⟨S384x768, x1⟩, ⟨S384x768, x2⟩] h (ix2 (⟨768 + c.val, by have := c.isLt; omega⟩ : Fin 1152) k) = x2 (ix2 c k) :=
  concatenate_apply_piece (t := S1152x768) 0 [⟨S384x768, x0⟩, ⟨S384x768, x1⟩, ⟨S384x768, x2⟩] h _ 2 (by show 2 < 3; decide) S384x768 x2 rfl rfl 768 rfl (ix2 c k)
    (fun b hb => by match b with | ⟨0, _⟩ => exact absurd rfl hb | ⟨1, _⟩ => rfl) rfl

end Join

variable (m : (ℓ : Loc nD τ sig) → Buf (Elt Ideal) ℓ) (c : Dev nD)

/-- An argument array as launched. -/
abbrev arg (b : Ref sig .tc) : Buf (Elt Ideal) ((c : Thread nD τ).loc b) := m ((c : Thread nD τ).loc b)

/-! ## (H1) the input as a matrix -/

theorem h1_x : E1 m c main_v0 = Cert.Spec.xmat (arg m c main_arg0) := by
  show StableHlo.after hostOps0 (B0 m c) (Proc.devRef .tc main_v0) = _
  after_results_simp
  funext i
  obtain ⟨r, j, rfl⟩ : ∃ (r : Fin 768) (j : Fin 4096), i = ix2 r j := ⟨i 0, i 1, eq_ix2 i⟩
  exact shapeCast_apply _ shapeCasts_S1x768x4096_S768x4096 (ix2 r j) (ix3 (0 : Fin 1) r j)
    (by rw [Shape.rowMajor_val_three, Shape.rowMajor_val_two]; show (0 * 768 + r.val) * 4096 + j.val = r.val * 4096 + j.val; omega)

/-! ## What the items leave unchanged -/

/-- A buffer the first host stretch does not write and the first region does not store into is, at the first
    region's exit, as launched. -/
theorem kept2 (r : Ref sig .tc) (h0 : r ∉ hostOps0_W) (h31 : r ≠ main_v31) : B2 m c r = arg m c r :=
  (B2_of m c r h31).trans <| (B1_of m c r h0).trans rfl

/-- The same at the second region's exit. -/
theorem kept4 (r : Ref sig .tc) (h0 : r ∉ hostOps0_W) (h1 : r ∉ hostOps1_W) (h31 : r ≠ main_v31) (h430 : r ≠ main_v43_0)
    (h431 : r ≠ main_v43_1) : B4 m c r = arg m c r :=
  (B4_of m c r h430 h431).trans <| (B3_of m c r h1).trans <| kept2 m c r h0 h31

/-! ## (H2) the three projection weights stacked by rows (the change of format is the identity) -/

theorem h2_q (c' : Fin 384) (k : Fin 768) :
    E1 m c main_v2 (ix2 (⟨c'.val, by have := c'.isLt; omega⟩ : Fin 1152) k) = arg m c main_arg3 (ix2 c' k) := by
  show StableHlo.after hostOps0 (B0 m c) (Proc.devRef .tc main_v2) (ix2 _ k) = _
  simp (disch := decide) only [after_cons, after_nil, nullary_result', unary_result', binary_result', reshape_result',
    Cert.LibNaryThree.nary3_feed, nullary_result_ne', unary_result_ne', binary_result_ne', reshape_result_ne', nary_result_ne']
  unfold Cert.LibNaryThree.feed
  show concatenate S1152x768 0 [⟨S384x768, arg m c main_arg3⟩, ⟨S384x768, arg m c main_arg5⟩, ⟨S384x768, arg m c main_arg7⟩]
      concatenates_S384x768_S384x768_S384x768_S1152x768_d0 (ix2 _ k) = _
  exact join2_0 _ _ _ _ c' k

theorem h2_k (c' : Fin 384) (k : Fin 768) :
    E1 m c main_v2 (ix2 (⟨384 + c'.val, by have := c'.isLt; omega⟩ : Fin 1152) k) = arg m c main_arg5 (ix2 c' k) := by
  show StableHlo.after hostOps0 (B0 m c) (Proc.devRef .tc main_v2) (ix2 _ k) = _
  simp (disch := decide) only [after_cons, after_nil, nullary_result', unary_result', binary_result', reshape_result',
    Cert.LibNaryThree.nary3_feed, nullary_result_ne', unary_result_ne', binary_result_ne', reshape_result_ne', nary_result_ne']
  unfold Cert.LibNaryThree.feed
  show concatenate S1152x768 0 [⟨S384x768, arg m c main_arg3⟩, ⟨S384x768, arg m c main_arg5⟩, ⟨S384x768, arg m c main_arg7⟩]
      concatenates_S384x768_S384x768_S384x768_S1152x768_d0 (ix2 _ k) = _
  exact join2_1 _ _ _ _ c' k

theorem h2_v (c' : Fin 384) (k : Fin 768) :
    E1 m c main_v2 (ix2 (⟨768 + c'.val, by have := c'.isLt; omega⟩ : Fin 1152) k) = arg m c main_arg7 (ix2 c' k) := by
  show StableHlo.after hostOps0 (B0 m c) (Proc.devRef .tc main_v2) (ix2 _ k) = _
  simp (disch := decide) only [after_cons, after_nil, nullary_result', unary_result', binary_result', reshape_result',
    Cert.LibNaryThree.nary3_feed, nullary_result_ne', unary_result_ne', binary_result_ne', reshape_result_ne', nary_result_ne']
  unfold Cert.LibNaryThree.feed
  show concatenate S1152x768 0 [⟨S384x768, arg m c main_arg3⟩, ⟨S384x768, arg m c main_arg5⟩, ⟨S384x768, arg m c main_arg7⟩]
      concatenates_S384x768_S384x768_S384x768_S1152x768_d0 (ix2 _ k) = _
  exact join2_2 _ _ _ _ c' k

/-! ## (H3) the per-channel scales and shifts, stacked and kept as columns -/

/-- The per-channel shift of a folded normalisation: b * scale + (beta - mean * scale). -/
def shift (b g bet mn v : Cert.Spec.Vct 384) (c' : Fin 384) : EReal :=
  b (ix1 c') * Cert.Spec.scale g v c' + (bet (ix1 c') - mn (ix1 c') * Cert.Spec.scale g v c')

theorem h3_scale_q (c' : Fin 384) :
    E1 m c main_v28 (ix2 (⟨c'.val, by have := c'.isLt; omega⟩ : Fin 1152) (0 : Fin 1))
      = Cert.Spec.scale (arg m c main_arg11) (arg m c main_arg14) c' := by
  show StableHlo.after hostOps0 (B0 m c) (Proc.devRef .tc main_v28) (ix2 _ (0 : Fin 1)) = _
  simp (disch := decide) only [after_cons, after_nil, nullary_result', unary_result', binary_result', reshape_result',
    Cert.LibNaryThree.nary3_feed, nullary_result_ne', unary_result_ne', binary_result_ne', reshape_result_ne', nary_result_ne']
  show shapeCast S1152x1 _ shapeCasts_S1152_S1152x1 (ix2 (⟨c'.val, by have := c'.isLt; omega⟩ : Fin 1152) (0 : Fin 1)) = _
  rw [Cert.Gcn.Lib.shapeCast_a_a1_apply]
  unfold Cert.LibNaryThree.feed
  refine (join1_0 _ _ _ concatenates_S384_S384_S384_S1152_d0 c').trans ?_
  rfl

theorem h3_scale_k (c' : Fin 384) :
    E1 m c main_v28 (ix2 (⟨384 + c'.val, by have := c'.isLt; omega⟩ : Fin 1152) (0 : Fin 1))
      = Cert.Spec.scale (arg m c main_arg15) (arg m c main_arg18) c' := by
  show StableHlo.after hostOps0 (B0 m c) (Proc.devRef .tc main_v28) (ix2 _ (0 : Fin 1)) = _
  simp (disch := decide) only [after_cons, after_nil, nullary_result', unary_result', binary_result', reshape_result',
    Cert.LibNaryThree.nary3_feed, nullary_result_ne', unary_result_ne', binary_result_ne', reshape_result_ne', nary_result_ne']
  show shapeCast S1152x1 _ shapeCasts_S1152_S1152x1 (ix2 (⟨384 + c'.val, by have := c'.isLt; omega⟩ : Fin 1152) (0 : Fin 1)) = _
  rw [Cert.Gcn.Lib.shapeCast_a_a1_apply]
  unfold Cert.LibNaryThree.feed
  refine (join1_1 _ _ _ concatenates_S384_S384_S384_S1152_d0 c').trans ?_
  rfl

theorem h3_scale_v (c' : Fin 384) :
    E1 m c main_v28 (ix2 (⟨768 + c'.val, by have := c'.isLt; omega⟩ : Fin 1152) (0 : Fin 1))
      = Cert.Spec.scale (arg m c main_arg19) (arg m c main_arg22) c' := by
  show StableHlo.after hostOps0 (B0 m c) (Proc.devRef .tc main_v28) (ix2 _ (0 : Fin 1)) = _
  simp (disch := decide) only [after_cons, after_nil, nullary_result', unary_result', binary_result', reshape_result',
    Cert.LibNaryThree.nary3_feed, nullary_result_ne', unary_result_ne', binary_result_ne', reshape_result_ne', nary_result_ne']
  show shapeCast S1152x1 _ shapeCasts_S1152_S1152x1 (ix2 (⟨768 + c'.val, by have := c'.isLt; omega⟩ : Fin 1152) (0 : Fin 1)) = _
  rw [Cert.Gcn.Lib.shapeCast_a_a1_apply]
  unfold Cert.LibNaryThree.feed
  refine (join1_2 _ _ _ concatenates_S384_S384_S384_S1152_d0 c').trans ?_
  rfl

theorem h3_shift_q (c' : Fin 384) :
    E1 m c main_v30 (ix2 (⟨c'.val, by have := c'.isLt; omega⟩ : Fin 1152) (0 : Fin 1))
      = shift (arg m c main_arg4) (arg m c main_arg11) (arg m c main_arg12) (arg m c main_arg13) (arg m c main_arg14) c' := by
  show StableHlo.after hostOps0 (B0 m c) (Proc.devRef .tc main_v30) (ix2 _ (0 : Fin 1)) = _
  simp (disch := decide) only [after_cons, after_nil, nullary_result', unary_result', binary_result', reshape_result',
    Cert.LibNaryThree.nary3_feed, nullary_result_ne', unary_result_ne', binary_result_ne', reshape_result_ne', nary_result_ne']
  show shapeCast S1152x1 _ shapeCasts_S1152_S1152x1 (ix2 (⟨c'.val, by have := c'.isLt; omega⟩ : Fin 1152) (0 : Fin 1)) = _
  rw [Cert.Gcn.Lib.shapeCast_a_a1_apply]
  unfold Cert.LibNaryThree.feed
  refine (join1_0 _ _ _ concatenates_S384_S384_S384_S1152_d0 c').trans ?_
  rfl

theorem h3_shift_k (c' : Fin 384) :
    E1 m c main_v30 (ix2 (⟨384 + c'.val, by have := c'.isLt; omega⟩ : Fin 1152) (0 : Fin 1))
      = shift (arg m c main_arg6) (arg m c main_arg15) (arg m c main_arg16) (arg m c main_arg17) (arg m c main_arg18) c' := by
  show StableHlo.after hostOps0 (B0 m c) (Proc.devRef .tc main_v30) (ix2 _ (0 : Fin 1)) = _
  simp (disch := decide) only [after_cons, after_nil, nullary_result', unary_result', binary_result', reshape_result',
    Cert.LibNaryThree.nary3_feed, nullary_result_ne', unary_result_ne', binary_result_ne', reshape_result_ne', nary_result_ne']
  show shapeCast S1152x1 _ shapeCasts_S1152_S1152x1 (ix2 (⟨384 + c'.val, by have := c'.isLt; omega⟩ : Fin 1152) (0 : Fin 1)) = _
  rw [Cert.Gcn.Lib.shapeCast_a_a1_apply]
  unfold Cert.LibNaryThree.feed
  refine (join1_1 _ _ _ concatenates_S384_S384_S384_S1152_d0 c').trans ?_
  rfl

theorem h3_shift_v (c' : Fin 384) :
    E1 m c main_v30 (ix2 (⟨768 + c'.val, by have := c'.isLt; omega⟩ : Fin 1152) (0 : Fin 1))
      = shift (arg m c main_arg8) (arg m c main_arg19) (arg m c main_arg20) (arg m c main_arg21) (arg m c main_arg22) c' := by
  show StableHlo.after hostOps0 (B0 m c) (Proc.devRef .tc main_v30) (ix2 _ (0 : Fin 1)) = _
  simp (disch := decide) only [after_cons, after_nil, nullary_result', unary_result', binary_result', reshape_result',
    Cert.LibNaryThree.nary3_feed, nullary_result_ne', unary_result_ne', binary_result_ne', reshape_result_ne', nary_result_ne']
  show shapeCast S1152x1 _ shapeCasts_S1152_S1152x1 (ix2 (⟨768 + c'.val, by have := c'.isLt; omega⟩ : Fin 1152) (0 : Fin 1)) = _
  rw [Cert.Gcn.Lib.shapeCast_a_a1_apply]
  unfold Cert.LibNaryThree.feed
  refine (join1_2 _ _ _ concatenates_S384_S384_S384_S1152_d0 c').trans ?_
  rfl

/-! ## (H4) the second host stretch: the modulation rows' product, and the value rows re-laid -/

/-- A modulation row (transpose, product, bias spread along the row, sum) at column j, over any arrays. -/
theorem factor_at (h : FVec Ideal S1x256 .f32) (Wh : FVec Ideal S4096x256 .f32) (bh : FVec Ideal S4096 .f32) (j : Fin 4096) :
    addf (Host.dotGeneral (F := Ideal) dot_S1x256_S256x4096_S1x4096_1_0_0_1_n_n none h
        (transpose S256x4096 [1, 0] Wh transposes_S4096x256_S256x4096_1_0))
      (broadcastInDim S1x4096 ![1] bcast_S4096_S1x4096_1 bh) (ix2 (0 : Fin 1) j) = Cert.Spec.factor h Wh bh j := by
  rw [addf_apply]
  unfold Cert.Spec.factor
  refine congrArg₂ (· + ·) ?_ ?_
  · refine (congrFun (Cert.Lib.PlainDot.dotGeneral_eq dot_S1x256_S256x4096_S1x4096_1_0_0_1_n_n rfl none .single h _) (ix2 (0 : Fin 1) j)).trans ?_
    rw [Cert.Lib.PlainDot.rowsByCols_apply]
    refine Finset.sum_congr rfl fun k _ => congrArg (h (ix2 (0 : Fin 1) k) * ·) ?_
    exact transpose_apply [1, 0] Wh transposes_S4096x256_S256x4096_1_0 (ix2 k j) (ix2 j k)
      (fun b => by match b with | ⟨0, _⟩ => rfl | ⟨1, _⟩ => rfl)
  · exact broadcastInDim_apply ![1] bcast_S4096_S1x4096_1 bh (ix2 (0 : Fin 1) j) (ix1 j) (fun a => by
      match a with
      | ⟨0, _⟩ => show j.val = if (4096 : Nat) = 1 then 0 else j.val; rw [if_neg (by decide)])

theorem h4_factors (j : Fin 4096) :
    E3 m c main_v42 (ix2 (0 : Fin 1) j)
      = Cert.Spec.factor (arg m c main_arg1) (arg m c main_arg23) (arg m c main_arg24) j
        * Cert.Spec.factor (arg m c main_arg2) (arg m c main_arg25) (arg m c main_arg26) j := by
  show StableHlo.after hostOps1 (B2 m c) (Proc.devRef .tc main_v42) (ix2 (0 : Fin 1) j) = _
  after_results
  refine (mulf_apply _ _ _).trans ?_
  refine congrArg₂ (· * ·) ((factor_at _ _ _ j).trans ?_) ((factor_at _ _ _ j).trans ?_)
  · rw [kept2 m c main_arg1 (by decide) (by decide), kept2 m c main_arg23 (by decide) (by decide),
      kept2 m c main_arg24 (by decide) (by decide)]
  · rw [kept2 m c main_arg2 (by decide) (by decide), kept2 m c main_arg25 (by decide) (by decide),
      kept2 m c main_arg26 (by decide) (by decide)]

/-- The value rows of the stacked projection, re-laid as 4096 x 384. -/
theorem h4_v33 :
    E3 m c main_v33 = shapeCast S4096x384
      (extractStridedSlice S384x4096 ![768, 0] (E2 m c main_v31) slices_S1152x4096_S384x4096_768_0) shapeCasts_S384x4096_S4096x384 := by
  show StableHlo.after hostOps1 (B2 m c) (Proc.devRef .tc main_v33) = _
  after_results
  rfl

/-- The slice read at an index: row c' of the slice is row 768 + c' of the stacked projection. -/
theorem h4_slice (c' : Fin 384) (j : Fin 4096) :
    extractStridedSlice S384x4096 ![768, 0] (E2 m c main_v31) slices_S1152x4096_S384x4096_768_0 (ix2 c' j)
      = E2 m c main_v31 (ix2 (⟨768 + c'.val, by have := c'.isLt; omega⟩ : Fin 1152) j) :=
  extractStridedSlice_apply ![768, 0] _ slices_S1152x4096_S384x4096_768_0 (ix2 c' j)
    (ix2 (⟨768 + c'.val, by have := c'.isLt; omega⟩ : Fin 1152) j)
    (fun a => by match a with | ⟨0, _⟩ => rfl | ⟨1, _⟩ => show j.val = 0 + j.val; omega)

/-- The second host stretch does not write the stacked projection. -/
theorem h4_v31 : E3 m c main_v31 = E2 m c main_v31 := B3_of m c main_v31 (by decide)

/-! ## (H5) the third host stretch -/

theorem h5_v44 : E5 m c main_v44 = shapeCast S384x4096 (E4 m c main_v43_1) shapeCasts_S4096x384_S384x4096 := by
  show StableHlo.after hostOps2 (B4 m c) (Proc.devRef .tc main_v44) = _
  after_results
  rfl

theorem h5_v45 : E5 m c main_v45 = arg m c main_arg9 := by
  show StableHlo.after hostOps2 (B4 m c) (Proc.devRef .tc main_v45) = _
  after_results
  rw [kept4 m c main_arg9 (by decide) (by decide) (by decide) (by decide) (by decide)]
  rfl

theorem h5_v46 (r : Fin 768) : E5 m c main_v46 (ix2 r (0 : Fin 1)) = arg m c main_arg10 (ix1 r) := by
  show StableHlo.after hostOps2 (B4 m c) (Proc.devRef .tc main_v46) (ix2 r (0 : Fin 1)) = _
  after_results
  show shapeCast S768x1 _ shapeCasts_S768_S768x1 (ix2 r (0 : Fin 1)) = _
  rw [Cert.Gcn.Lib.shapeCast_a_a1_apply, kept4 m c main_arg10 (by decide) (by decide) (by decide) (by decide) (by decide)]

theorem h5_v0 : E5 m c main_v0 = E1 m c main_v0 :=
  (B5_of m c main_v0 (by decide)).trans <| (B4_of m c main_v0 (by decide) (by decide)).trans <|
    (B3_of m c main_v0 (by decide)).trans (B2_of m c main_v0 (by decide))

/-! ## (H6) the last host stretch -/

theorem h6_out : B7 m c main_v48 = shapeCast S64x12x4096 (B6 m c main_v47) shapeCasts_S768x4096_S64x12x4096 := by
  show StableHlo.after hostOps3 (B6 m c) (Proc.devRef .tc main_v48) = _
  after_results
  rfl

theorem h6_v43_0 : B7 m c main_v43_0 = B4 m c main_v43_0 :=
  (B7_of m c main_v43_0 (by decide)).trans <| (B6_of m c main_v43_0 (by decide)).trans (B5_of m c main_v43_0 (by decide))

end Cert.KernelIdeal.Host

end
-- ==== Proof.LibBnFold.lean ====
import Mathlib
import Idealize.ShloMosaic.PureOps.Ideal
import Idealize.ShloMosaic.PureOps.Ideal.Laws

/-!
  Three facts about extended reals that are REAL NUMBERS, for folding an affine normalisation
  ((x - mean) * scale + shift) into a matrix product: the fold itself is a ring identity once every factor is
  real; a finite sum of products of reals is real; and a real numerator over the square root of a
  nonnegative real plus a positive constant is real.
-/

noncomputable section

namespace Cert.LibBnFold

open Idealize.ShloMosaic
open scoped BigOperators

/-- For real w, b, mn, s, bet the normalised sum ((w + b) - mn) * s + bet splits as
    w * s + (b * s + (bet - mn * s)): a ring identity in ℝ, carried to the extended reals by the
    coercion's additivity and multiplicativity (it fails at the infinities, where EReal is not a ring). -/
theorem bn_fold {w b mn s bet : EReal} (hw : ∃ r : ℝ, w = (r : EReal)) (hb : ∃ r : ℝ, b = (r : EReal))
    (hmn : ∃ r : ℝ, mn = (r : EReal)) (hs : ∃ r : ℝ, s = (r : EReal)) (hbet : ∃ r : ℝ, bet = (r : EReal)) :
    ((w + b) - mn) * s + bet = w * s + (b * s + (bet - mn * s)) := by
  obtain ⟨w, rfl⟩ := hw
  obtain ⟨b, rfl⟩ := hb
  obtain ⟨mn, rfl⟩ := hmn
  obtain ⟨s, rfl⟩ := hs
  obtain ⟨bet, rfl⟩ := hbet
  rw [← EReal.coe_add, ← EReal.coe_sub, ← EReal.coe_mul, ← EReal.coe_add,
    ← EReal.coe_mul, ← EReal.coe_mul, ← EReal.coe_mul, ← EReal.coe_sub, ← EReal.coe_add, ← EReal.coe_add]
  congr 1
  ring

/-- A finite sum of products of real numbers, taken in the extended reals, is a real number
    (induction on the finite index set: the empty sum is 0, and a real plus a real is real). -/
theorem sum_mul_real {K : Type} [Fintype K] (f g : K → EReal) (hf : ∀ k, ∃ r : ℝ, f k = (r : EReal))
    (hg : ∀ k, ∃ r : ℝ, g k = (r : EReal)) : ∃ r : ℝ, (∑ k, f k * g k) = (r : EReal) := by
  classical
  have key : ∀ t : Finset K, ∃ r : ℝ, (∑ k ∈ t, f k * g k) = (r : EReal) := by
    intro t
    induction t using Finset.induction_on with
    | empty => exact ⟨0, by rw [Finset.sum_empty, EReal.coe_zero]⟩
    | insert a t ha ih =>
      obtain ⟨r, hr⟩ := ih
      obtain ⟨x, hx⟩ := hf a
      obtain ⟨y, hy⟩ := hg a
      exact ⟨x * y + r, by rw [Finset.sum_insert ha, hr, hx, hy, ← EReal.coe_mul, ← EReal.coe_add]⟩
  exact key Finset.univ

/-- The f32 word 0x3727C5AC (about 1e-5) denotes a real number: sign 0, biased exponent 110 and
    fraction 2606508, so the normal value (2^23 + 2606508) * 2^(110 - 127 - 23) = 10995116 * 2^(-40). -/
theorem eps_val : Ideal.ofBits .f32 0x3727C5AC#32 = (((10995116 : ℝ) * (2 : ℝ) ^ (-40 : ℤ) : ℝ) : EReal) := by
  simp [Ideal.ofBits, Ideal.ieee, -EReal.coe_mul]

/-- That real number is positive. -/
theorem eps_pos_real : ∃ e : ℝ, 0 < e ∧ Ideal.ofBits .f32 0x3727C5AC#32 = (e : EReal) :=
  ⟨(10995116 : ℝ) * (2 : ℝ) ^ (-40 : ℤ), by positivity, eps_val⟩

/-- A real g divided by the square root of v + ε, for a real v ≥ 0 and the positive constant ε the word
    0x3727C5AC denotes, is a real number: v + ε is a positive real, so its square root is a positive real,
    and the quotient by a nonzero real is the product with its reciprocal. -/
theorem scale_real {g v : EReal} (hg : ∃ r : ℝ, g = (r : EReal)) (hv : ∃ r : ℝ, v = (r : EReal)) (hv0 : (0 : EReal) ≤ v) :
    ∃ r : ℝ, Ideal.div g (Ideal.sqrt (v + Ideal.ofBits .f32 0x3727C5AC#32)) = (r : EReal) := by
  obtain ⟨g, rfl⟩ := hg
  obtain ⟨v, rfl⟩ := hv
  obtain ⟨e, he, hE⟩ := eps_pos_real
  have hv' : (0 : ℝ) ≤ v := EReal.coe_nonneg.mp hv0
  have hpos : (0 : ℝ) < v + e := by linarith
  rw [hE, ← EReal.coe_add, Ideal.sqrt_coe, if_neg (not_lt.mpr hpos.le),
    Ideal.div_coe (Real.sqrt_pos.mpr hpos).ne', ← EReal.coe_mul]
  exact ⟨_, rfl⟩

end Cert.LibBnFold

end
-- ==== Proof.BridgeMath.lean ====
/-
  Why the two programs agree, stated over plain arrays of extended reals. Three facts. (1) A row of the stacked
  projection (W x) * scale + (b * scale + (beta - mean * scale)) is a row of ((W x + b) - mean) * scale + beta:
  distributivity, valid because every term is a real number; the scale gamma / sqrt(var + eps) is one because
  the variance is nonnegative. (2) With those rows, the factor row f0 * f1 and associativity of the product, the
  kernel's scores are the reference's, and the row softmax is one function of the scores. (3) The last array is
  x plus the projected product on either side, the kernel adding x last: commutativity.
-/
import proofs.«143704_j73521250173422_2_alg».proof.Proof.KIVal0
import proofs.«143704_j73521250173422_2_alg».proof.Proof.KIVal1
import proofs.«143704_j73521250173422_2_alg».proof.Proof.KIVal2
import proofs.«143704_j73521250173422_2_alg».proof.Proof.Spec
import proofs.«143704_j73521250173422_2_alg».proof.Proof.LibBnFold

set_option maxRecDepth 16384

noncomputable section

namespace Cert.Bridge

open Idealize.ShloMosaic Idealize.ShloMosaic.ValueIdx
open Cert.KernelIdeal Cert.Lib.PlainDot Cert.Lib.ColsDot Cert.KernelIdeal.Val1

/-- Every entry is a real number. -/
def Reals {s : Shape} (x : s.Idx → EReal) : Prop := ∀ i, ∃ r : ℝ, x i = ((r : ℝ) : EReal)

/-- THE FOLD LAW, row by row. A row r of the stacked projection (W·x)·sc + sh whose weights' row is row c' of W', whose
    scale entry is gamma / sqrt(var + eps) and whose shift entry is b·scale + (beta − mean·scale) is row c' of the
    reference's ((W'·x + b) − mean)·scale + beta: distributivity, which holds because every term is a real number
    (the variance being nonnegative makes the scale one). -/
theorem row_is_normProj (W : (⟨2, ![1152, 768]⟩ : Shape).Idx → EReal) (X : Cert.Spec.Mat 768 4096)
    (sc sh : (⟨2, ![1152, 1]⟩ : Shape).Idx → EReal) (W' : Cert.Spec.Mat 384 768) (b g bet mn v : Cert.Spec.Vct 384)
    (r : Fin 1152) (c' : Fin 384)
    (hW : ∀ k : Fin 768, W (ix2 r k) = W' (ix2 c' k))
    (hsc : sc (ix2 r (0 : Fin 1)) = Cert.Spec.scale g v c')
    (hsh : sh (ix2 r (0 : Fin 1)) = b (ix1 c') * Cert.Spec.scale g v c' + (bet (ix1 c') - mn (ix1 c') * Cert.Spec.scale g v c'))
    (rW : Reals W') (rX : Reals X) (rb : Reals b) (rg : Reals g) (rbet : Reals bet) (rmn : Reals mn) (rv : Reals v)
    (hv : ∀ i, (0 : EReal) ≤ v i) (j : Fin 4096) :
    Cert.KernelIdeal.Val0.proj (N := 4096) W X sc sh (ix2 r j) = Cert.Spec.normProj W' X b g bet mn v (ix2 c' j) := by
  unfold Cert.KernelIdeal.Val0.proj Cert.Spec.normProj rowsByCols
  show (∑ k : Fin 768, W (ix2 r k) * X (ix2 k j)) * sc (ix2 r (0 : Fin 1)) + sh (ix2 r (0 : Fin 1))
    = ((∑ k : Fin 768, W' (ix2 c' k) * X (ix2 k j) + b (ix1 c')) - mn (ix1 c')) * Cert.Spec.scale g v c' + bet (ix1 c')
  rw [hsc, hsh, Finset.sum_congr rfl fun k _ => by rw [hW k]]
  exact (Cert.LibBnFold.bn_fold (Cert.LibBnFold.sum_mul_real _ _ (fun k => rW _) (fun k => rX _)) (rb _) (rmn _)
    (Cert.LibBnFold.scale_real (rg _) (rv _) (hv _)) (rbet _)).symm

/-- The kernel's attention matrix is the specification's: the query and key rows of the stacked projection are the two
    normalised projections, the factor row is the product of the two factors (associativity joins the two
    arrangements of the triple product), and the row softmax is the same function. -/
theorem attn_is_spec (Y : S1152x4096.Idx → EReal) (fac : S1x4096.Idx → EReal) (q k : Cert.Spec.Mat 384 4096) (f0 f1 : Fin 4096 → EReal)
    (hq : rowsQ Y = q) (hk : rowsK Y = k) (hf : ∀ j : Fin 4096, fac (ix2 (0 : Fin 1) j) = f0 j * f1 j) :
    attnK Y fac = Cert.Spec.softmax (Cert.Spec.score q k f0 f1) := by
  unfold attnK
  have hs : scoreK (R := 4096) (rowsQ Y) (rowsK Y) fac = Cert.Spec.score q k f0 f1 := by
    funext i
    obtain ⟨p, b, rfl⟩ : ∃ (p : Fin 4096) (b : Fin 4096), i = ix2 p b := ⟨i 0, i 1, eq_ix2 i⟩
    unfold scoreK Cert.Spec.score colsByCols
    rw [hq, hk]
    show (∑ c : Fin 384, q (ix2 c p) * k (ix2 c b)) * fac (ix2 (0 : Fin 1) b) = ((∑ c : Fin 384, q (ix2 c p) * k (ix2 c b)) * f0 b) * f1 b
    rw [hf b, mul_assoc]
  rw [hs]
  rfl

/-- The kernel's last array is the specification's residual: both are x plus the last projection of the re-laid product
    of the attention matrix with the re-laid values, plus the bias; the kernel adds x last and reads the bias as a
    column. -/
theorem resid_is_spec (Wf : Cert.Spec.Mat 768 384) (O : Cert.Spec.Mat 384 4096) (bcol : (⟨2, ![768, 1]⟩ : Shape).Idx → EReal)
    (X : Cert.Spec.Mat 768 4096) (A : Cert.Spec.Mat 4096 4096) (vr : Cert.Spec.Mat 4096 384) (v : Cert.Spec.Mat 384 4096) (bf : Cert.Spec.Vct 768)
    (h1 : (⟨2, ![384, 4096]⟩ : Shape).ShapeCasts ⟨2, ![4096, 384]⟩) (h2 : (⟨2, ![4096, 384]⟩ : Shape).ShapeCasts ⟨2, ![384, 4096]⟩)
    (hO : O = shapeCast ⟨2, ![384, 4096]⟩ (rowsByCols A vr) h2) (hvr : vr = shapeCast ⟨2, ![4096, 384]⟩ v h1)
    (hb : ∀ r : Fin 768, bcol (ix2 r (0 : Fin 1)) = bf (ix1 r)) :
    Cert.KernelIdeal.Val2.resid (N := 4096) Wf O bcol X = Cert.Spec.residual X A v Wf bf h1 h2 := by
  subst hO hvr
  funext i
  obtain ⟨r, j, rfl⟩ : ∃ (r : Fin 768) (j : Fin 4096), i = ix2 r j := ⟨i 0, i 1, eq_ix2 i⟩
  show (rowsByCols Wf (shapeCast ⟨2, ![384, 4096]⟩ (rowsByCols A (shapeCast ⟨2, ![4096, 384]⟩ v h1)) h2) (ix2 r j)
      + bcol (ix2 r (0 : Fin 1))) + X (ix2 r j)
    = X (ix2 r j) + (rowsByCols Wf (shapeCast ⟨2, ![384, 4096]⟩ (rowsByCols A (shapeCast ⟨2, ![4096, 384]⟩ v h1)) h2) (ix2 r j)
      + bf (ix1 r))
  rw [hb r, add_comm]

end Cert.Bridge

end
-- ==== Proof.PreDecode.lean ====
import proofs.«143704_j73521250173422_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreDecode

open Idealize.ShloMosaic Idealize.ShloMosaic.ValueIdx
open Cert.Pre_finite_inputs

/-- Every entry of an array of extended reals is a real number. -/
def AllReal {S : Shape} (x : FVec Ideal S .f32) : Prop := ∀ i, ∃ r : ℝ, x i = ((r : ℝ) : EReal)

/-- The rank-0 shape has exactly one index. -/
instance subsingleton_S_ : Subsingleton S_.Idx := ⟨fun a b => funext fun d => d.elim0⟩

/-- A one-bit word made from a boolean is 1 exactly when the boolean is true. -/
theorem ofBool_eq_one (b : Bool) : BitVec.ofBool b = 1#1 ↔ b = true := by cases b <;> decide

/-- The f32 word 0x7F800000 denotes +∞. -/
theorem ofBits_inf_f32 : Ideal.ofBits .f32 0x7F800000#32 = ⊤ := by simp [Ideal.ofBits, Ideal.ieee]

/-- An extended real whose absolute value max x (-x) is strictly below +∞ is a real number:
    at -∞ and at +∞ the absolute value is +∞. -/
theorem real_of_abs_lt_inf (x : EReal)
    (e : Ideal.cmp .olt (max x (-x)) (Ideal.ofBits .f32 0x7F800000#32) = 1#1) : ∃ r : ℝ, x = (r : EReal) := by
  rw [ofBits_inf_f32] at e
  unfold Ideal.cmp at e
  rw [ofBool_eq_one] at e
  have hlt : max x (-x) < ⊤ := of_decide_eq_true e
  induction x using EReal.rec with
  | bot => simp at hlt
  | top => simp at hlt
  | coe r => exact ⟨r, rfl⟩

/-- An extended real that compares ≥ against the f32 zero word is nonnegative. -/
theorem nonneg_of_oge_zero (x : EReal)
    (e : Ideal.cmp .oge x (Ideal.ofBits .f32 0x00000000#32) = 1#1) : (0 : EReal) ≤ x := by
  rw [Ideal.ofBits_zero_f32] at e
  unfold Ideal.cmp at e
  rw [ofBool_eq_one] at e
  exact of_decide_eq_true e

/-- If the conjunction, over every index, of the elementwise test |x| < +∞ is 1, then every entry of x is real:
    an and-reduction over all axes is 1 only if every reduced element is 1. -/
theorem allReal_of_all {S : Shape} {axes : List (Fin S.rank)} (x : FVec Ideal S .f32)
    (hb : S_.BroadcastsInDim S (![] : Fin 0 → Fin S.rank)) (hr : S.ReducesTo axes S_) (hu : 0 < S_.numel) (init : IVec S_ 1)
    (e : Host.reduce IntOp.andi
          (cmpf .olt (Host.absf x) (broadcastInDim S ![] hb (constant (F := Ideal) S_ .f32 0x7F800000#32))) init hr hu ix0 = 1#1) :
    AllReal x := fun i =>
  real_of_abs_lt_inf (x i) (Host.reduce_andi_all _ init hr hu ix0 e i)

/-- If the conjunction, over every index, of the elementwise test x ≥ 0 is 1, then every entry of x is nonnegative. -/
theorem nonneg_of_all {S : Shape} {axes : List (Fin S.rank)} (x : FVec Ideal S .f32)
    (hb : S_.BroadcastsInDim S (![] : Fin 0 → Fin S.rank)) (hr : S.ReducesTo axes S_) (hu : 0 < S_.numel) (init : IVec S_ 1)
    (e : Host.reduce IntOp.andi
          (cmpf .oge x (broadcastInDim S ![] hb (constant (F := Ideal) S_ .f32 0x00000000#32))) init hr hu ix0 = 1#1) :
    ∀ i, (0 : EReal) ≤ x i := fun i =>
  nonneg_of_oge_zero (x i) (Host.reduce_andi_all _ init hr hu ix0 e i)

variable [Facts]

/-- The precondition decoded. The printed predicate is the conjunction of thirty and-reductions to a scalar, nested
    to the left in the order of its inputs: one test |x| < +∞ per input array, then x ≥ 0 for three of them. Read at
    the scalar's one index, the conjunction being 1 makes every conjunct 1, and each conjunct gives its array's fact. -/
theorem decode (a0 : FVec Ideal S1x768x4096 .f32) (a1 a2 : FVec Ideal S1x256 .f32) (a3 : FVec Ideal S384x768 .f32) (a4 : FVec Ideal S384 .f32) (a5 : FVec Ideal S384x768 .f32) (a6 : FVec Ideal S384 .f32) (a7 : FVec Ideal S384x768 .f32) (a8 : FVec Ideal S384 .f32) (a9 : FVec Ideal S768x384 .f32) (a10 : FVec Ideal S768 .f32) (a11 a12 a13 a14 a15 a16 a17 a18 a19 a20 a21 a22 : FVec Ideal S384 .f32) (a23 : FVec Ideal S4096x256 .f32) (a24 : FVec Ideal S4096 .f32) (a25 : FVec Ideal S4096x256 .f32) (a26 : FVec Ideal S4096 .f32)
    (h : Cert.Pre_finite_inputs.fn (F := Ideal) a0 a1 a2 a3 a4 a5 a6 a7 a8 a9 a10 a11 a12 a13 a14 a15 a16 a17 a18 a19 a20 a21 a22 a23 a24 a25 a26 = (fun _ => 1#1)) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26
    ∧ (∀ i, (0 : EReal) ≤ a14 i) ∧ (∀ i, (0 : EReal) ≤ a18 i) ∧ (∀ i, (0 : EReal) ≤ a22 i) := by
  have e := congrFun h ix0
  dsimp only [fn, fn_part1, fn_part2, fn_part3, fn_part4, fn_part5, fn_part6, fn_part7, fn_part8, andi] at e
  simp only [IntOp.andi_eq_one] at e
  obtain ⟨⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩,
    h17⟩, h18⟩, h19⟩, h20⟩, h21⟩, h22⟩, h23⟩, h24⟩, h25⟩, h26⟩, n14⟩, n18⟩, n22⟩ := e
  exact ⟨allReal_of_all a0 _ _ _ _ h0, allReal_of_all a1 _ _ _ _ h1, allReal_of_all a2 _ _ _ _ h2,
    allReal_of_all a3 _ _ _ _ h3, allReal_of_all a4 _ _ _ _ h4, allReal_of_all a5 _ _ _ _ h5,
    allReal_of_all a6 _ _ _ _ h6, allReal_of_all a7 _ _ _ _ h7, allReal_of_all a8 _ _ _ _ h8,
    allReal_of_all a9 _ _ _ _ h9, allReal_of_all a10 _ _ _ _ h10, allReal_of_all a11 _ _ _ _ h11,
    allReal_of_all a12 _ _ _ _ h12, allReal_of_all a13 _ _ _ _ h13, allReal_of_all a14 _ _ _ _ h14,
    allReal_of_all a15 _ _ _ _ h15, allReal_of_all a16 _ _ _ _ h16, allReal_of_all a17 _ _ _ _ h17,
    allReal_of_all a18 _ _ _ _ h18, allReal_of_all a19 _ _ _ _ h19, allReal_of_all a20 _ _ _ _ h20,
    allReal_of_all a21 _ _ _ _ h21, allReal_of_all a22 _ _ _ _ h22, allReal_of_all a23 _ _ _ _ h23,
    allReal_of_all a24 _ _ _ _ h24, allReal_of_all a25 _ _ _ _ h25, allReal_of_all a26 _ _ _ _ h26,
    nonneg_of_all a14 _ _ _ _ n14, nonneg_of_all a18 _ _ _ _ n18, nonneg_of_all a22 _ _ _ _ n22⟩

end Cert.PreDecode

end
-- ==== Proof.KIAlg.lean ====
/-
  The kernel program's two results are the specification's. Under the precondition every argument entry is a real
  number and the three variances are nonnegative. Rows 0 .. 383, 384 .. 767 and 768 .. 1151 of the stacked projection
  are then the query, key and value normalised projections (the fold law, with the stacked weights, scales and shifts
  read off the first host stretch); the factor row is the product of the two modulation factors; so the attention
  matrix is the specification's, and the first result is the specification's residual re-laid, the slice of the
  value rows and the two re-lays being the same operations on both sides.
-/
import proofs.«143704_j73521250173422_2_alg».proof.Proof.KIChain
import proofs.«143704_j73521250173422_2_alg».proof.Proof.KIHost
import proofs.«143704_j73521250173422_2_alg».proof.Proof.BridgeMath
import proofs.«143704_j73521250173422_2_alg».proof.Proof.PreDecode

set_option maxRecDepth 16384

noncomputable section

namespace Cert.KernelIdeal.Alg

open Idealize.ShloMosaic Idealize.ShloMosaic.TcCoe Idealize.SL.Sem
open Idealize.ShloMosaic.ValueIdx
open Cert.KernelIdeal Cert.KernelIdeal.Gen Cert.KernelIdeal.Run Cert.KernelIdeal.Host Cert.Lib.PlainDot Cert.Bridge

variable [Cert.Pre_finite_inputs.Facts]
variable (m : (ℓ : Loc nD τ sig) → Buf (Elt Ideal) ℓ) (c : Dev nD)
variable (hpre : Cert.Pre_finite_inputs.fn (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) = (fun _ => 1#1))

/-- The input as a matrix is made of reals. -/
theorem reals_x (h0 : Cert.PreDecode.AllReal (arg m c main_arg0)) : Reals (Cert.Spec.xmat (arg m c main_arg0)) :=
  fun i => h0 _

include hpre in
/-- Rows 0 … 383 of the stacked projection are the query projection. -/
theorem rows_q : Val1.rowsQ (E3 m c main_v31)
    = Cert.Spec.normProj (arg m c main_arg3) (Cert.Spec.xmat (arg m c main_arg0)) (arg m c main_arg4)
        (arg m c main_arg11) (arg m c main_arg12) (arg m c main_arg13) (arg m c main_arg14) := by
  obtain ⟨r0, r1, r2, r3, r4, r5, r6, r7, r8, r9, r10, r11, r12, r13, r14, r15, r16, r17, r18, r19, r20, r21, r22, r23, r24, r25, r26, p14, p18, p22⟩ :=
    Cert.PreDecode.decode _ _ _ _ _ _ _ _ _ _ _ _ _ _ _ _ _ _ _ _ _ _ _ _ _ _ _ hpre
  funext i
  obtain ⟨c', j, rfl⟩ : ∃ (c' : Fin 384) (j : Fin 4096), i = ix2 c' j := ⟨i 0, i 1, eq_ix2 i⟩
  show E3 m c main_v31 (ix2 (⟨c'.val, _⟩ : Fin 1152) j) = _
  rw [Chain.stacked, h1_x]
  exact row_is_normProj _ _ _ _ _ _ _ _ _ _ _ c' (h2_q m c c') (h3_scale_q m c c') (h3_shift_q m c c')
    (fun i => r3 i) (reals_x m c r0) (fun i => r4 i) (fun i => r11 i) (fun i => r12 i) (fun i => r13 i) (fun i => r14 i) p14 j

include hpre in
/-- Rows 384 … 767 are the key projection. -/
theorem rows_k : Val1.rowsK (E3 m c main_v31)
    = Cert.Spec.normProj (arg m c main_arg5) (Cert.Spec.xmat (arg m c main_arg0)) (arg m c main_arg6)
        (arg m c main_arg15) (arg m c main_arg16) (arg m c main_arg17) (arg m c main_arg18) := by
  obtain ⟨r0, r1, r2, r3, r4, r5, r6, r7, r8, r9, r10, r11, r12, r13, r14, r15, r16, r17, r18, r19, r20, r21, r22, r23, r24, r25, r26, p14, p18, p22⟩ :=
    Cert.PreDecode.decode _ _ _ _ _ _ _ _ _ _ _ _ _ _ _ _ _ _ _ _ _ _ _ _ _ _ _ hpre
  funext i
  obtain ⟨c', j, rfl⟩ : ∃ (c' : Fin 384) (j : Fin 4096), i = ix2 c' j := ⟨i 0, i 1, eq_ix2 i⟩
  show E3 m c main_v31 (ix2 (⟨384 + c'.val, _⟩ : Fin 1152) j) = _
  rw [Chain.stacked, h1_x]
  exact row_is_normProj _ _ _ _ _ _ _ _ _ _ _ c' (h2_k m c c') (h3_scale_k m c c') (h3_shift_k m c c')
    (fun i => r5 i) (reals_x m c r0) (fun i => r6 i) (fun i => r15 i) (fun i => r16 i) (fun i => r17 i) (fun i => r18 i) p18 j

include hpre in
/-- Rows 768 … 1151 are the value projection. -/
theorem rows_v : Val1.rowsV (E3 m c main_v31)
    = Cert.Spec.normProj (arg m c main_arg7) (Cert.Spec.xmat (arg m c main_arg0)) (arg m c main_arg8)
        (arg m c main_arg19) (arg m c main_arg20) (arg m c main_arg21) (arg m c main_arg22) := by
  obtain ⟨r0, r1, r2, r3, r4, r5, r6, r7, r8, r9, r10, r11, r12, r13, r14, r15, r16, r17, r18, r19, r20, r21, r22, r23, r24, r25, r26, p14, p18, p22⟩ :=
    Cert.PreDecode.decode _ _ _ _ _ _ _ _ _ _ _ _ _ _ _ _ _ _ _ _ _ _ _ _ _ _ _ hpre
  funext i
  obtain ⟨c', j, rfl⟩ : ∃ (c' : Fin 384) (j : Fin 4096), i = ix2 c' j := ⟨i 0, i 1, eq_ix2 i⟩
  show E3 m c main_v31 (ix2 (⟨768 + c'.val, _⟩ : Fin 1152) j) = _
  rw [Chain.stacked, h1_x]
  exact row_is_normProj _ _ _ _ _ _ _ _ _ _ _ c' (h2_v m c c') (h3_scale_v m c c') (h3_shift_v m c c')
    (fun i => r7 i) (reals_x m c r0) (fun i => r8 i) (fun i => r19 i) (fun i => r20 i) (fun i => r21 i) (fun i => r22 i) p22 j

/-- The specification's attention matrix of this memory's arguments. -/
abbrev specAttn : Cert.Spec.Mat 4096 4096 :=
  Cert.Spec.attn (arg m c main_arg0) (arg m c main_arg1) (arg m c main_arg2) (arg m c main_arg3) (arg m c main_arg4)
    (arg m c main_arg5) (arg m c main_arg6) (arg m c main_arg11) (arg m c main_arg12) (arg m c main_arg13) (arg m c main_arg14)
    (arg m c main_arg15) (arg m c main_arg16) (arg m c main_arg17) (arg m c main_arg18)
    (arg m c main_arg23) (arg m c main_arg24) (arg m c main_arg25) (arg m c main_arg26)

include hpre in
/-- The attention matrix the second region leaves is the specification's. -/
theorem attnK_spec : Val1.attnK (E3 m c main_v31) (E3 m c main_v42) = specAttn m c :=
  attn_is_spec _ _ _ _ _ _ (rows_q m c hpre) (rows_k m c hpre) (h4_factors m c)

include hpre in
/-- THE SECOND RESULT: the attention matrix at the end of the kernel program is the specification's. -/
theorem attn_eq : B7 m c main_v43_0 = specAttn m c :=
  (Chain.attn_end m c).trans (attnK_spec m c hpre)

include hpre in
/-- THE FIRST RESULT: at the end of the kernel program it is the re-lay of the specification's residual. -/
theorem result_eq : B7 m c main_v48
    = shapeCast S64x12x4096 (Cert.Spec.residual (Cert.Spec.xmat (arg m c main_arg0)) (specAttn m c)
        (Cert.Spec.normProj (arg m c main_arg7) (Cert.Spec.xmat (arg m c main_arg0)) (arg m c main_arg8)
          (arg m c main_arg19) (arg m c main_arg20) (arg m c main_arg21) (arg m c main_arg22))
        (arg m c main_arg9) (arg m c main_arg10) shapeCasts_S384x4096_S4096x384 shapeCasts_S4096x384_S384x4096)
      shapeCasts_S768x4096_S64x12x4096 := by
  rw [h6_out, Chain.resid_after, h5_v45, h5_v0, h1_x]
  refine congrArg (fun z => shapeCast S64x12x4096 z shapeCasts_S768x4096_S64x12x4096) ?_
  refine resid_is_spec _ _ _ _ _ (E3 m c main_v33) _ _ _ _ ?_ ?_ (h5_v46 m c)
  · -- the attention output re-laid: the re-lay of (attention matrix) · (re-laid values)
    rw [h5_v44, Chain.av_after, attnK_spec m c hpre]
  · -- the re-laid values: the re-lay of the value rows of the stacked projection
    rw [h4_v33]
    refine congrArg (fun z => shapeCast S4096x384 z shapeCasts_S384x4096_S4096x384) ?_
    rw [← rows_v m c hpre]
    funext i
    obtain ⟨c', j, rfl⟩ : ∃ (c' : Fin 384) (j : Fin 4096), i = ix2 c' j := ⟨i 0, i 1, eq_ix2 i⟩
    rw [h4_slice, ← h4_v31]
    rfl

/-- The specification's first result of this memory's arguments: its residual, re-laid as 64 x 12 x 4096. -/
abbrev specOut : Buf (Elt Ideal) ((c.tc : Thread nD τ).loc main_v48) :=
  shapeCast S64x12x4096 (Cert.Spec.residual (Cert.Spec.xmat (arg m c main_arg0)) (specAttn m c)
      (Cert.Spec.normProj (arg m c main_arg7) (Cert.Spec.xmat (arg m c main_arg0)) (arg m c main_arg8)
        (arg m c main_arg19) (arg m c main_arg20) (arg m c main_arg21) (arg m c main_arg22))
      (arg m c main_arg9) (arg m c main_arg10) shapeCasts_S384x4096_S4096x384 shapeCasts_S4096x384_S384x4096)
    shapeCasts_S768x4096_S64x12x4096

include hpre in
theorem out_eq : B7 m c main_v48 = specOut m c := result_eq m c hpre

end Cert.KernelIdeal.Alg

end
-- ==== Proof.RefIsSpec.lean ====
import proofs.«143704_j73521250173422_2_alg».proof.Proof.Gen.ReferenceIdeal.Read
import proofs.«143704_j73521250173422_2_alg».proof.Proof.Spec
import proofs.«143704_j73521250173422_2_alg».proof.Proof.LibRowMax
import Idealize.ShloMosaic.Lib.ValueIdx
import Idealize.ShloMosaic.PureOps.Ideal.Laws

/-!
  The reference program computes the specification: each of its stages, read at an index as a function of the argument
  arrays, is the corresponding definition of the specification, layer by layer.
-/

noncomputable section

namespace Cert.RefIsSpec

open Cert.ReferenceIdeal Cert.ReferenceIdeal.Gen Cert.ReferenceIdeal.Read
open Idealize.ShloMosaic Idealize.ShloMosaic.ValueIdx

/-- An array of extended reals of one of the reference's shapes. -/
abbrev A (s : Shape) : Type := (⟨s, .f32⟩ : BufTy).Contents (Elt Ideal)

/-! ## Index equations: the generated index maps at coordinates -/

/-- A per-row vector spread over the columns is read at the row. -/
theorem idx_col (c : Fin 384) (j : Fin 4096) : idx_main_v2 (idx_main_v3 (ix2 c j)) = ix1 c := by
  funext a; match a with | ⟨0, _⟩ => rfl

/-- Entry (r, j) of the input matrix is entry (0, r, j) of the input: (r * 4096 + j) / 4096 = r and
    (r * 4096 + j) % 4096 = j for j < 4096. -/
theorem idx_x (r : Fin 768) (j : Fin 4096) : idx_main_v0 (ix2 r j) = ix3 (0 : Fin 1) r j := by
  funext a
  match a with
  | ⟨0, _⟩ => rfl
  | ⟨1, _⟩ => exact Fin.ext (by show (r.val * 4096 + j.val) / 4096 % 768 = r.val; have := r.isLt; have := j.isLt; omega)
  | ⟨2, _⟩ => exact Fin.ext (by show (r.val * 4096 + j.val) % 4096 = j.val; have := r.isLt; have := j.isLt; omega)

/-- The left operand of a projection's contraction at output (c, j) and contraction index k is entry (c, k). -/
theorem lidx_proj (c : Fin 384) (j : Fin 4096) (k : Fin 768) : lidx_main_v1 (ix2 c j) k = ix2 c k := by
  funext a; match a with | ⟨0, _⟩ => rfl | ⟨1, _⟩ => rfl

/-- The right operand there is entry (k, j). -/
theorem ridx_proj (c : Fin 384) (j : Fin 4096) (k : Fin 768) : ridx_main_v1 (ix2 c j) k = ix2 k j := by
  funext a; match a with | ⟨0, _⟩ => rfl | ⟨1, _⟩ => rfl

/-- A modulation row's contraction at column j: the left operand is entry (0, k) of the row vector. -/
theorem lidx_fac (z : Fin 1) (j : Fin 4096) (k : Fin 256) : lidx_main_v37 (ix2 z j) k = ix2 (0 : Fin 1) k := by
  funext a
  match a with
  | ⟨0, _⟩ => exact Fin.ext (by show z.val = 0; have := z.isLt; omega)
  | ⟨1, _⟩ => rfl

/-- The right operand is the transposed weight at (k, j), which is the weight at (j, k). -/
theorem ridx_fac (z : Fin 1) (j : Fin 4096) (k : Fin 256) : idx_main_v36 (ridx_main_v37 (ix2 z j) k) = ix2 j k := by
  funext a; match a with | ⟨0, _⟩ => rfl | ⟨1, _⟩ => rfl

/-- The bias spread along the row is read at the column. -/
theorem idx_facb (z : Fin 1) (j : Fin 4096) : idx_main_v38 (ix2 z j) = ix1 j := by
  funext a; match a with | ⟨0, _⟩ => rfl

/-- The score's contraction runs over the channel, the first axis of both operands. -/
theorem lidx_sc (p q : Fin 4096) (k : Fin 384) : lidx_main_v35 (ix2 p q) k = ix2 k p := by
  funext a; match a with | ⟨0, _⟩ => rfl | ⟨1, _⟩ => rfl
theorem ridx_sc (p q : Fin 4096) (k : Fin 384) : ridx_main_v35 (ix2 p q) k = ix2 k q := by
  funext a; match a with | ⟨0, _⟩ => rfl | ⟨1, _⟩ => rfl

/-- A row vector spread over the rows is read at the column. -/
theorem idx_row (p q : Fin 4096) : idx_main_v44 (ix2 p q) = ix2 (0 : Fin 1) q := by
  funext a; match a with | ⟨0, _⟩ => rfl | ⟨1, _⟩ => rfl

/-- A per-row vector of length 4096 spread over the columns is read at the row. -/
theorem idx_colS (p q : Fin 4096) : idx_main_v51 (idx_main_v52 (ix2 p q)) = ix1 p := by
  funext a; match a with | ⟨0, _⟩ => rfl

/-- The row sum's k-th summand at row p is entry (p, k). -/
theorem idx_sum (p : Fin 4096) (k : Fin 4096) : idx_main_v55 (ix1 p) k = ix2 p k := by
  funext a; match a with | ⟨0, _⟩ => rfl | ⟨1, _⟩ => rfl

/-- The attention-times-values contraction at (a, b): attention (a, k), re-laid values (k, b). -/
theorem lidx_av (a : Fin 4096) (b : Fin 384) (k : Fin 4096) : lidx_main_v77 (ix2 a b) k = ix2 a k := by
  funext d; match d with | ⟨0, _⟩ => rfl | ⟨1, _⟩ => rfl
theorem ridx_av (a : Fin 4096) (b : Fin 384) (k : Fin 4096) : ridx_main_v77 (ix2 a b) k = ix2 k b := by
  funext d; match d with | ⟨0, _⟩ => rfl | ⟨1, _⟩ => rfl

/-- The last projection's contraction at (r, j): weight (r, k), re-laid product (k, j). -/
theorem lidx_out (r : Fin 768) (j : Fin 4096) (k : Fin 384) : lidx_main_v79 (ix2 r j) k = ix2 r k := by
  funext d; match d with | ⟨0, _⟩ => rfl | ⟨1, _⟩ => rfl
theorem ridx_out (r : Fin 768) (j : Fin 4096) (k : Fin 384) : ridx_main_v79 (ix2 r j) k = ix2 k j := by
  funext d; match d with | ⟨0, _⟩ => rfl | ⟨1, _⟩ => rfl

/-- The last bias spread over the columns is read at the row. -/
theorem idx_colO (r : Fin 768) (j : Fin 4096) : idx_main_v80 (idx_main_v81 (ix2 r j)) = ix1 r := by
  funext a; match a with | ⟨0, _⟩ => rfl

variable (a0 : A S1x768x4096) (a1 a2 : A S1x256) (a3 : A S384x768) (a4 : A S384) (a5 : A S384x768) (a6 : A S384)
  (a7 : A S384x768) (a8 : A S384) (a9 : A S768x384) (a10 : A S768)
  (a11 a12 a13 a14 a15 a16 a17 a18 a19 a20 a21 a22 : A S384)
  (a23 : A S4096x256) (a24 : A S4096) (a25 : A S4096x256) (a26 : A S4096)

/-! ## The normalised projections -/

/-- The query projection (operations 1 to 17) is the specification's normalised projection of the input matrix. -/
theorem v17_eq :
    val_main_v17 (F := Ideal) a0 a3 a4 a11 a12 a13 a14 = Cert.Spec.normProj a3 (Cert.Spec.xmat a0) a4 a11 a12 a13 a14 := by
  funext i
  obtain ⟨c, j, rfl⟩ : ∃ c j, i = ix2 c j := ⟨i 0, i 1, eq_ix2 i⟩
  rw [val_main_v17_apply, val_main_v14_apply, val_main_v11_apply, val_main_v4_apply, val_main_v1_apply, val_main_v3_apply,
    val_main_v2_apply, val_main_v10_apply, val_main_v9_apply, val_main_v13_apply, val_main_v12_apply, val_main_v8_apply,
    val_main_v7_apply, val_main_v6_apply, val_main_v5_apply, val_main_cst_apply, val_main_v16_apply, val_main_v15_apply]
  have e2 : idx_main_v2 (idx_main_v3 (ix2 c j)) = ix1 c := idx_col c j
  have e9 : idx_main_v9 (idx_main_v10 (ix2 c j)) = ix1 c := idx_col c j
  have e12 : idx_main_v12 (idx_main_v13 (ix2 c j)) = ix1 c := idx_col c j
  have e15 : idx_main_v15 (idx_main_v16 (ix2 c j)) = ix1 c := idx_col c j
  rw [e2, e9, e12, e15]
  simp only [val_main_v0_apply, lidx_proj, ridx_proj, idx_x]
  rfl

/-- The key projection (operations 18 to 34) is the same text on other arguments. -/
theorem v34_eq :
    val_main_v34 (F := Ideal) a0 a5 a6 a15 a16 a17 a18 = Cert.Spec.normProj a5 (Cert.Spec.xmat a0) a6 a15 a16 a17 a18 :=
  (show val_main_v34 (F := Ideal) a0 a5 a6 a15 a16 a17 a18 = val_main_v17 (F := Ideal) a0 a5 a6 a15 a16 a17 a18 from rfl).trans
    (v17_eq a0 a5 a6 a15 a16 a17 a18)

/-- The value projection (operations 59 to 75) likewise. -/
theorem v75_eq :
    val_main_v75 (F := Ideal) a0 a7 a8 a19 a20 a21 a22 = Cert.Spec.normProj a7 (Cert.Spec.xmat a0) a8 a19 a20 a21 a22 :=
  (show val_main_v75 (F := Ideal) a0 a7 a8 a19 a20 a21 a22 = val_main_v17 (F := Ideal) a0 a7 a8 a19 a20 a21 a22 from rfl).trans
    (v17_eq a0 a7 a8 a19 a20 a21 a22)

/-! ## The modulation factors -/

/-- The first modulation row (operations 36 to 39) at column j is the specification's factor. -/
theorem v39_at (z : Fin 1) (j : Fin 4096) :
    val_main_v39 (F := Ideal) a1 a23 a24 (ix2 z j) = Cert.Spec.factor a1 a23 a24 j := by
  rw [val_main_v39_apply, val_main_v37_apply, val_main_v38_apply, idx_facb]
  simp only [val_main_v36_apply, lidx_fac, ridx_fac]
  rfl

/-- The second (operations 40 to 43) is the same text on other arguments. -/
theorem v43_at (z : Fin 1) (j : Fin 4096) :
    val_main_v43 (F := Ideal) a2 a25 a26 (ix2 z j) = Cert.Spec.factor a2 a25 a26 j :=
  (show val_main_v43 (F := Ideal) a2 a25 a26 (ix2 z j) = val_main_v39 (F := Ideal) a2 a25 a26 (ix2 z j) from rfl).trans
    (v39_at a2 a25 a26 z j)

/-! ## The scores -/

/-- The modulated scores (operations 35 and 44 to 47). -/
theorem v47_eq :
    val_main_v47 (F := Ideal) a0 a1 a2 a3 a4 a5 a6 a11 a12 a13 a14 a15 a16 a17 a18 a23 a24 a25 a26
      = Cert.Spec.score (Cert.Spec.normProj a3 (Cert.Spec.xmat a0) a4 a11 a12 a13 a14)
          (Cert.Spec.normProj a5 (Cert.Spec.xmat a0) a6 a15 a16 a17 a18) (Cert.Spec.factor a1 a23 a24) (Cert.Spec.factor a2 a25 a26) := by
  funext i
  obtain ⟨p, q, rfl⟩ : ∃ p q, i = ix2 p q := ⟨i 0, i 1, eq_ix2 i⟩
  rw [val_main_v47_apply, val_main_v45_apply, val_main_v35_apply, val_main_v44_apply, val_main_v46_apply, v17_eq, v34_eq]
  have e44 : idx_main_v44 (ix2 p q) = ix2 (0 : Fin 1) q := idx_row p q
  have e46 : idx_main_v46 (ix2 p q) = ix2 (0 : Fin 1) q := idx_row p q
  rw [e44, e46, v39_at, v43_at]
  simp only [lidx_sc, ridx_sc]
  rfl

/-! ## The softmax -/

/-- The f32 word 0xFF800000 denotes -∞. -/
theorem ofBits_neg_inf : Ideal.ofBits .f32 0xFF800000#32 = ⊥ := by simp [Ideal.ofBits, Ideal.ieee]

/-- The row maximum (operation 48: a reduce with a maximum body from -∞ along the second axis) at row p is the
    specification's fold of max from -∞ over that row of the scores. -/
theorem v48_at (p : Fin 4096) :
    val_main_v48 (F := Ideal) a0 a1 a2 a3 a4 a5 a6 a11 a12 a13 a14 a15 a16 a17 a18 a23 a24 a25 a26 (ix1 p)
      = Cert.Spec.rowMax (val_main_v47 (F := Ideal) a0 a1 a2 a3 a4 a5 a6 a11 a12 a13 a14 a15 a16 a17 a18 a23 a24 a25 a26) p := by
  have h := Cert.Lib.RowMax.hostRowMax_apply
    (val_main_v47 (F := Ideal) a0 a1 a2 a3 a4 a5 a6 a11 a12 a13 a14 a15 a16 a17 a18 a23 a24 a25 a26)
    reducesTo_S4096x4096_S4096_d1 (by decide) h_S_ p
  rw [ofBits_neg_inf] at h
  exact h

/-- The exponentials (operations 49 to 54) at (p, q): the maximum of -∞ and the row maximum is the row maximum. -/
theorem v54_at (p q : Fin 4096) :
    val_main_v54 (F := Ideal) a0 a1 a2 a3 a4 a5 a6 a11 a12 a13 a14 a15 a16 a17 a18 a23 a24 a25 a26 (ix2 p q)
      = Ideal.exp (val_main_v47 (F := Ideal) a0 a1 a2 a3 a4 a5 a6 a11 a12 a13 a14 a15 a16 a17 a18 a23 a24 a25 a26 (ix2 p q)
          - Cert.Spec.rowMax (val_main_v47 (F := Ideal) a0 a1 a2 a3 a4 a5 a6 a11 a12 a13 a14 a15 a16 a17 a18 a23 a24 a25 a26) p) := by
  rw [val_main_v54_apply, val_main_v53_apply, val_main_v52_apply, val_main_v51_apply, val_main_v50_apply, val_main_v49_apply,
    val_main_cst_2_apply, idx_colS, v48_at, Ideal.maximumf_def, Ideal.ofBits_def, ofBits_neg_inf, max_bot_left]
  rfl

/-- The attention matrix (operations 55 to 58): each exponential over its row's sum, the sum taken from the zero word. -/
theorem v58_eq :
    val_main_v58 (F := Ideal) a0 a1 a2 a3 a4 a5 a6 a11 a12 a13 a14 a15 a16 a17 a18 a23 a24 a25 a26
      = Cert.Spec.softmax (val_main_v47 (F := Ideal) a0 a1 a2 a3 a4 a5 a6 a11 a12 a13 a14 a15 a16 a17 a18 a23 a24 a25 a26) := by
  funext i
  obtain ⟨p, q, rfl⟩ : ∃ p q, i = ix2 p q := ⟨i 0, i 1, eq_ix2 i⟩
  rw [val_main_v58_apply, val_main_v57_apply, val_main_v56_apply, val_main_v55_apply, val_main_cst_3_apply, v54_at]
  have e : idx_main_v56 (idx_main_v57 (ix2 p q)) = ix1 p := idx_colS p q
  rw [e, Ideal.ofBits_def, Ideal.ofBits_zero_f32, zero_add]
  simp only [idx_sum, v54_at]
  rfl

/-- (A) The reference's second result, the attention matrix, is the specification's. -/
theorem attn_eq :
    val_main_v58 (F := Ideal) a0 a1 a2 a3 a4 a5 a6 a11 a12 a13 a14 a15 a16 a17 a18 a23 a24 a25 a26
      = Cert.Spec.attn a0 a1 a2 a3 a4 a5 a6 a11 a12 a13 a14 a15 a16 a17 a18 a23 a24 a25 a26 := by
  rw [v58_eq, v47_eq]
  rfl

/-! ## The residual -/

/-- Attention times the re-laid values (operations 76 and 77), entry by entry. -/
theorem v77_eq :
    val_main_v77 (F := Ideal) a0 a1 a2 a3 a4 a5 a6 a7 a8 a11 a12 a13 a14 a15 a16 a17 a18 a19 a20 a21 a22 a23 a24 a25 a26
      = fun i => ∑ t : Fin 4096,
          Cert.Spec.attn a0 a1 a2 a3 a4 a5 a6 a11 a12 a13 a14 a15 a16 a17 a18 a23 a24 a25 a26 (ix2 (i 0) t)
            * shapeCast S4096x384 (Cert.Spec.normProj a7 (Cert.Spec.xmat a0) a8 a19 a20 a21 a22) shapeCasts_S384x4096_S4096x384 (ix2 t (i 1)) := by
  funext i
  obtain ⟨a, b, rfl⟩ : ∃ a b, i = ix2 a b := ⟨i 0, i 1, eq_ix2 i⟩
  rw [val_main_v77_apply, attn_eq]
  unfold val_main_v76
  rw [v75_eq]
  simp only [lidx_av, ridx_av]

/-- The sum before the last re-lay (operations 78 to 83): the input plus the projected, biased product. -/
theorem v83_eq :
    val_main_v83 (F := Ideal) a0 a1 a2 a3 a4 a5 a6 a7 a8 a9 a10 a11 a12 a13 a14 a15 a16 a17 a18 a19 a20 a21 a22 a23 a24 a25 a26
      = Cert.Spec.residual (Cert.Spec.xmat a0) (Cert.Spec.attn a0 a1 a2 a3 a4 a5 a6 a11 a12 a13 a14 a15 a16 a17 a18 a23 a24 a25 a26)
          (Cert.Spec.normProj a7 (Cert.Spec.xmat a0) a8 a19 a20 a21 a22) a9 a10
          shapeCasts_S384x4096_S4096x384 shapeCasts_S4096x384_S384x4096 := by
  funext i
  obtain ⟨r, j, rfl⟩ : ∃ r j, i = ix2 r j := ⟨i 0, i 1, eq_ix2 i⟩
  rw [val_main_v83_apply, val_main_v82_apply, val_main_v79_apply, val_main_v81_apply, val_main_v80_apply, val_main_v0_apply,
    idx_x, idx_colO]
  unfold val_main_v78
  rw [v77_eq]
  simp only [lidx_out, ridx_out]
  rfl

/-- (B) The reference's first result, the re-lay of that sum as 64 x 12 x 4096, is the re-lay of the specification's residual. -/
theorem out_eq :
    val_main_v84 (F := Ideal) a0 a1 a2 a3 a4 a5 a6 a7 a8 a9 a10 a11 a12 a13 a14 a15 a16 a17 a18 a19 a20 a21 a22 a23 a24 a25 a26
      = shapeCast S64x12x4096
          (Cert.Spec.residual (Cert.Spec.xmat a0) (Cert.Spec.attn a0 a1 a2 a3 a4 a5 a6 a11 a12 a13 a14 a15 a16 a17 a18 a23 a24 a25 a26)
            (Cert.Spec.normProj a7 (Cert.Spec.xmat a0) a8 a19 a20 a21 a22) a9 a10
            shapeCasts_S384x4096_S4096x384 shapeCasts_S4096x384_S384x4096)
          shapeCasts_S768x4096_S64x12x4096 := by
  unfold val_main_v84
  rw [v83_eq]

end Cert.RefIsSpec

end
-- ==== Proof.lean ====
/-
  The certificate's five claims. The three frames: each program, from any memory with zero counters, terminates on
  every weakly fair execution, faults nowhere and leaves its twenty-seven argument arrays as launched. For the two
  kernel programs this is the run of their seven items (four stretches of host operations around three kernel
  regions), read at the arguments, at the word-level instance and at the exact one; for the reference it is its
  run with the results dropped. The idealization rewrote nothing, so the second program is the first read at the
  exact instance. The last claim: at the exact instance, from memories that agree on the arguments, finite and with
  nonnegative variances, both programs end with the specification's attention matrix and with the re-lay of the
  specification's residual: the kernel program by the fold law and the layout of its three regions, the reference
  by reading its run operation by operation.
-/
import proofs.«143704_j73521250173422_2_alg».proof.Defs
import proofs.«143704_j73521250173422_2_alg».proof.Proof.Gen.Kernel
import proofs.«143704_j73521250173422_2_alg».proof.Proof.Gen.KernelIdeal
import proofs.«143704_j73521250173422_2_alg».proof.Proof.Gen.ReferenceIdeal
import proofs.«143704_j73521250173422_2_alg».proof.Proof.Gen.ReferenceIdeal.Run
import proofs.«143704_j73521250173422_2_alg».proof.Proof.Gen.ReferenceIdeal.Read
import proofs.«143704_j73521250173422_2_alg».proof.Proof.Gen.Pre_finite_inputs
import proofs.«143704_j73521250173422_2_alg».proof.Proof.KRun
import proofs.«143704_j73521250173422_2_alg».proof.Proof.KIRun
import proofs.«143704_j73521250173422_2_alg».proof.Proof.KIAlg
import proofs.«143704_j73521250173422_2_alg».proof.Proof.RefIsSpec
import Idealize.ShloMosaic.Adequacy
import Idealize.ShloMosaic.Init

noncomputable section

namespace Cert.Proof

open Idealize.ShloMosaic Idealize.SL.Sem

set_option maxHeartbeats 4000000 in
/-- At the exact instance the kernel program and the reference, run from memories that agree on the arguments and
    satisfy the precondition, end with equal results: each result is the specification's function of the arguments.
    The kernel program's run names every unscoped buffer's final contents; its two results are read there and
    identified with the specification, and each argument is read there and walked back to the launch memory. The
    reference's run is rewritten by the agreement of the arguments and then read operation by operation. -/
theorem algebraic [hKI : Cert.KernelIdeal.Facts] [hRI : Cert.ReferenceIdeal.Facts] [hP : Cert.Pre_finite_inputs.Facts] :
    Cert.algebraic_KernelIdeal_ReferenceIdeal := by
  intro m ρ m' ρ' hpre hagree
  refine ⟨fun c => Cert.KernelIdeal.Alg.specOut m c, fun c => Cert.KernelIdeal.Alg.specAttn m c, ?_, ?_⟩
  · refine (θ_run Cert.KernelIdeal.defs _ _).mono (fun r h c => ?_) (Cert.KernelIdeal.Run.run m ρ)
    refine ⟨(h c _ (Cert.KernelIdeal.Run.mem_uc Cert.KernelIdeal.main_v48 (by decide))).trans (Cert.KernelIdeal.Alg.out_eq m c (hpre c)),
      (h c _ (Cert.KernelIdeal.Run.mem_uc Cert.KernelIdeal.main_v43_0 (by decide))).trans (Cert.KernelIdeal.Alg.attn_eq m c (hpre c)), ?_⟩
    repeat' apply And.intro
    all_goals exact Cert.KernelIdeal.Run.arg_end m c (h c) _ (by decide) (by decide) (by decide) (by decide) (by decide) (by decide) (by decide) (by decide) (by decide)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18, e19, e20, e21, e22, e23, e24, e25, e26⟩ := hagree c
    refine ⟨?_, ?_, (h c).2.2⟩
    · rw [(h c).1, Cert.ReferenceIdeal.Read.val_main_v84_eq, e0, e1, e2, e3, e4, e5, e6, e7, e8, e9, e10, e11, e12, e13, e14, e15, e16, e17, e18,
        e19, e20, e21, e22, e23, e24, e25, e26]
      exact Cert.RefIsSpec.out_eq _ _ _ _ _ _ _ _ _ _ _ _ _ _ _ _ _ _ _ _ _ _ _ _ _ _ _
    · rw [(h c).2.1, Cert.ReferenceIdeal.Read.val_main_v58_eq, e0, e1, e2, e3, e4, e5, e6, e11, e12, e13, e14, e15, e16, e17, e18, e23, e24, e25, e26]
      exact Cert.RefIsSpec.attn_eq _ _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => (θ_run Cert.ReferenceIdeal.defs _ _).mono (fun _ h c => (h c).2.2) (Cert.ReferenceIdeal.Value.run (F := Ideal) m ρ),
  trivial,
  algebraic⟩

end Cert.Proof

end
